-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x16 : Shape := ⟨2, ![16384, 16]⟩
abbrev S100000x512 : Shape := ⟨2, ![100000, 512]⟩
abbrev S100000 : Shape := ⟨1, ![100000]⟩
abbrev S128 : Shape := ⟨1, ![128]⟩
abbrev S512x1040 : Shape := ⟨2, ![512, 1040]⟩
abbrev S512 : Shape := ⟨1, ![512]⟩
abbrev S1536x640 : Shape := ⟨2, ![1536, 640]⟩
abbrev S1536x512 : Shape := ⟨2, ![1536, 512]⟩
abbrev S1536 : Shape := ⟨1, ![1536]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S100000x512 : S_.BroadcastsInDim S100000x512 (![] : Fin 0 → Fin S100000x512.rank)
  reducesTo_S100000x512_S_d0_1 : S100000x512.ReducesTo [0, 1] S_
  bcast_S_S100000 : S_.BroadcastsInDim S100000 (![] : Fin 0 → Fin S100000.rank)
  reducesTo_S100000_S_d0 : S100000.ReducesTo [0] S_
  bcast_S_S128 : S_.BroadcastsInDim S128 (![] : Fin 0 → Fin S128.rank)
  reducesTo_S128_S_d0 : S128.ReducesTo [0] S_
  bcast_S_S512x1040 : S_.BroadcastsInDim S512x1040 (![] : Fin 0 → Fin S512x1040.rank)
  reducesTo_S512x1040_S_d0_1 : S512x1040.ReducesTo [0, 1] S_
  bcast_S_S512 : S_.BroadcastsInDim S512 (![] : Fin 0 → Fin S512.rank)
  reducesTo_S512_S_d0 : S512.ReducesTo [0] S_
  bcast_S_S1536x640 : S_.BroadcastsInDim S1536x640 (![] : Fin 0 → Fin S1536x640.rank)
  reducesTo_S1536x640_S_d0_1 : S1536x640.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part3 {F : FTy → Type} [FloatOps F] (main_arg13 : FVec F S1536 .f32) (main_v48 : IVec S_ 1) (main_v49 : FVec F S1536 .f32) (main_v50 : FVec F S1536 .f32) : IVec S_ 1 :=
  let main_v51 : IVec S1536 1 := cmpf .olt main_v49 main_v50
  let main_c_19 : IVec S_ 1 := constantI S_ 1 1#1
  let main_v52 : IVec S_ 1 := (fun x v => Host.reduce IntOp.andi x v reducesTo_S1536_S_d0 h_S_) main_v51 main_c_19
  let main_v53 : IVec S_ 1 := andi main_v48 main_v52
  let main_v54 : FVec F S1536 .f32 := Host.absf main_arg13
  let main_cst_20 : FVec F S_ .f32 := constant S_ .f32 0x7F800000#32
  let main_v55 : FVec F S1536 .f32 := broadcastInDim S1536 ![] bcast_S_S1536 main_cst_20
  let main_v56 : IVec S1536 1 := cmpf .olt main_v54 main_v55
  let main_c_21 : IVec S_ 1 := constantI S_ 1 1#1
  let main_v57 : IVec S_ 1 := (fun x v => Host.reduce IntOp.andi x v reducesTo_S1536_S_d0 h_S_) main_v56 main_c_21
  let main_v58 : IVec S_ 1 := andi main_v53 main_v57
  main_v58

def fn_part2 {F : FTy → Type} [FloatOps F] (main_arg9 : FVec F S512 .f32) (main_arg10 : FVec F S1536x640 .f32) (main_arg11 : FVec F S1536x512 .f32) (main_arg12 : FVec F S1536 .f32) (main_arg13 : FVec F S1536 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1536x640 .f32 := Host.absf main_arg10
  let main_cst_14 : FVec F S_ .f32 := constant S_ .f32 0x7F800000#32
  let main_v40 : FVec F S1536x640 .f32 := broadcastInDim S1536x640 ![] bcast_S_S1536x640 main_cst_14
  let main_v41 : IVec S1536x640 1 := cmpf .olt main_v39 main_v40
  let main_c_15 : IVec S_ 1 := constantI S_ 1 1#1
  let main_v42 : IVec S_ 1 := (fun x v => Host.reduce IntOp.andi x v reducesTo_S1536x640_S_d0_1 h_S_) main_v41 main_c_15
  let main_v43 : IVec S_ 1 := andi main_v38 main_v42
  let main_v44 : FVec F S1536x512 .f32 := Host.absf main_arg11
  let main_cst_16 : FVec F S_ .f32 := constant S_ .f32 0x7F800000#32
  let main_v45 : FVec F S1536x512 .f32 := broadcastInDim S1536x512 ![] bcast_S_S1536x512 main_cst_16
  let main_v46 : IVec S1536x512 1 := cmpf .olt main_v44 main_v45
  let main_c_17 : IVec S_ 1 := constantI S_ 1 1#1
  let main_v47 : IVec S_ 1 := (fun x v => Host.reduce IntOp.andi x v reducesTo_S1536x512_S_d0_1 h_S_) main_v46 main_c_17
  let main_v48 : IVec S_ 1 := andi main_v43 main_v47
  let main_v49 : FVec F S1536 .f32 := Host.absf main_arg12
  let main_cst_18 : FVec F S_ .f32 := constant S_ .f32 0x7F800000#32
  let main_v50 : FVec F S1536 .f32 := broadcastInDim S1536 ![] bcast_S_S1536 main_cst_18
  fn_part3 (F := F) main_arg13 main_v48 main_v49 main_v50

def fn_part1 {F : FTy → Type} [FloatOps F] (main_arg6 : FVec F S128 .f32) (main_arg7 : FVec F S128 .f32) (main_arg8 : FVec F S512x1040 .f32) (main_arg9 : FVec F S512 .f32) (main_arg10 : FVec F S1536x640 .f32) (main_arg11 : FVec F S1536x512 .f32) (main_arg12 : FVec F S1536 .f32) (main_arg13 : FVec F S1536 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x1040 .f32 := Host.absf main_arg8
  let main_cst_10 : FVec F S_ .f32 := constant S_ .f32 0x7F800000#32
  let main_v30 : FVec F S512x1040 .f32 := broadcastInDim S512x1040 ![] bcast_S_S512x1040 main_cst_10
  let main_v31 : IVec S512x1040 1 := cmpf .olt main_v29 main_v30
  let main_c_11 : IVec S_ 1 := constantI S_ 1 1#1
  let main_v32 : IVec S_ 1 := (fun x v => Host.reduce IntOp.andi x v reducesTo_S512x1040_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S16384 32) (main_arg1 : IVec S16384 32) (main_arg2 : FVec F S16384 .f32) (main_arg3 : FVec F S16384x16 .f32) (main_arg4 : FVec F S100000x512 .f32) (main_arg5 : FVec F S100000 .f32) (main_arg6 : FVec F S128 .f32) (main_arg7 : FVec F S128 .f32) (main_arg8 : FVec F S512x1040 .f32) (main_arg9 : FVec F S512 .f32) (main_arg10 : FVec F S1536x640 .f32) (main_arg11 : FVec F S1536x512 .f32) (main_arg12 : FVec F S1536 .f32) (main_arg13 : FVec F S1536 .f32) : IVec S_ 1 :=
  let main_v0 : FVec F S16384 .f32 := Host.absf main_arg2
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384x16 .f32 := Host.absf main_arg3
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_v9 : FVec F S100000x512 .f32 := Host.absf main_arg4
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S100000 .f32 := Host.absf main_arg5
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg6 main_arg7 main_arg8 main_arg9 main_arg10 main_arg11 main_arg12 main_arg13 main_v13 main_v16
-- ==== Kernel.lean ====
abbrev S16384 : Shape := ⟨1, ![16384]⟩
abbrev S16384x16 : Shape := ⟨2, ![16384, 16]⟩
abbrev S100000x512 : Shape := ⟨2, ![100000, 512]⟩
abbrev S100000 : Shape := ⟨1, ![100000]⟩
abbrev S128 : Shape := ⟨1, ![128]⟩
abbrev S512x1040 : Shape := ⟨2, ![512, 1040]⟩
abbrev S512 : Shape := ⟨1, ![512]⟩
abbrev S1536x640 : Shape := ⟨2, ![1536, 640]⟩
abbrev S1536x512 : Shape := ⟨2, ![1536, 512]⟩
abbrev S1536 : Shape := ⟨1, ![1536]⟩
abbrev S_ : Shape := ⟨0, ![]⟩
abbrev S16384x1 : Shape := ⟨2, ![16384, 1]⟩
abbrev S16384x512 : Shape := ⟨2, ![16384, 512]⟩
abbrev S1040x512 : Shape := ⟨2, ![1040, 512]⟩
abbrev S512x512 : Shape := ⟨2, ![512, 512]⟩
abbrev S16x512 : Shape := ⟨2, ![16, 512]⟩
abbrev S640x1536 : Shape := ⟨2, ![640, 1536]⟩
abbrev S512x1536 : Shape := ⟨2, ![512, 1536]⟩
abbrev S128x1536 : Shape := ⟨2, ![128, 1536]⟩
abbrev S1x128 : Shape := ⟨2, ![1, 128]⟩
abbrev S16384x128 : Shape := ⟨2, ![16384, 128]⟩
abbrev S1x512 : Shape := ⟨2, ![1, 512]⟩
abbrev S1x1536 : Shape := ⟨2, ![1, 1536]⟩
abbrev S32768 : Shape := ⟨1, ![32768]⟩
abbrev S32768x512 : Shape := ⟨2, ![32768, 512]⟩
abbrev S32768x1 : Shape := ⟨2, ![32768, 1]⟩
abbrev S100000x1 : Shape := ⟨2, ![100000, 1]⟩
abbrev S512x16 : Shape := ⟨2, ![512, 16]⟩
abbrev S512x128 : Shape := ⟨2, ![512, 128]⟩

abbrev nBuf : Space → Nat
  | .hbm => 104
  | .vmem => 21
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S16384x16, .f32⟩
  | .hbm, ⟨4, _⟩ => ⟨S100000x512, .f32⟩
  | .hbm, ⟨5, _⟩ => ⟨S100000, .f32⟩
  | .hbm, ⟨6, _⟩ => ⟨S128, .f32⟩
  | .hbm, ⟨7, _⟩ => ⟨S128, .f32⟩
  | .hbm, ⟨8, _⟩ => ⟨S512x1040, .f32⟩
  | .hbm, ⟨9, _⟩ => ⟨S512, .f32⟩
  | .hbm, ⟨10, _⟩ => ⟨S1536x640, .f32⟩
  | .hbm, ⟨11, _⟩ => ⟨S1536x512, .f32⟩
  | .hbm, ⟨12, _⟩ => ⟨S1536, .f32⟩
  | .hbm, ⟨13, _⟩ => ⟨S1536, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x512, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x512, .f32⟩
  | .hbm, ⟨32, _⟩ => ⟨S1040x512, .f32⟩
  | .hbm, ⟨33, _⟩ => ⟨S512x512, .f32⟩
  | .hbm, ⟨34, _⟩ => ⟨S512x512, .bf16⟩
  | .hbm, ⟨35, _⟩ => ⟨S512x512, .f32⟩
  | .hbm, ⟨36, _⟩ => ⟨S512x512, .bf16⟩
  | .hbm, ⟨37, _⟩ => ⟨S16x512, .f32⟩
  | .hbm, ⟨38, _⟩ => ⟨S16x512, .bf16⟩
  | .hbm, ⟨39, _⟩ => ⟨S640x1536, .f32⟩
  | .hbm, ⟨40, _⟩ => ⟨S512x1536, .f32⟩
  | .hbm, ⟨41, _⟩ => ⟨S512x1536, .bf16⟩
  | .hbm, ⟨42, _⟩ => ⟨S128x1536, .f32⟩
  | .hbm, ⟨43, _⟩ => ⟨S128x1536, .bf16⟩
  | .hbm, ⟨44, _⟩ => ⟨S512x1536, .f32⟩
  | .hbm, ⟨45, _⟩ => ⟨S512x1536, .bf16⟩
  | .hbm, ⟨46, _⟩ => ⟨S16384x1, .f32⟩
  | .hbm, ⟨47, _⟩ => ⟨S1x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S1x128, .f32⟩
  | .hbm, ⟨52, _⟩ => ⟨S16384x128, .f32⟩
  | .hbm, ⟨53, _⟩ => ⟨S16384x128, .f32⟩
  | .hbm, ⟨54, _⟩ => ⟨S16384x128, .f32⟩
  | .hbm, ⟨55, _⟩ => ⟨S1x512, .f32⟩
  | .hbm, ⟨56, _⟩ => ⟨S1x1536, .f32⟩
  | .hbm, ⟨57, _⟩ => ⟨S1x1536, .f32⟩
  | .hbm, ⟨58, _⟩ => ⟨S16384x512, .f32⟩
  | .hbm, ⟨59, _⟩ => ⟨S16384x512, .f32⟩
  | .hbm, ⟨60, _⟩ => ⟨S32768, .i32⟩
  | .hbm, ⟨61, _⟩ => ⟨S32768x512, .f32⟩
  | .hbm, ⟨62, _⟩ => ⟨S32768, .f32⟩
  | .hbm, ⟨63, _⟩ => ⟨S32768, .i32⟩
  | .hbm, ⟨64, _⟩ => ⟨S_, .i32⟩
  | .hbm, ⟨65, _⟩ => ⟨S100000, .i32⟩
  | .hbm, ⟨66, _⟩ => ⟨S_, .i32⟩
  | .hbm, ⟨67, _⟩ => ⟨S32768, .i32⟩
  | .hbm, ⟨68, _⟩ => ⟨S32768, .i1⟩
  | .hbm, ⟨69, _⟩ => ⟨S_, .i32⟩
  | .hbm, ⟨70, _⟩ => ⟨S32768, .i32⟩
  | .hbm, ⟨71, _⟩ => ⟨S32768, .i32⟩
  | .hbm, ⟨72, _⟩ => ⟨S32768, .i32⟩
  | .hbm, ⟨73, _⟩ => ⟨S32768x1, .i32⟩
  | .hbm, ⟨74, _⟩ => ⟨S100000, .i32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S_, .i32⟩
  | .hbm, ⟨79, _⟩ => ⟨S_, .i32⟩
  | .hbm, ⟨80, _⟩ => ⟨S100000, .i32⟩
  | .hbm, ⟨81, _⟩ => ⟨S100000, .i32⟩
  | .hbm, ⟨82, _⟩ => ⟨S100000x1, .i1⟩
  | .hbm, ⟨83, _⟩ => ⟨S_, .i32⟩
  | .hbm, ⟨84, _⟩ => ⟨S100000, .i32⟩
  | .hbm, ⟨85, _⟩ => ⟨S100000, .i1⟩
  | .hbm, ⟨86, _⟩ => ⟨S_, .i32⟩
  | .hbm, ⟨87, _⟩ => ⟨S100000, .i32⟩
  | .hbm, ⟨88, _⟩ => ⟨S100000, .i32⟩
  | .hbm, ⟨89, _⟩ => ⟨S100000, .i32⟩
  | .hbm, ⟨90, _⟩ => ⟨S100000x1, .i32⟩
  | .hbm, ⟨91, _⟩ => ⟨S100000x512, .f32⟩
  | .hbm, ⟨92, _⟩ => ⟨S100000x512, .i1⟩
  | .hbm, ⟨93, _⟩ => ⟨S100000x512, .f32⟩
  | .hbm, ⟨94, _⟩ => ⟨S_, .i32⟩
  | .hbm, ⟨95, _⟩ => ⟨S100000, .i32⟩
  | .hbm, ⟨96, _⟩ => ⟨S100000, .i1⟩
  | .hbm, ⟨97, _⟩ => ⟨S_, .i32⟩
  | .hbm, ⟨98, _⟩ => ⟨S100000, .i32⟩
  | .hbm, ⟨99, _⟩ => ⟨S100000, .i32⟩
  | .hbm, ⟨100, _⟩ => ⟨S100000, .i32⟩
  | .hbm, ⟨101, _⟩ => ⟨S100000x1, .i32⟩
  | .hbm, ⟨102, _⟩ => ⟨S100000, .f32⟩
  | .hbm, ⟨103, _⟩ => ⟨S100000, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x16, .f32⟩
  | .local _ .vmem, ⟨5, _⟩ => ⟨S512x16, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S1x512, .f32⟩
  | .local _ .vmem, ⟨12, _⟩ => ⟨S512x1536, .bf16⟩
  | .local _ .vmem, ⟨13, _⟩ => ⟨S128x1536, .bf16⟩
  | .local _ .vmem, ⟨14, _⟩ => ⟨S512x1536, .bf16⟩
  | .local _ .vmem, ⟨15, _⟩ => ⟨S1x1536, .f32⟩
  | .local _ .vmem, ⟨16, _⟩ => ⟨S1x1536, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_c_1 : Ref sig .tc := ⟨.hbm, 23, rfl⟩
abbrev main_call0_v7 : Ref sig .tc := ⟨.hbm, 24, rfl⟩
abbrev main_call0_v8 : Ref sig .tc := ⟨.hbm, 25, rfl⟩
abbrev main_call0_c_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_v32 : Ref sig .tc := ⟨.hbm, 50, rfl⟩
abbrev main_call0_v33 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40_0 : Ref sig .tc := ⟨.hbm, 58, rfl⟩
abbrev main_call0_v40_1 : Ref sig .tc := ⟨.hbm, 59, rfl⟩
abbrev main_call0_v41 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_c_3 : Ref sig .tc := ⟨.hbm, 64, rfl⟩
abbrev main_call0_v45 : Ref sig .tc := ⟨.hbm, 65, rfl⟩
abbrev main_call0_c_4 : Ref sig .tc := ⟨.hbm, 66, rfl⟩
abbrev main_call0_v46 : Ref sig .tc := ⟨.hbm, 67, rfl⟩
abbrev main_call0_v47 : Ref sig .tc := ⟨.hbm, 68, rfl⟩
abbrev main_call0_c_5 : Ref sig .tc := ⟨.hbm, 69, rfl⟩
abbrev main_call0_v48 : Ref sig .tc := ⟨.hbm, 70, rfl⟩
abbrev main_call0_v49 : Ref sig .tc := ⟨.hbm, 71, rfl⟩
abbrev main_call0_v50 : Ref sig .tc := ⟨.hbm, 72, rfl⟩
abbrev main_call0_v51 : Ref sig .tc := ⟨.hbm, 73, rfl⟩
abbrev main_call0_v52 : Ref sig .tc := ⟨.hbm, 74, rfl⟩
abbrev main_call0_c_6 : Ref sig .tc := ⟨.hbm, 75, rfl⟩
abbrev main_call0_v53 : Ref sig .tc := ⟨.hbm, 76, rfl⟩
abbrev main_call0_v54 : Ref sig .tc := ⟨.hbm, 77, rfl⟩
abbrev main_call0_c_7 : Ref sig .tc := ⟨.hbm, 78, rfl⟩
abbrev main_call0_call0_v0 : Ref sig .tc := ⟨.hbm, 79, rfl⟩
abbrev main_call0_call0_v1 : Ref sig .tc := ⟨.hbm, 80, rfl⟩
abbrev main_call0_v55 : Ref sig .tc := ⟨.hbm, 81, rfl⟩
abbrev main_call0_v56 : Ref sig .tc := ⟨.hbm, 82, rfl⟩
abbrev main_call0_c_8 : Ref sig .tc := ⟨.hbm, 83, rfl⟩
abbrev main_call0_v57 : Ref sig .tc := ⟨.hbm, 84, rfl⟩
abbrev main_call0_v58 : Ref sig .tc := ⟨.hbm, 85, rfl⟩
abbrev main_call0_c_9 : Ref sig .tc := ⟨.hbm, 86, rfl⟩
abbrev main_call0_v59 : Ref sig .tc := ⟨.hbm, 87, rfl⟩
abbrev main_call0_v60 : Ref sig .tc := ⟨.hbm, 88, rfl⟩
abbrev main_call0_v61 : Ref sig .tc := ⟨.hbm, 89, rfl⟩
abbrev main_call0_v62 : Ref sig .tc := ⟨.hbm, 90, rfl⟩
abbrev main_call0_v63 : Ref sig .tc := ⟨.hbm, 91, rfl⟩
abbrev main_call0_call1_v0 : Ref sig .tc := ⟨.hbm, 92, rfl⟩
abbrev main_v0_0 : Ref sig .tc := ⟨.hbm, 93, rfl⟩
abbrev main_call0_c_10 : Ref sig .tc := ⟨.hbm, 94, rfl⟩
abbrev main_call0_v65 : Ref sig .tc := ⟨.hbm, 95, rfl⟩
abbrev main_call0_v66 : Ref sig .tc := ⟨.hbm, 96, rfl⟩
abbrev main_call0_c_11 : Ref sig .tc := ⟨.hbm, 97, rfl⟩
abbrev main_call0_v67 : Ref sig .tc := ⟨.hbm, 98, rfl⟩
abbrev main_call0_v68 : Ref sig .tc := ⟨.hbm, 99, rfl⟩
abbrev main_call0_v69 : Ref sig .tc := ⟨.hbm, 100, rfl⟩
abbrev main_call0_v70 : Ref sig .tc := ⟨.hbm, 101, rfl⟩
abbrev main_call0_v71 : Ref sig .tc := ⟨.hbm, 102, rfl⟩
abbrev main_v0_1 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  transposes_S512x1040_S1040x512_1_0 : S512x1040.Transposes [1, 0] S1040x512
  slices_S1040x512_S512x512_0_0 : S1040x512.Slices ![0, 0] S512x512
  bitsLt_bf16_f32 : FTy.bits .bf16 < FTy.bits .f32
  slices_S1040x512_S512x512_512_0 : S1040x512.Slices ![512, 0] S512x512
  slices_S1040x512_S16x512_1024_0 : S1040x512.Slices ![1024, 0] S16x512
  transposes_S1536x640_S640x1536_1_0 : S1536x640.Transposes [1, 0] S640x1536
  slices_S640x1536_S512x1536_0_0 : S640x1536.Slices ![0, 0] S512x1536
  slices_S640x1536_S128x1536_512_0 : S640x1536.Slices ![512, 0] S128x1536
  transposes_S1536x512_S512x1536_1_0 : S1536x512.Transposes [1, 0] S512x1536
  bcast_S128_S1x128_1 : S128.BroadcastsInDim S1x128 (![1] : Fin 1 → Fin S1x128.rank)
  bcast_S16384x1_S16384x128_0_1 : S16384x1.BroadcastsInDim S16384x128 (![0, 1] : Fin 2 → Fin S16384x128.rank)
  bcast_S1x128_S16384x128_0_1 : S1x128.BroadcastsInDim S16384x128 (![0, 1] : Fin 2 → Fin S16384x128.rank)
  shapeCasts_S512_S1x512 : S512.ShapeCasts S1x512
  shapeCasts_S1536_S1x1536 : S1536.ShapeCasts S1x1536
  concatenates_S16384_S16384_S32768_d0 : Shape.Concatenates [S16384, S16384] S32768 0
  concatenates_S16384x512_S16384x512_S32768x512_d0 : Shape.Concatenates [S16384x512, S16384x512] S32768x512 0
  bcast_S_S100000 : S_.BroadcastsInDim S100000 (![] : Fin 0 → Fin S100000.rank)
  bcast_S_S32768 : S_.BroadcastsInDim S32768 (![] : Fin 0 → Fin S32768.rank)
  bcast_S32768_S32768x1_0 : S32768.BroadcastsInDim S32768x1 (![0] : Fin 1 → Fin S32768x1.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x16_S512x16_0_0 : ∀ a, (![0, 0] : Fin 2 → Nat) a + S512x16.size a ≤ S512x16.size a
  h_S512x16 : 0 < S512x16.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  gather_S100000x512_S16384x1_S16384x512_1_0_n_n_0_1_1512_wf : GatherDims.WF S100000x512 S16384x1 S16384x512 [1] [0] [] [0] [] 1 ![1, 512]
  scatter_S100000_S32768x1_S32768_n_0_0_1_wf : ScatterDims.WF S100000 S32768x1 S32768 [] [0] [0] 1
  gather_S32768x512_S100000x1_S100000x512_1_0_n_n_0_1_1512_wf : GatherDims.WF S32768x512 S100000x1 S100000x512 [1] [0] [] [0] [] 1 ![1, 512]
  gather_S32768_S100000x1_S100000_n_0_n_n_0_1_1_wf : GatherDims.WF S32768 S100000x1 S100000 [] [0] [] [0] [] 1 ![1]
  dot_S512x512_S512x512_S512x512_1_0_0_1_n_n_wf : DotDims.WF S512x512 S512x512 S512x512 [1] [0] [0] [1] [] []
  dot_S512x16_S16x512_S512x512_1_0_0_1_n_n_wf : DotDims.WF S512x16 S16x512 S512x512 [1] [0] [0] [1] [] []
  dot_S512x512_S512x1536_S512x1536_1_0_0_1_n_n_wf : DotDims.WF S512x512 S512x1536 S512x1536 [1] [0] [0] [1] [] []
  dot_S512x128_S128x1536_S512x1536_1_0_0_1_n_n_wf : DotDims.WF S512x128 S128x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S16384x16.size a
  hwx0_2 : ∀ i : grid0.Coords, EltTy.bits .f32 = 32 ∨ (Rect.block (s := S16384x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S16384x128.size a
  hwx0_3 : ∀ i : grid0.Coords, EltTy.bits .f32 = 32 ∨ (Rect.block (s := S16384x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x512.size a ≤ S16x512.size a
  hwx0_6 : ∀ i : grid0.Coords, EltTy.bits .bf16 = 32 ∨ (Rect.block (s := S16x512) S16x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1536.size a ≤ S512x1536.size a
  hwx0_8 : ∀ i : grid0.Coords, EltTy.bits .bf16 = 32 ∨ (Rect.block (s := S512x1536) S512x1536.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1536.size a ≤ S128x1536.size a
  hwx0_9 : ∀ i : grid0.Coords, EltTy.bits .bf16 = 32 ∨ (Rect.block (s := S128x1536) S128x1536.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x1536.size a ≤ S512x1536.size a
  hwx0_10 : ∀ i : grid0.Coords, EltTy.bits .bf16 = 32 ∨ (Rect.block (s := S512x1536) S512x1536.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1536.size a ≤ S1x1536.size a
  hwx0_11 : ∀ i : grid0.Coords, EltTy.bits .f32 = 32 ∨ (Rect.block (s := S1x1536) S1x1536.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1536.size a ≤ S1x1536.size a
  hwx0_12 : ∀ i : grid0.Coords, EltTy.bits .f32 = 32 ∨ (Rect.block (s := S1x1536) S1x1536.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S16384x512.size a
  hwx0_13 : ∀ i : grid0.Coords, EltTy.bits .f32 = 32 ∨ (Rect.block (s := S16384x512) S512x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S16384x512.size a
  hwx0_14 : ∀ i : grid0.Coords, EltTy.bits .f32 = 32 ∨ (Rect.block (s := S16384x512) S512x512.size (cc0_transform_14 i) (hinb0_14 i)).WholeWords (EltTy.packing .f32)

variable [Facts₀]

def gather_S100000x512_S16384x1_S16384x512_1_0_n_n_0_1_1512 : GatherDims S100000x512 S16384x1 S16384x512 where
  offsetDims := [1]
  collapsedSliceDims := [0]
  operandBatchingDims := []
  startIndicesBatchingDims := []
  startIndexMap := [0]
  indexVectorDim := 1
  sliceSizes := ![1, 512]
  wf := gather_S100000x512_S16384x1_S16384x512_1_0_n_n_0_1_1512_wf
def scatter_S100000_S32768x1_S32768_n_0_0_1 : ScatterDims S100000 S32768x1 S32768 where
  updateWindowDims := []
  insertedWindowDims := [0]
  scatterDimsToOperandDims := [0]
  indexVectorDim := 1
  wf := scatter_S100000_S32768x1_S32768_n_0_0_1_wf
def gather_S32768x512_S100000x1_S100000x512_1_0_n_n_0_1_1512 : GatherDims S32768x512 S100000x1 S100000x512 where
  offsetDims := [1]
  collapsedSliceDims := [0]
  operandBatchingDims := []
  startIndicesBatchingDims := []
  startIndexMap := [0]
  indexVectorDim := 1
  sliceSizes := ![1, 512]
  wf := gather_S32768x512_S100000x1_S100000x512_1_0_n_n_0_1_1512_wf
def gather_S32768_S100000x1_S100000_n_0_n_n_0_1_1 : GatherDims S32768 S100000x1 S100000 where
  offsetDims := []
  collapsedSliceDims := [0]
  operandBatchingDims := []
  startIndicesBatchingDims := []
  startIndexMap := [0]
  indexVectorDim := 1
  sliceSizes := ![1]
  wf := gather_S32768_S100000x1_S100000_n_0_n_n_0_1_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x128_S128x1536_S512x1536_1_0_0_1_n_n : DotDims S512x128 S128x1536 S512x1536 where
  lhsContracting := [1]
  rhsContracting := [0]
  lhsNonContracting := [0]
  rhsNonContracting := [1]
  lhsBatch := []
  rhsBatch := []
  wf := dot_S512x128_S128x1536_S512x1536_1_0_0_1_n_n_wf

abbrev win0_0 : Pipeline.Window sig grid0 :=
  Pipeline.Window.ofSpec (Memref.whole main_call0_v6) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v36) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v16) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v20) S16x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v37) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v23) S512x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v25) S128x1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v27) S512x1536.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v38) S1x1536.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v39) S1x1536.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v40_0) S512x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_call0_v40_1) S512x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384 : Shape := ⟨1, ![16384]⟩
abbrev S16384x16 : Shape := ⟨2, ![16384, 16]⟩
abbrev S100000x512 : Shape := ⟨2, ![100000, 512]⟩
abbrev S100000 : Shape := ⟨1, ![100000]⟩
abbrev S128 : Shape := ⟨1, ![128]⟩
abbrev S512x1040 : Shape := ⟨2, ![512, 1040]⟩
abbrev S512 : Shape := ⟨1, ![512]⟩
abbrev S1536x640 : Shape := ⟨2, ![1536, 640]⟩
abbrev S1536x512 : Shape := ⟨2, ![1536, 512]⟩
abbrev S1536 : Shape := ⟨1, ![1536]⟩
abbrev S_ : Shape := ⟨0, ![]⟩
abbrev S16384x1 : Shape := ⟨2, ![16384, 1]⟩
abbrev S16384x512 : Shape := ⟨2, ![16384, 512]⟩
abbrev S16384x1040 : Shape := ⟨2, ![16384, 1040]⟩
abbrev S1040x512 : Shape := ⟨2, ![1040, 512]⟩
abbrev S1x512 : Shape := ⟨2, ![1, 512]⟩
abbrev S1x128 : Shape := ⟨2, ![1, 128]⟩
abbrev S16384x128 : Shape := ⟨2, ![16384, 128]⟩
abbrev S16384x640 : Shape := ⟨2, ![16384, 640]⟩
abbrev S640x1536 : Shape := ⟨2, ![640, 1536]⟩
abbrev S16384x1536 : Shape := ⟨2, ![16384, 1536]⟩
abbrev S1x1536 : Shape := ⟨2, ![1, 1536]⟩
abbrev S512x1536 : Shape := ⟨2, ![512, 1536]⟩
abbrev S32768 : Shape := ⟨1, ![32768]⟩
abbrev S32768x512 : Shape := ⟨2, ![32768, 512]⟩
abbrev S32768x1 : Shape := ⟨2, ![32768, 1]⟩
abbrev S100000x1 : Shape := ⟨2, ![100000, 1]⟩

abbrev nBuf : Space → Nat
  | .hbm => 181
  | .vmem => 0
  | .smem => 0
  | _ => 0

abbrev hbmTy0_0 (i : Nat) : BufTy := match i % 128 with
  | 0 => ⟨S16384, .i32⟩
  | 1 => ⟨S16384, .i32⟩
  | 2 => ⟨S16384, .f32⟩
  | 3 => ⟨S16384x16, .f32⟩
  | 4 => ⟨S100000x512, .f32⟩
  | 5 => ⟨S100000, .f32⟩
  | 6 => ⟨S128, .f32⟩
  | 7 => ⟨S128, .f32⟩
  | 8 => ⟨S512x1040, .f32⟩
  | 9 => ⟨S512, .f32⟩
  | 10 => ⟨S1536x640, .f32⟩
  | 11 => ⟨S1536x512, .f32⟩
  | 12 => ⟨S1536, .f32⟩
  | 13 => ⟨S1536, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384x512, .f32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S16384x512, .f32⟩
  | 32 => ⟨S16384x1040, .f32⟩
  | 33 => ⟨S1040x512, .f32⟩
  | 34 => ⟨S16384x512, .f32⟩
  | 35 => ⟨S1x512, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S16384x1, .f32⟩
  | 42 => ⟨S1x128, .f32⟩
  | 43 => ⟨S16384x128, .f32⟩
  | 44 => ⟨S16384x128, .f32⟩
  | 45 => ⟨S16384x128, .f32⟩
  | 46 => ⟨S1x128, .f32⟩
  | 47 => ⟨S16384x128, .f32⟩
  | 48 => ⟨S16384x128, .f32⟩
  | 49 => ⟨S16384x128, .f32⟩
  | 50 => ⟨S16384x640, .f32⟩
  | 51 => ⟨S640x1536, .f32⟩
  | 52 => ⟨S16384x1536, .f32⟩
  | 53 => ⟨S1x1536, .f32⟩
  | 54 => ⟨S16384x1536, .f32⟩
  | 55 => ⟨S16384x1536, .f32⟩
  | 56 => ⟨S512x1536, .f32⟩
  | 57 => ⟨S16384x1536, .f32⟩
  | 58 => ⟨S1x1536, .f32⟩
  | 59 => ⟨S16384x1536, .f32⟩
  | 60 => ⟨S16384x1536, .f32⟩
  | 61 => ⟨S16384x512, .f32⟩
  | 62 => ⟨S16384x512, .f32⟩
  | 63 => ⟨S16384x512, .f32⟩
  | 64 => ⟨S16384x512, .f32⟩
  | 65 => ⟨S16384x512, .f32⟩
  | 66 => ⟨S16384x512, .f32⟩
  | 67 => ⟨S16384x512, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S_, .f32⟩
  | 74 => ⟨S16384x512, .f32⟩
  | 75 => ⟨S16384x512, .f32⟩
  | 76 => ⟨S16384x512, .f32⟩
  | 77 => ⟨S16384x512, .f32⟩
  | 78 => ⟨S16384x512, .f32⟩
  | 79 => ⟨S_, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S16384x512, .f32⟩
  | 86 => ⟨S16384x512, .f32⟩
  | 87 => ⟨S16384x512, .f32⟩
  | 88 => ⟨S_, .f32⟩
  | 89 => ⟨S16384x512, .f32⟩
  | 90 => ⟨S16384x512, .f32⟩
  | 91 => ⟨S16384x512, .f32⟩
  | 92 => ⟨S16384x512, .f32⟩
  | 93 => ⟨S16384x512, .f32⟩
  | 94 => ⟨S640x1536, .f32⟩
  | 95 => ⟨S16384x1536, .f32⟩
  | 96 => ⟨S1x1536, .f32⟩
  | 97 => ⟨S16384x1536, .f32⟩
  | 98 => ⟨S16384x1536, .f32⟩
  | 99 => ⟨S512x1536, .f32⟩
  | 100 => ⟨S16384x1536, .f32⟩
  | 101 => ⟨S1x1536, .f32⟩
  | 102 => ⟨S16384x1536, .f32⟩
  | 103 => ⟨S16384x1536, .f32⟩
  | 104 => ⟨S16384x512, .f32⟩
  | 105 => ⟨S16384x512, .f32⟩
  | 106 => ⟨S16384x512, .f32⟩
  | 107 => ⟨S16384x512, .f32⟩
  | 108 => ⟨S16384x512, .f32⟩
  | 109 => ⟨S16384x512, .f32⟩
  | 110 => ⟨S16384x512, .f32⟩
  | 111 => ⟨S16384x512, .f32⟩
  | 112 => ⟨S16384x512, .f32⟩
  | 113 => ⟨S_, .f32⟩
  | 114 => ⟨S16384x512, .f32⟩
  | 115 => ⟨S16384x512, .f32⟩
  | 116 => ⟨S_, .f32⟩
  | 117 => ⟨S16384x512, .f32⟩
  | 118 => ⟨S16384x512, .f32⟩
  | 119 => ⟨S16384x512, .f32⟩
  | 120 => ⟨S16384x512, .f32⟩
  | 121 => ⟨S16384x512, .f32⟩
  | 122 => ⟨S_, .f32⟩
  | 123 => ⟨S16384x512, .f32⟩
  | 124 => ⟨S16384x512, .f32⟩
  | 125 => ⟨S_, .f32⟩
  | 126 => ⟨S16384x512, .f32⟩
  | 127 => ⟨S16384x512, .f32⟩
  | _ => ⟨S16384, .i32⟩

abbrev hbmTy0_1 (i : Nat) : BufTy := match i % 128 with
  | 0 => ⟨S16384x512, .f32⟩
  | 1 => ⟨S16384x512, .f32⟩
  | 2 => ⟨S16384x512, .f32⟩
  | 3 => ⟨S_, .f32⟩
  | 4 => ⟨S16384x512, .f32⟩
  | 5 => ⟨S16384x512, .f32⟩
  | 6 => ⟨S16384x512, .f32⟩
  | 7 => ⟨S16384x512, .f32⟩
  | 8 => ⟨S16384x512, .f32⟩
  | 9 => ⟨S32768, .i32⟩
  | 10 => ⟨S32768x512, .f32⟩
  | 11 => ⟨S32768, .f32⟩
  | 12 => ⟨S32768, .i32⟩
  | 13 => ⟨S_, .i32⟩
  | 14 => ⟨S100000, .i32⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S32768x1, .i32⟩
  | 23 => ⟨S100000, .i32⟩
  | 24 => ⟨S_, .i32⟩
  | 25 => ⟨S100000, .i32⟩
  | 26 => ⟨S100000, .i1⟩
  | 27 => ⟨S_, .i32⟩
  | 28 => ⟨S_, .i32⟩
  | 29 => ⟨S100000, .i32⟩
  | 30 => ⟨S100000, .i32⟩
  | 31 => ⟨S100000x1, .i1⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x512, .f32⟩
  | 41 => ⟨S100000x512, .i1⟩
  | 42 => ⟨S100000x512, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000, .f32⟩
  | 52 => ⟨S100000, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_cst_5 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_7 : Ref sig .tc := ⟨.hbm, 113, rfl⟩
abbrev main_v88 : Ref sig .tc := ⟨.hbm, 114, rfl⟩
abbrev main_v89 : Ref sig .tc := ⟨.hbm, 115, rfl⟩
abbrev main_cst_8 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_9 : Ref sig .tc := ⟨.hbm, 122, rfl⟩
abbrev main_v95 : Ref sig .tc := ⟨.hbm, 123, rfl⟩
abbrev main_v96 : Ref sig .tc := ⟨.hbm, 124, rfl⟩
abbrev main_cst_10 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_11 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_12 : Ref sig .tc := ⟨.hbm, 141, rfl⟩
abbrev main_v111 : Ref sig .tc := ⟨.hbm, 142, rfl⟩
abbrev main_c_13 : Ref sig .tc := ⟨.hbm, 143, rfl⟩
abbrev main_v112 : Ref sig .tc := ⟨.hbm, 144, rfl⟩
abbrev main_v113 : Ref sig .tc := ⟨.hbm, 145, rfl⟩
abbrev main_c_14 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_15 : Ref sig .tc := ⟨.hbm, 152, rfl⟩
abbrev main_v119 : Ref sig .tc := ⟨.hbm, 153, rfl⟩
abbrev main_v120 : Ref sig .tc := ⟨.hbm, 154, rfl⟩
abbrev main_c_16 : Ref sig .tc := ⟨.hbm, 155, rfl⟩
abbrev main_call1_v0 : Ref sig .tc := ⟨.hbm, 156, rfl⟩
abbrev main_call1_v1 : Ref sig .tc := ⟨.hbm, 157, rfl⟩
abbrev main_v121 : Ref sig .tc := ⟨.hbm, 158, rfl⟩
abbrev main_v122 : Ref sig .tc := ⟨.hbm, 159, rfl⟩
abbrev main_c_17 : Ref sig .tc := ⟨.hbm, 160, rfl⟩
abbrev main_v123 : Ref sig .tc := ⟨.hbm, 161, rfl⟩
abbrev main_v124 : Ref sig .tc := ⟨.hbm, 162, rfl⟩
abbrev main_c_18 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_call2_v0 : Ref sig .tc := ⟨.hbm, 169, rfl⟩
abbrev main_v130 : Ref sig .tc := ⟨.hbm, 170, rfl⟩
abbrev main_c_19 : Ref sig .tc := ⟨.hbm, 171, rfl⟩
abbrev main_v131 : Ref sig .tc := ⟨.hbm, 172, rfl⟩
abbrev main_v132 : Ref sig .tc := ⟨.hbm, 173, rfl⟩
abbrev main_c_20 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x512_S16384x512_S16384x16_S16384x1040_d1 : Shape.Concatenates [S16384x512, S16384x512, S16384x16] S16384x1040 1
  transposes_S512x1040_S1040x512_1_0 : S512x1040.Transposes [1, 0] S1040x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S128_S1x128_1 : S128.BroadcastsInDim S1x128 (![1] : Fin 1 → Fin S1x128.rank)
  bcast_S16384x1_S16384x128_0_1 : S16384x1.BroadcastsInDim S16384x128 (![0, 1] : Fin 2 → Fin S16384x128.rank)
  bcast_S1x128_S16384x128_0_1 : S1x128.BroadcastsInDim S16384x128 (![0, 1] : Fin 2 → Fin S16384x128.rank)
  concatenates_S16384x512_S16384x128_S16384x640_d1 : Shape.Concatenates [S16384x512, S16384x128] S16384x640 1
  transposes_S1536x640_S640x1536_1_0 : S1536x640.Transposes [1, 0] S640x1536
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  transposes_S1536x512_S512x1536_1_0 : S1536x512.Transposes [1, 0] S512x1536
  slices_S16384x1536_S16384x512_0_0 : S16384x1536.Slices ![0, 0] S16384x512
  slices_S16384x1536_S16384x512_0_512 : S16384x1536.Slices ![0, 512] S16384x512
  slices_S16384x1536_S16384x512_0_1024 : S16384x1536.Slices ![0, 1024] S16384x512
  concatenates_S16384_S16384_S32768_d0 : Shape.Concatenates [S16384, S16384] S32768 0
  concatenates_S16384x512_S16384x512_S32768x512_d0 : Shape.Concatenates [S16384x512, S16384x512] S32768x512 0
  bcast_S_S100000 : S_.BroadcastsInDim S100000 (![] : Fin 0 → Fin S100000.rank)
  bcast_S_S32768 : S_.BroadcastsInDim S32768 (![] : Fin 0 → Fin S32768.rank)
  bcast_S32768_S32768x1_0 : S32768.BroadcastsInDim S32768x1 (![0] : Fin 1 → Fin S32768x1.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  gather_S100000x512_S16384x1_S16384x512_1_0_n_n_0_1_1512_wf : GatherDims.WF S100000x512 S16384x1 S16384x512 [1] [0] [] [0] [] 1 ![1, 512]
  dot_S16384x1040_S1040x512_S16384x512_1_0_0_1_n_n_wf : DotDims.WF S16384x1040 S1040x512 S16384x512 [1] [0] [0] [1] [] []
  dot_S16384x640_S640x1536_S16384x1536_1_0_0_1_n_n_wf : DotDims.WF S16384x640 S640x1536 S16384x1536 [1] [0] [0] [1] [] []
  dot_S16384x512_S512x1536_S16384x1536_1_0_0_1_n_n_wf : DotDims.WF S16384x512 S512x1536 S16384x1536 [1] [0] [0] [1] [] []
  scatter_S100000_S32768x1_S32768_n_0_0_1_wf : ScatterDims.WF S100000 S32768x1 S32768 [] [0] [0] 1
  gather_S32768x512_S100000x1_S100000x512_1_0_n_n_0_1_1512_wf : GatherDims.WF S32768x512 S100000x1 S100000x512 [1] [0] [] [0] [] 1 ![1, 512]
  gather_S32768_S100000x1_S100000_n_0_n_n_0_1_1_wf : GatherDims.WF S32768 S100000x1 S100000 [] [0] [] [0] [] 1 ![1]

variable [Facts₀]

def gather_S100000x512_S16384x1_S16384x512_1_0_n_n_0_1_1512 : GatherDims S100000x512 S16384x1 S16384x512 where
  offsetDims := [1]
  collapsedSliceDims := [0]
  operandBatchingDims := []
  startIndicesBatchingDims := []
  startIndexMap := [0]
  indexVectorDim := 1
  sliceSizes := ![1, 512]
  wf := gather_S100000x512_S16384x1_S16384x512_1_0_n_n_0_1_1512_wf
def dot_S16384x1040_S1040x512_S16384x512_1_0_0_1_n_n : DotDims S16384x1040 S1040x512 S16384x512 where
  lhsContracting := [1]
  rhsContracting := [0]
  lhsNonContracting := [0]
  rhsNonContracting := [1]
  lhsBatch := []
  rhsBatch := []
  wf := dot_S16384x1040_S1040x512_S16384x512_1_0_0_1_n_n_wf
def dot_S16384x640_S640x1536_S16384x1536_1_0_0_1_n_n : DotDims S16384x640 S640x1536 S16384x1536 where
  lhsContracting := [1]
  rhsContracting := [0]
  lhsNonContracting := [0]
  rhsNonContracting := [1]
  lhsBatch := []
  rhsBatch := []
  wf := dot_S16384x640_S640x1536_S16384x1536_1_0_0_1_n_n_wf
def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf
def scatter_S100000_S32768x1_S32768_n_0_0_1 : ScatterDims S100000 S32768x1 S32768 where
  updateWindowDims := []
  insertedWindowDims := [0]
  scatterDimsToOperandDims := [0]
  indexVectorDim := 1
  wf := scatter_S100000_S32768x1_S32768_n_0_0_1_wf
def gather_S32768x512_S100000x1_S100000x512_1_0_n_n_0_1_1512 : GatherDims S32768x512 S100000x1 S100000x512 where
  offsetDims := [1]
  collapsedSliceDims := [0]
  operandBatchingDims := []
  startIndicesBatchingDims := []
  startIndexMap := [0]
  indexVectorDim := 1
  sliceSizes := ![1, 512]
  wf := gather_S32768x512_S100000x1_S100000x512_1_0_n_n_0_1_1512_wf
def gather_S32768_S100000x1_S100000_n_0_n_n_0_1_1 : GatherDims S32768 S100000x1 S100000 where
  offsetDims := []
  collapsedSliceDims := [0]
  operandBatchingDims := []
  startIndicesBatchingDims := []
  startIndexMap := [0]
  indexVectorDim := 1
  sliceSizes := ![1]
  wf := gather_S32768_S100000x1_S100000_n_0_n_n_0_1_1_wf

class Facts : Prop extends Facts₀ where

variable [Facts]
-- ==== Proof.GruCell.lean ====
/-
  One coordinate of a node-memory update, over the extended reals.

  An edge batch row carries the memory rows `s`, `g` of its two end nodes, its edge features `e` and a time
  encoding `tn`. The message is the rectified affine image of the three laid side by side; written blockwise it
  is the sum of three partial products plus the bias. The gated recurrent cell then mixes the message (with the
  time encoding) and a memory row `h`: with `gi` the input pre-activations and `gh` the hidden ones, each split in
  three equal column bands (reset, update, candidate),
      r = σ(gi_r + gh_r),  z = σ(gi_z + gh_z),  n = tanh(gi_n + r · gh_n),  out = (1 − z) · n + z · h.
  Everything here is stated over plain functions of finite index types; the only laws used are that a finite sum
  over a range splits into the sums over consecutive sub-ranges (commutative monoid, no finiteness needed) and
  that the logistic function is 1 / (1 + e^(−x)) on every extended real.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.MemGru

open Idealize.ShloMosaic Idealize.ShloMosaic.ValueIdx

/-- The single-precision words of 0 and 1, kept as words: both programs spell them alike. -/
abbrev zeroW : EReal := Ideal.ofBits .f32 0x00000000#32
abbrev oneW : EReal := Ideal.ofBits .f32 0x3F800000#32

/-- The word `0x3F800000` denotes the real number one. -/
theorem oneW_eq : oneW = 1 :=
  IdealRules.sign_bit.ideal_onePat .f32

/-- The logistic function written out with a quotient, a sum, an exponential and a negation is the logistic
    function, at every extended real. -/
theorem logistic_expanded (x : EReal) : Ideal.div oneW (oneW + Ideal.exp (-x)) = Ideal.logistic x := by
  rw [oneW_eq]; rfl

/-- The gated recurrent cell at one coordinate, from the six pre-activations and the old state. -/
def gate (ir iz inn hr hz hn h : EReal) : EReal :=
  (oneW - Ideal.logistic (iz + hz)) * Ideal.tanh (inn + Ideal.logistic (ir + hr) * hn) + Ideal.logistic (iz + hz) * h

/-! ## Column bands -/

/-- Columns of a 1040-wide row: the first 512, the next 512, the last 16. -/
def c1040a (k : Fin 512) : Fin 1040 := ⟨k.val, by have := k.isLt; omega⟩
def c1040b (k : Fin 512) : Fin 1040 := ⟨512 + k.val, by have := k.isLt; omega⟩
def c1040c (k : Fin 16) : Fin 1040 := ⟨1024 + k.val, by have := k.isLt; omega⟩
/-- Columns of a 640-wide row: the first 512, the last 128. -/
def c640a (k : Fin 512) : Fin 640 := ⟨k.val, by have := k.isLt; omega⟩
def c640b (k : Fin 128) : Fin 640 := ⟨512 + k.val, by have := k.isLt; omega⟩
/-- The three bands of a 1536-wide row of gate pre-activations. -/
def colR (j : Fin 512) : Fin 1536 := ⟨j.val, by have := j.isLt; omega⟩
def colZ (j : Fin 512) : Fin 1536 := ⟨512 + j.val, by have := j.isLt; omega⟩
def colN (j : Fin 512) : Fin 1536 := ⟨1024 + j.val, by have := j.isLt; omega⟩

/-- A sum over 640 columns is the sum over the first 512 plus the sum over the last 128. -/
theorem sum_640 {M : Type*} [AddCommMonoid M] (f : Fin 640 → M) :
    ∑ k, f k = (∑ k : Fin 512, f (c640a k)) + ∑ k : Fin 128, f (c640b k) :=
  Fin.sum_univ_add (a := 512) (b := 128) f

/-- A sum over 1040 columns is the sum of the sums over its three bands. -/
theorem sum_1040 {M : Type*} [AddCommMonoid M] (f : Fin 1040 → M) :
    ∑ k, f k = ((∑ k : Fin 512, f (c1040a k)) + ∑ k : Fin 512, f (c1040b k)) + ∑ k : Fin 16, f (c1040c k) := by
  have h1 := Fin.sum_univ_add (a := 1024) (b := 16) f
  have h2 := Fin.sum_univ_add (a := 512) (b := 512) (fun i : Fin 1024 => f (Fin.castAdd 16 i))
  rw [h1, h2]; rfl

/-! ## One row -/

/-- The message at column `j`: three partial products, the bias, rectified. `w1 k j` is the weight of `s k`. -/
def msgAt (s g : Fin 512 → EReal) (e : Fin 16 → EReal) (w1 w2 : Fin 512 → Fin 512 → EReal)
    (w3 : Fin 16 → Fin 512 → EReal) (bm : Fin 512 → EReal) (j : Fin 512) : EReal :=
  max ((((∑ k, s k * w1 k j) + ∑ k, g k * w2 k j) + ∑ k, e k * w3 k j) + bm j) zeroW

/-- The input pre-activation at gate column `q`: the message's and the time encoding's partial products, the bias. -/
def giAt (msg : Fin 512 → EReal) (tn : Fin 128 → EReal) (u1 : Fin 512 → Fin 1536 → EReal)
    (u2 : Fin 128 → Fin 1536 → EReal) (bi : Fin 1536 → EReal) (q : Fin 1536) : EReal :=
  ((∑ k, msg k * u1 k q) + ∑ k, tn k * u2 k q) + bi q

/-- The hidden pre-activation at gate column `q`. -/
def ghAt (h : Fin 512 → EReal) (v : Fin 512 → Fin 1536 → EReal) (bh : Fin 1536 → EReal) (q : Fin 1536) : EReal :=
  (∑ k, h k * v k q) + bh q

/-- The new state at coordinate `j`. -/
def cellAt (gi gh : Fin 1536 → EReal) (h : Fin 512 → EReal) (j : Fin 512) : EReal :=
  gate (gi (colR j)) (gi (colZ j)) (gi (colN j)) (gh (colR j)) (gh (colZ j)) (gh (colN j)) (h j)

/-! ## The whole batch, from the arrays -/

abbrev V2 (a b : Nat) : Type := FVec Ideal (⟨2, ![a, b]⟩ : Shape) .f32
abbrev V1 (a : Nat) : Type := FVec Ideal (⟨1, ![a]⟩ : Shape) .f32

/-- Row `b`, coordinate `j` of the updated state of the rows `H`, from the gathered memory rows `S`, `T`, the edge
    features `E`, the time encoding `Tn` and the parameters as stored (output-major: `W[j, k]` is the weight of input
    `k` in output `j`). -/
def updAt (S T : V2 16384 512) (E : V2 16384 16) (Tn : V2 16384 128) (W : V2 512 1040) (bm : V1 512)
    (Wih : V2 1536 640) (Whh : V2 1536 512) (bih bhh : V1 1536) (H : V2 16384 512) (b : Fin 16384) (j : Fin 512) : EReal :=
  cellAt
    (giAt
      (msgAt (fun k => S (ix2 b k)) (fun k => T (ix2 b k)) (fun k => E (ix2 b k))
        (fun k j' => W (ix2 j' (c1040a k))) (fun k j' => W (ix2 j' (c1040b k))) (fun k j' => W (ix2 j' (c1040c k)))
        (fun j' => bm (ix1 j')))
      (fun k => Tn (ix2 b k)) (fun k q => Wih (ix2 q (c640a k))) (fun k q => Wih (ix2 q (c640b k))) (fun q => bih (ix1 q)))
    (ghAt (fun k => H (ix2 b k)) (fun k q => Whh (ix2 q k)) (fun q => bhh (ix1 q)))
    (fun k => H (ix2 b k)) j

end Cert.MemGru

end
-- ==== Proof.KernelDots.lean ====
/-
  A matrix product into a zero accumulator, read at one output coordinate, is the sum over the contracted axis of
  the products of the row's and the column's entries. Stated once for any dimension record that contracts the
  left operand's columns with the right operand's rows, then for the four products of the kernel body (every operand there is a block narrowed to bfloat16, which on extended reals changes nothing).
-/
import proofs.«178560_j60421599920314_2_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Idealize.ShloMosaic Idealize.ShloMosaic.ValueIdx

/-- Rows times columns: if the record's contraction shape has the one axis of extent `B`, the left index keeps the
    output row and takes the contraction position as its column, and the right index takes the contraction position as
    its row and keeps the output column, then the product at `(p, j)` is `∑ k, l (p, k) · r (k, j)`. -/
theorem matmul_at {A B C : Nat} {φ₁ φ₂ : FTy} (D : DotDims ⟨2, ![A, B]⟩ ⟨2, ![B, C]⟩ ⟨2, ![A, C]⟩)
    (hr : D.contr.rank = 1) (hs : D.contr.size ⟨0, by omega⟩ = B)
    (hl0 : ∀ (i : (⟨2, ![A, C]⟩ : Shape).Idx) (q : D.contr.Idx), (D.lhsIdx i q 0).val = (i 0).val)
    (hl1 : ∀ (i : (⟨2, ![A, C]⟩ : Shape).Idx) (q : D.contr.Idx), (D.lhsIdx i q 1).val = (q ⟨0, by omega⟩).val)
    (hr0 : ∀ (i : (⟨2, ![A, C]⟩ : Shape).Idx) (q : D.contr.Idx), (D.rhsIdx i q 0).val = (q ⟨0, by omega⟩).val)
    (hr1 : ∀ (i : (⟨2, ![A, C]⟩ : Shape).Idx) (q : D.contr.Idx), (D.rhsIdx i q 1).val = (i 1).val)
    (l : FVec Ideal ⟨2, ![A, B]⟩ φ₁) (r : FVec Ideal ⟨2, ![B, C]⟩ φ₂) (p : Fin A) (j : Fin C) :
    FloatOps.matmul D none l r (constant ⟨2, ![A, C]⟩ .f32 0x00000000#32) (ix2 p j)
      = ∑ k : Fin B, l (ix2 p k) * r (ix2 k j) := by
  rw [Ideal.matmul_constant_zero_apply, ← Equiv.sum_comp (contrEquiv1 D B hr hs).symm]
  refine Finset.sum_congr rfl fun k _ => ?_
  have hk := contrEquiv1_symm_val D B hr hs k
  have el : D.lhsIdx (ix2 p j) ((contrEquiv1 D B hr hs).symm k) = ix2 p k := funext fun a => Fin.ext (by
    match a with
    | ⟨0, _⟩ => exact hl0 _ _
    | ⟨1, _⟩ => exact (hl1 _ _).trans hk)
  have er : D.rhsIdx (ix2 p j) ((contrEquiv1 D B hr hs).symm k) = ix2 k j := funext fun a => Fin.ext (by
    match a with
    | ⟨0, _⟩ => exact (hr0 _ _).trans hk
    | ⟨1, _⟩ => exact hr1 _ _)
  rw [el, er]

/-- A block of 512 rows of width 512 against a 512 × 512 parameter block. -/
theorem mm_512x512_512x512 (l : FVec Ideal S512x512 .bf16) (r : FVec Ideal S512x512 .bf16) (p j : Fin 512) :
    matmul dot_S512x512_S512x512_S512x512_1_0_0_1_n_n none l r (constant S512x512 .f32 0x00000000#32) (ix2 p j)
      = ∑ k : Fin 512, l (ix2 p k) * r (ix2 k j) :=
  matmul_at dot_S512x512_S512x512_S512x512_1_0_0_1_n_n rfl rfl
    (fun i q => by unfold DotDims.lhsIdx; rw [dif_neg (by decide), dif_pos (by decide)]; rfl)
    (fun i q => dot_S512x512_S512x512_S512x512_1_0_0_1_n_n.lhsIdx_val_of_single rfl i q)
    (fun i q => dot_S512x512_S512x512_S512x512_1_0_0_1_n_n.rhsIdx_val_of_single rfl i q)
    (fun i q => by unfold DotDims.rhsIdx; rw [dif_neg (by decide), dif_pos (by decide)]; rfl)
    l r p j

/-- The edge features, 16 wide, against their 16 × 512 parameter block. -/
theorem mm_512x16_16x512 (l : FVec Ideal S512x16 .bf16) (r : FVec Ideal S16x512 .bf16) (p j : Fin 512) :
    matmul dot_S512x16_S16x512_S512x512_1_0_0_1_n_n none l r (constant S512x512 .f32 0x00000000#32) (ix2 p j)
      = ∑ k : Fin 16, l (ix2 p k) * r (ix2 k j) :=
  matmul_at dot_S512x16_S16x512_S512x512_1_0_0_1_n_n rfl rfl
    (fun i q => by unfold DotDims.lhsIdx; rw [dif_neg (by decide), dif_pos (by decide)]; rfl)
    (fun i q => dot_S512x16_S16x512_S512x512_1_0_0_1_n_n.lhsIdx_val_of_single rfl i q)
    (fun i q => dot_S512x16_S16x512_S512x512_1_0_0_1_n_n.rhsIdx_val_of_single rfl i q)
    (fun i q => by unfold DotDims.rhsIdx; rw [dif_neg (by decide), dif_pos (by decide)]; rfl)
    l r p j

/-- 512 wide rows against a 512 × 1536 block of gate parameters. -/
theorem mm_512x512_512x1536 (l : FVec Ideal S512x512 .bf16) (r : FVec Ideal S512x1536 .bf16) (p : Fin 512) (q' : Fin 1536) :
    matmul dot_S512x512_S512x1536_S512x1536_1_0_0_1_n_n none l r (constant S512x1536 .f32 0x00000000#32) (ix2 p q')
      = ∑ k : Fin 512, l (ix2 p k) * r (ix2 k q') :=
  matmul_at dot_S512x512_S512x1536_S512x1536_1_0_0_1_n_n rfl rfl
    (fun i q => by unfold DotDims.lhsIdx; rw [dif_neg (by decide), dif_pos (by decide)]; rfl)
    (fun i q => dot_S512x512_S512x1536_S512x1536_1_0_0_1_n_n.lhsIdx_val_of_single rfl i q)
    (fun i q => dot_S512x512_S512x1536_S512x1536_1_0_0_1_n_n.rhsIdx_val_of_single rfl i q)
    (fun i q => by unfold DotDims.rhsIdx; rw [dif_neg (by decide), dif_pos (by decide)]; rfl)
    l r p q'

/-- The time encoding, 128 wide, against its 128 × 1536 block of gate parameters. -/
theorem mm_512x128_128x1536 (l : FVec Ideal S512x128 .bf16) (r : FVec Ideal S128x1536 .bf16) (p : Fin 512) (q' : Fin 1536) :
    matmul dot_S512x128_S128x1536_S512x1536_1_0_0_1_n_n none l r (constant S512x1536 .f32 0x00000000#32) (ix2 p q')
      = ∑ k : Fin 128, l (ix2 p k) * r (ix2 k q') :=
  matmul_at dot_S512x128_S128x1536_S512x1536_1_0_0_1_n_n rfl rfl
    (fun i q => by unfold DotDims.lhsIdx; rw [dif_neg (by decide), dif_pos (by decide)]; rfl)
    (fun i q => dot_S512x128_S128x1536_S512x1536_1_0_0_1_n_n.lhsIdx_val_of_single rfl i q)
    (fun i q => dot_S512x128_S128x1536_S512x1536_1_0_0_1_n_n.rhsIdx_val_of_single rfl i q)
    (fun i q => by unfold DotDims.rhsIdx; rw [dif_neg (by decide), dif_pos (by decide)]; rfl)
    l r p q'

end Cert.KernelIdeal.Dots

end
-- ==== Proof.KernelBody.lean ====
/-
  What the kernel body leaves in its two output blocks, read at one coordinate.

  The body works on a block of 512 batch rows. With the blocks `x0`, `x1` of the two gathered memory rows, `x2` of
  the edge features, `x3` of the time encoding and the parameter blocks `x4 … x12`, it forms the message (three
  partial products, bias, rectifier), the input pre-activations of the three gates (two partial products, bias), the
  hidden pre-activations of each memory row (one product, bias), and mixes them coordinate by coordinate. Changes of
  float format are the identity on extended reals, a matrix product into a zero accumulator is a finite sum, a
  broadcast row reads its one row, and a column slice reads its band: so each output coordinate is `MemGru.cellAt`
  of the block's rows and the parameter blocks' entries.
-/
import proofs.«178560_j60421599920314_2_alg».proof.Proof.Gen.KernelIdeal.Frame
import proofs.«178560_j60421599920314_2_alg».proof.Proof.GruCell
import proofs.«178560_j60421599920314_2_alg».proof.Proof.KernelDots
import Idealize.ShloMosaic.Lib.Pipeline.Value

noncomputable section

open scoped BigOperators

namespace Cert.KernelIdeal.BodyValue

open Cert.KernelIdeal Cert.KernelIdeal.Gen Cert.KernelIdeal.Dots Idealize.ShloMosaic Idealize.ShloMosaic.ValueIdx Cert.MemGru

/-! ## Small readings -/

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl
theorem scalar_ofBits_at (w : BitVec 32) : (Scalar.ofBits (F := Ideal) .f32 w) = Ideal.ofBits .f32 w := rfl

/-- The bias row `[1, 512]` broadcast over 512 rows reads its one row. -/
theorem bcast_1x512 {α : Type} (v : S1x512.Idx → α) (p k : Fin 512) :
    broadcastTo S512x512 v broadcasts_S1x512_S512x512 (ix2 p k) = v (ix2 (0 : Fin 1) k) :=
  broadcastTo_apply v broadcasts_S1x512_S512x512 (ix2 p k) (ix2 (0 : Fin 1) k) (fun a => by
    match a with
    | ⟨0, _⟩ => show (0 : Nat) = if (1 : Nat) = 1 then 0 else _; rw [if_pos rfl]
    | ⟨1, _⟩ => show k.val = if (512 : Nat) = 1 then 0 else k.val; rw [if_neg (by decide)])

/-- The bias row `[1, 1536]` broadcast over 512 rows reads its one row. -/
theorem bcast_1x1536 {α : Type} (v : S1x1536.Idx → α) (p : Fin 512) (q : Fin 1536) :
    broadcastTo S512x1536 v broadcasts_S1x1536_S512x1536 (ix2 p q) = v (ix2 (0 : Fin 1) q) :=
  broadcastTo_apply v broadcasts_S1x1536_S512x1536 (ix2 p q) (ix2 (0 : Fin 1) q) (fun a => by
    match a with
    | ⟨0, _⟩ => show (0 : Nat) = if (1 : Nat) = 1 then 0 else _; rw [if_pos rfl]
    | ⟨1, _⟩ => show q.val = if (1536 : Nat) = 1 then 0 else q.val; rw [if_neg (by decide)])

/-- The three column bands of a `[512, 1536]` block of pre-activations. -/
theorem band_R {α : Type} (v : S512x1536.Idx → α) (p j : Fin 512) :
    extractStridedSlice S512x512 ![0, 0] v slices_S512x1536_o0_0_S512x512 (ix2 p j) = v (ix2 p (colR j)) :=
  extractStridedSlice_apply ![0, 0] v slices_S512x1536_o0_0_S512x512 (ix2 p j) (ix2 p (colR j)) (fun a => by
    match a with
    | ⟨0, _⟩ => show p.val = 0 + p.val; omega
    | ⟨1, _⟩ => show j.val = 0 + j.val; omega)
theorem band_Z {α : Type} (v : S512x1536.Idx → α) (p j : Fin 512) :
    extractStridedSlice S512x512 ![0, 512] v slices_S512x1536_o0_512_S512x512 (ix2 p j) = v (ix2 p (colZ j)) :=
  extractStridedSlice_apply ![0, 512] v slices_S512x1536_o0_512_S512x512 (ix2 p j) (ix2 p (colZ j)) (fun a => by
    match a with
    | ⟨0, _⟩ => show p.val = 0 + p.val; omega
    | ⟨1, _⟩ => show 512 + j.val = 512 + j.val; rfl)
theorem band_N {α : Type} (v : S512x1536.Idx → α) (p j : Fin 512) :
    extractStridedSlice S512x512 ![0, 1024] v slices_S512x1536_o0_1024_S512x512 (ix2 p j) = v (ix2 p (colN j)) :=
  extractStridedSlice_apply ![0, 1024] v slices_S512x1536_o0_1024_S512x512 (ix2 p j) (ix2 p (colN j)) (fun a => by
    match a with
    | ⟨0, _⟩ => show p.val = 0 + p.val; omega
    | ⟨1, _⟩ => show 1024 + j.val = 1024 + j.val; rfl)

/-! ## The payloads at a coordinate -/

theorem pay2_eq (v0 : Vec Ideal S512x512 .f32) : k0_pay2 v0 = v0 := by
  unfold k0_pay2; exact shapeCast_self v0 _
theorem pay3_eq (v2 : Vec Ideal S512x512 .f32) : k0_pay3 v2 = v2 := by
  unfold k0_pay3; exact shapeCast_self v2 _
theorem pay4_eq (v0 : Vec Ideal S512x512 .f32) : k0_pay4 v0 = v0 := by
  unfold k0_pay4; rw [pay2_eq]; rfl
theorem pay5_eq (v2 : Vec Ideal S512x512 .f32) : k0_pay5 v2 = v2 := by
  unfold k0_pay5; rw [pay3_eq]; rfl
theorem pay6_eq (v5 : Vec Ideal S512x128 .f32) : k0_pay6 v5 = v5 := by
  unfold k0_pay6; rw [shapeCast_self]; rfl
theorem pay7_eq (v31 : Vec Ideal S128x1536 .bf16) : k0_pay7 v31 = v31 := by
  unfold k0_pay7; exact shapeCast_self v31 _
theorem pay10_eq (v40 : Vec Ideal S512x1536 .bf16) : k0_pay10 v40 = v40 := by
  unfold k0_pay10; exact shapeCast_self v40 _
theorem pay11_eq (v42 : Vec Ideal S1x1536 .f32) : k0_pay11 v42 = v42 := by
  unfold k0_pay11; exact shapeCast_self v42 _

/-- The message block times the message part of the input-gate parameters: at `(p, q)` the sum over the message's
    coordinates of the rectified message times the parameter. -/
theorem pay8_at (v0 v2 : Vec Ideal S512x512 .f32) (v4 : Vec Ideal S512x16 .f32) (v10 v12 : FVec Ideal S512x512 .bf16)
    (v14 : Vec Ideal S16x512 .bf16) (v21 : Vec Ideal S1x512 .f32) (v29 : Vec Ideal S512x1536 .bf16) (p : Fin 512) (q : Fin 1536) :
    k0_pay8 v0 v2 v4 v10 v12 v14 v21 v29 (ix2 p q)
      = ∑ k : Fin 512, msgAt (fun k' => v0 (ix2 p k')) (fun k' => v2 (ix2 p k')) (fun k' => v4 (ix2 p k'))
          (fun k' j' => v10 (ix2 k' j')) (fun k' j' => v12 (ix2 k' j')) (fun k' j' => v14 (ix2 k' j'))
          (fun j' => v21 (ix2 (0 : Fin 1) j')) k * v29 (ix2 k q) := by
  unfold k0_pay8
  simp only [pay4_eq, pay5_eq, shapeCast_self]
  refine (mm_512x512_512x1536 _ v29 p q).trans ?_
  refine Finset.sum_congr rfl fun k _ => ?_
  refine congrArg (· * v29 (ix2 k q)) ?_
  simp only [truncf_apply, maximumf_apply, addf_apply, broadcast_apply, scalar_ofBits_at, mm_512x512_512x512,
    mm_512x16_16x512, bcast_1x512]
  rfl

/-- The input pre-activations: the message's partial product, the time encoding's, the bias. -/
theorem pay9_at (v28 : FVec Ideal S512x128 .bf16) (v32 : FVec Ideal S128x1536 .bf16) (v33 : FVec Ideal S512x1536 .f32)
    (v36 : Vec Ideal S1x1536 .f32) (p : Fin 512) (q : Fin 1536) :
    k0_pay9 v28 v32 v33 v36 (ix2 p q)
      = (v33 (ix2 p q) + ∑ k : Fin 128, v28 (ix2 p k) * v32 (ix2 k q)) + v36 (ix2 (0 : Fin 1) q) := by
  unfold k0_pay9
  simp only [shapeCast_self, addf_apply, mm_512x128_128x1536, bcast_1x1536]

/-- The hidden pre-activations of a block `h` of memory rows. -/
def hid (h : FVec Ideal S512x512 .bf16) (v40 : Vec Ideal S512x1536 .bf16) (v42 : Vec Ideal S1x1536 .f32) (p : Fin 512) (q : Fin 1536) : EReal :=
  (∑ k : Fin 512, h (ix2 p k) * v40 (ix2 k q)) + v42 (ix2 (0 : Fin 1) q)

theorem pay12_at (v8 : FVec Ideal S512x512 .bf16) (v40 : Vec Ideal S512x1536 .bf16) (v42 : Vec Ideal S1x1536 .f32) (p : Fin 512) (q : Fin 1536) :
    k0_pay12 v8 v40 v42 (ix2 p q) = hid v8 v40 v42 p q := by
  unfold k0_pay12 hid
  simp only [pay10_eq, pay11_eq, addf_apply, mm_512x512_512x1536, bcast_1x1536]

/-- The first output block: the cell applied to the first memory rows. -/
theorem pay13_at (v1 : FVec Ideal S512x512 .f32) (v7 : FVec Ideal S512x512 .bf16) (v28 : FVec Ideal S512x128 .bf16)
    (v32 : FVec Ideal S128x1536 .bf16) (v33 : FVec Ideal S512x1536 .f32) (v36 : Vec Ideal S1x1536 .f32)
    (v40 : Vec Ideal S512x1536 .bf16) (v42 : Vec Ideal S1x1536 .f32) (p j : Fin 512) :
    k0_pay13 v1 v7 v28 v32 v33 v36 v40 v42 (ix2 p j)
      = gate (k0_pay9 v28 v32 v33 v36 (ix2 p (colR j))) (k0_pay9 v28 v32 v33 v36 (ix2 p (colZ j)))
          (k0_pay9 v28 v32 v33 v36 (ix2 p (colN j)))
          (hid v7 v40 v42 p (colR j)) (hid v7 v40 v42 p (colZ j)) (hid v7 v40 v42 p (colN j)) (v1 (ix2 p j)) := by
  unfold k0_pay13 gate hid
  simp only [pay10_eq, pay11_eq, addf_apply, mulf_apply, subf_apply, logistic_at, tanh_at, broadcast_apply,
    scalar_ofBits_at, band_R, band_Z, band_N, mm_512x512_512x1536, bcast_1x1536]

/-- The second output block, in its three payloads: the update gate, the candidate, one minus the update gate. -/
theorem pay14_at (v8 : FVec Ideal S512x512 .bf16) (v28 : FVec Ideal S512x128 .bf16) (v32 : FVec Ideal S128x1536 .bf16)
    (v33 : FVec Ideal S512x1536 .f32) (v36 : Vec Ideal S1x1536 .f32) (v40 : Vec Ideal S512x1536 .bf16)
    (v42 : Vec Ideal S1x1536 .f32) (p j : Fin 512) :
    k0_pay14 v8 v28 v32 v33 v36 v40 v42 (ix2 p j)
      = Ideal.logistic (k0_pay9 v28 v32 v33 v36 (ix2 p (colZ j)) + hid v8 v40 v42 p (colZ j)) := by
  unfold k0_pay14
  simp only [addf_apply, logistic_at, band_Z, pay12_at]

theorem pay15_at (v8 : FVec Ideal S512x512 .bf16) (v28 : FVec Ideal S512x128 .bf16) (v32 : FVec Ideal S128x1536 .bf16)
    (v33 : FVec Ideal S512x1536 .f32) (v36 : Vec Ideal S1x1536 .f32) (v40 : Vec Ideal S512x1536 .bf16)
    (v42 : Vec Ideal S1x1536 .f32) (p j : Fin 512) :
    k0_pay15 v8 v28 v32 v33 v36 v40 v42 (ix2 p j)
      = Ideal.tanh (k0_pay9 v28 v32 v33 v36 (ix2 p (colN j))
          + Ideal.logistic (k0_pay9 v28 v32 v33 v36 (ix2 p (colR j)) + hid v8 v40 v42 p (colR j)) * hid v8 v40 v42 p (colN j)) := by
  unfold k0_pay15
  simp only [addf_apply, mulf_apply, logistic_at, tanh_at, band_R, band_N, pay12_at]

theorem pay16_at (v8 : FVec Ideal S512x512 .bf16) (v28 : FVec Ideal S512x128 .bf16) (v32 : FVec Ideal S128x1536 .bf16)
    (v33 : FVec Ideal S512x1536 .f32) (v36 : Vec Ideal S1x1536 .f32) (v40 : Vec Ideal S512x1536 .bf16)
    (v42 : Vec Ideal S1x1536 .f32) (p j : Fin 512) :
    k0_pay16 v8 v28 v32 v33 v36 v40 v42 (ix2 p j) = oneW - k0_pay14 v8 v28 v32 v33 v36 v40 v42 (ix2 p j) := by
  unfold k0_pay16
  simp only [subf_apply, broadcast_apply, scalar_ofBits_at]

theorem pay1_at (v3 v77 v80 v82 : FVec Ideal S512x512 .f32) (i : S512x512.Idx) :
    k0_pay1 v3 v77 v80 v82 i = v82 i * v80 i + v77 i * v3 i := rfl

/-! ## The two output blocks -/

theorem hz : (![0, 0] : Fin 2 → Nat) = fun _ => 0 := funext fun a => by fin_cases a <;> rfl

/-- The input pre-activations in the specification's words. -/
theorem gi_at (x0 x1 : Vec Ideal S512x512 .f32) (x2 : Vec Ideal S512x16 .f32) (x3 : Vec Ideal S512x128 .f32)
    (x4 x5 : FVec Ideal S512x512 .bf16) (x6 : Vec Ideal S16x512 .bf16) (x7 : Vec Ideal S1x512 .f32)
    (x8 : Vec Ideal S512x1536 .bf16) (x9 : Vec Ideal S128x1536 .bf16) (x11 : Vec Ideal S1x1536 .f32) (p : Fin 512) (q : Fin 1536) :
    k0_pay9 (k0_pay6 x3) (k0_pay7 x9) (k0_pay8 x0 x1 x2 x4 x5 x6 x7 x8) x11 (ix2 p q)
      = giAt (msgAt (fun k => x0 (ix2 p k)) (fun k => x1 (ix2 p k)) (fun k => x2 (ix2 p k))
            (fun k j' => x4 (ix2 k j')) (fun k j' => x5 (ix2 k j')) (fun k j' => x6 (ix2 k j')) (fun j' => x7 (ix2 (0 : Fin 1) j')))
          (fun k => x3 (ix2 p k)) (fun k q' => x8 (ix2 k q')) (fun k q' => x9 (ix2 k q')) (fun q' => x11 (ix2 (0 : Fin 1) q')) q := by
  rw [pay9_at, pay8_at, pay6_eq, pay7_eq]
  rfl

/-- Output window 13's block at `(p, j)`. -/
theorem out13_at (x0 x1 : Vec Ideal S512x512 .f32) (x2 : Vec Ideal S512x16 .f32) (x3 : Vec Ideal S512x128 .f32)
    (x4 x5 : FVec Ideal S512x512 .bf16) (x6 : Vec Ideal S16x512 .bf16) (x7 : Vec Ideal S1x512 .f32)
    (x8 : Vec Ideal S512x1536 .bf16) (x9 : Vec Ideal S128x1536 .bf16) (x10 : Vec Ideal S512x1536 .bf16)
    (x11 x12 : Vec Ideal S1x1536 .f32) (p j : Fin 512) :
    out0_13 x0 x1 x2 x3 x4 x5 x6 x7 x8 x9 x10 x11 x12 (ix2 p j)
      = cellAt
          (giAt (msgAt (fun k => x0 (ix2 p k)) (fun k => x1 (ix2 p k)) (fun k => x2 (ix2 p k))
              (fun k j' => x4 (ix2 k j')) (fun k j' => x5 (ix2 k j')) (fun k j' => x6 (ix2 k j')) (fun j' => x7 (ix2 (0 : Fin 1) j')))
            (fun k => x3 (ix2 p k)) (fun k q' => x8 (ix2 k q')) (fun k q' => x9 (ix2 k q')) (fun q' => x11 (ix2 (0 : Fin 1) q')))
          (ghAt (fun k => x0 (ix2 p k)) (fun k q' => x10 (ix2 k q')) (fun q' => x12 (ix2 (0 : Fin 1) q')))
          (fun k => x0 (ix2 p k)) j := by
  unfold out0_13
  rw [View.canon_unit_zero hz]
  simp only [View.ld_unit_zero (S := S512x512) hz, View.ld_unit_zero (S := S512x16) hz, View.ld_unit_zero (S := S512x128) hz,
    View.ld_unit_zero (S := S16x512) hz, View.ld_unit_zero (S := S1x512) hz, View.ld_unit_zero (S := S512x1536) hz,
    View.ld_unit_zero (S := S128x1536) hz, View.ld_unit_zero (S := S1x1536) hz]
  rw [pay13_at, gi_at, gi_at, gi_at, pay2_eq, pay4_eq]
  rfl

/-- Output window 14's block at `(p, j)`. -/
theorem out14_at (x0 x1 : Vec Ideal S512x512 .f32) (x2 : Vec Ideal S512x16 .f32) (x3 : Vec Ideal S512x128 .f32)
    (x4 x5 : FVec Ideal S512x512 .bf16) (x6 : Vec Ideal S16x512 .bf16) (x7 : Vec Ideal S1x512 .f32)
    (x8 : Vec Ideal S512x1536 .bf16) (x9 : Vec Ideal S128x1536 .bf16) (x10 : Vec Ideal S512x1536 .bf16)
    (x11 x12 : Vec Ideal S1x1536 .f32) (p j : Fin 512) :
    out0_14 x0 x1 x2 x3 x4 x5 x6 x7 x8 x9 x10 x11 x12 (ix2 p j)
      = cellAt
          (giAt (msgAt (fun k => x0 (ix2 p k)) (fun k => x1 (ix2 p k)) (fun k => x2 (ix2 p k))
              (fun k j' => x4 (ix2 k j')) (fun k j' => x5 (ix2 k j')) (fun k j' => x6 (ix2 k j')) (fun j' => x7 (ix2 (0 : Fin 1) j')))
            (fun k => x3 (ix2 p k)) (fun k q' => x8 (ix2 k q')) (fun k q' => x9 (ix2 k q')) (fun q' => x11 (ix2 (0 : Fin 1) q')))
          (ghAt (fun k => x1 (ix2 p k)) (fun k q' => x10 (ix2 k q')) (fun q' => x12 (ix2 (0 : Fin 1) q')))
          (fun k => x1 (ix2 p k)) j := by
  unfold out0_14
  rw [View.canon_unit_zero hz]
  simp only [View.ld_unit_zero (S := S512x512) hz, View.ld_unit_zero (S := S512x16) hz, View.ld_unit_zero (S := S512x128) hz,
    View.ld_unit_zero (S := S16x512) hz, View.ld_unit_zero (S := S1x512) hz, View.ld_unit_zero (S := S512x1536) hz,
    View.ld_unit_zero (S := S128x1536) hz, View.ld_unit_zero (S := S1x1536) hz]
  rw [pay1_at, pay16_at, pay14_at, pay15_at, gi_at, gi_at, gi_at, pay3_eq, pay5_eq]
  rfl

end Cert.KernelIdeal.BodyValue

end
-- ==== Proof.KernelArrays.lean ====
/-
  From blocks to arrays: what the two output arrays of the kernel hold after all 32 grid points.

  Grid point `t` works on batch rows `512 t … 512 t + 511`: the four row-wise inputs and the two outputs move with
  `t`, the nine parameter blocks are the whole parameter arrays at every point. So row `p` of point `t`'s block is
  row `512 t + p` of the array, each point writes back its 512 rows of one whole-array function, and the 32 blocks
  tile the 16384 rows: the output arrays are that function.
-/
import proofs.«178560_j60421599920314_2_alg».proof.Proof.Gen.KernelIdeal.Frame
import proofs.«178560_j60421599920314_2_alg».proof.Proof.GruCell
import proofs.«178560_j60421599920314_2_alg».proof.Proof.KernelBody
import Idealize.ShloMosaic.Lib.Pipeline.Value

noncomputable section

open scoped BigOperators

namespace Cert.KernelIdeal.ArrayValue

open Cert.KernelIdeal Cert.KernelIdeal.Gen Cert.KernelIdeal.BodyValue Idealize.ShloMosaic Idealize.ShloMosaic.TcCoe
open Idealize.SL.Sem Idealize.ShloMosaic.ValueIdx Cert.MemGru
open Idealize.ShloMosaic.Pipeline (Dat)

variable (m : (ℓ : Loc nD τ sig) → Buf (Elt Ideal) ℓ)

/-! ## The index maps, decided over the 32 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

theorem lt32 (t : Fin cfg0.N) : t.val < 32 := lt_of_lt_of_eq t.isLt N_0

/-- The batch row that row `p` of point `t`'s block is. -/
def rowOf (t : Fin cfg0.N) (p : Fin 512) : Fin 16384 := ⟨512 * t.val + p.val, by have := lt32 t; have := p.isLt; omega⟩

/-! ## The blocks, read off the arrays -/

theorem blk0_at (c : Dev nD) (t : Fin cfg0.N) (p : Fin 512) (k : Fin 512) :
    iblk m c 0 t (ix2 p k) = (V m c main_call0_v6 : FVec Ideal S16384x512 .f32) (ix2 (rowOf t p) k) := by
  obtain ⟨e0, e1⟩ := idx0 t
  show (V m c main_call0_v6 : FVec Ideal S16384x512 .f32) (((cfg0.win 0).blk t).view.emb (ix2 p k)) = _
  refine congrArg (V m c main_call0_v6 : FVec Ideal S16384x512 .f32) ?_
  funext a; apply Fin.ext
  match a with
  | ⟨0, _⟩ => show win0_0.index t (0 : Fin 2) * 512 + 1 * p.val = 512 * t.val + p.val; omega
  | ⟨1, _⟩ => show win0_0.index t (1 : Fin 2) * 512 + 1 * k.val = k.val; omega
theorem blk1_at (c : Dev nD) (t : Fin cfg0.N) (p : Fin 512) (k : Fin 512) :
    iblk m c 1 t (ix2 p k) = (V m c main_call0_v13 : FVec Ideal S16384x512 .f32) (ix2 (rowOf t p) k) := by
  obtain ⟨e0, e1⟩ := idx1 t
  show (V m c main_call0_v13 : FVec Ideal S16384x512 .f32) (((cfg0.win 1).blk t).view.emb (ix2 p k)) = _
  refine congrArg (V m c main_call0_v13 : FVec Ideal S16384x512 .f32) ?_
  funext a; apply Fin.ext
  match a with
  | ⟨0, _⟩ => show win0_1.index t (0 : Fin 2) * 512 + 1 * p.val = 512 * t.val + p.val; omega
  | ⟨1, _⟩ => show win0_1.index t (1 : Fin 2) * 512 + 1 * k.val = k.val; omega
theorem blk2_at (c : Dev nD) (t : Fin cfg0.N) (p : Fin 512) (k : Fin 16) :
    iblk m c 2 t (ix2 p k) = (V m c main_arg3 : FVec Ideal S16384x16 .f32) (ix2 (rowOf t p) k) := by
  obtain ⟨e0, e1⟩ := idx2 t
  show (V m c main_arg3 : FVec Ideal S16384x16 .f32) (((cfg0.win 2).blk t).view.emb (ix2 p k)) = _
  refine congrArg (V m c main_arg3 : FVec Ideal S16384x16 .f32) ?_
  funext a; apply Fin.ext
  match a with
  | ⟨0, _⟩ => show win0_2.index t (0 : Fin 2) * 512 + 1 * p.val = 512 * t.val + p.val; omega
  | ⟨1, _⟩ => show win0_2.index t (1 : Fin 2) * 16 + 1 * k.val = k.val; omega
theorem blk3_at (c : Dev nD) (t : Fin cfg0.N) (p : Fin 512) (k : Fin 128) :
    iblk m c 3 t (ix2 p k) = (V m c main_call0_v36 : FVec Ideal S16384x128 .f32) (ix2 (rowOf t p) k) := by
  obtain ⟨e0, e1⟩ := idx3 t
  show (V m c main_call0_v36 : FVec Ideal S16384x128 .f32) (((cfg0.win 3).blk t).view.emb (ix2 p k)) = _
  refine congrArg (V m c main_call0_v36 : FVec Ideal S16384x128 .f32) ?_
  funext a; apply Fin.ext
  match a with
  | ⟨0, _⟩ => show win0_3.index t (0 : Fin 2) * 512 + 1 * p.val = 512 * t.val + p.val; omega
  | ⟨1, _⟩ => show win0_3.index t (1 : Fin 2) * 128 + 1 * k.val = k.val; omega
theorem blk4_at (c : Dev nD) (t : Fin cfg0.N) (k : Fin 512) (q : Fin 512) :
    iblk m c 4 t (ix2 k q) = (V m c main_call0_v16 : FVec Ideal S512x512 .bf16) (ix2 k q) := by
  obtain ⟨e0, e1⟩ := idx4 t
  show (V m c main_call0_v16 : FVec Ideal S512x512 .bf16) (((cfg0.win 4).blk t).view.emb (ix2 k q)) = _
  refine congrArg (V m c main_call0_v16 : FVec Ideal S512x512 .bf16) ?_
  funext a; apply Fin.ext
  match a with
  | ⟨0, _⟩ => show win0_4.index t (0 : Fin 2) * 512 + 1 * k.val = k.val; omega
  | ⟨1, _⟩ => show win0_4.index t (1 : Fin 2) * 512 + 1 * q.val = q.val; omega
theorem blk5_at (c : Dev nD) (t : Fin cfg0.N) (k : Fin 512) (q : Fin 512) :
    iblk m c 5 t (ix2 k q) = (V m c main_call0_v18 : FVec Ideal S512x512 .bf16) (ix2 k q) := by
  obtain ⟨e0, e1⟩ := idx5 t
  show (V m c main_call0_v18 : FVec Ideal S512x512 .bf16) (((cfg0.win 5).blk t).view.emb (ix2 k q)) = _
  refine congrArg (V m c main_call0_v18 : FVec Ideal S512x512 .bf16) ?_
  funext a; apply Fin.ext
  match a with
  | ⟨0, _⟩ => show win0_5.index t (0 : Fin 2) * 512 + 1 * k.val = k.val; omega
  | ⟨1, _⟩ => show win0_5.index t (1 : Fin 2) * 512 + 1 * q.val = q.val; omega
theorem blk6_at (c : Dev nD) (t : Fin cfg0.N) (k : Fin 16) (q : Fin 512) :
    iblk m c 6 t (ix2 k q) = (V m c main_call0_v20 : FVec Ideal S16x512 .bf16) (ix2 k q) := by
  obtain ⟨e0, e1⟩ := idx6 t
  show (V m c main_call0_v20 : FVec Ideal S16x512 .bf16) (((cfg0.win 6).blk t).view.emb (ix2 k q)) = _
  refine congrArg (V m c main_call0_v20 : FVec Ideal S16x512 .bf16) ?_
  funext a; apply Fin.ext
  match a with
  | ⟨0, _⟩ => show win0_6.index t (0 : Fin 2) * 16 + 1 * k.val = k.val; omega
  | ⟨1, _⟩ => show win0_6.index t (1 : Fin 2) * 512 + 1 * q.val = q.val; omega
theorem blk7_at (c : Dev nD) (t : Fin cfg0.N) (k : Fin 1) (q : Fin 512) :
    iblk m c 7 t (ix2 k q) = (V m c main_call0_v37 : FVec Ideal S1x512 .f32) (ix2 k q) := by
  obtain ⟨e0, e1⟩ := idx7 t
  show (V m c main_call0_v37 : FVec Ideal S1x512 .f32) (((cfg0.win 7).blk t).view.emb (ix2 k q)) = _
  refine congrArg (V m c main_call0_v37 : FVec Ideal S1x512 .f32) ?_
  funext a; apply Fin.ext
  match a with
  | ⟨0, _⟩ => show win0_7.index t (0 : Fin 2) * 1 + 1 * k.val = k.val; omega
  | ⟨1, _⟩ => show win0_7.index t (1 : Fin 2) * 512 + 1 * q.val = q.val; omega
theorem blk8_at (c : Dev nD) (t : Fin cfg0.N) (k : Fin 512) (q : Fin 1536) :
    iblk m c 8 t (ix2 k q) = (V m c main_call0_v23 : FVec Ideal S512x1536 .bf16) (ix2 k q) := by
  obtain ⟨e0, e1⟩ := idx8 t
  show (V m c main_call0_v23 : FVec Ideal S512x1536 .bf16) (((cfg0.win 8).blk t).view.emb (ix2 k q)) = _
  refine congrArg (V m c main_call0_v23 : FVec Ideal S512x1536 .bf16) ?_
  funext a; apply Fin.ext
  match a with
  | ⟨0, _⟩ => show win0_8.index t (0 : Fin 2) * 512 + 1 * k.val = k.val; omega
  | ⟨1, _⟩ => show win0_8.index t (1 : Fin 2) * 1536 + 1 * q.val = q.val; omega
theorem blk9_at (c : Dev nD) (t : Fin cfg0.N) (k : Fin 128) (q : Fin 1536) :
    iblk m c 9 t (ix2 k q) = (V m c main_call0_v25 : FVec Ideal S128x1536 .bf16) (ix2 k q) := by
  obtain ⟨e0, e1⟩ := idx9 t
  show (V m c main_call0_v25 : FVec Ideal S128x1536 .bf16) (((cfg0.win 9).blk t).view.emb (ix2 k q)) = _
  refine congrArg (V m c main_call0_v25 : FVec Ideal S128x1536 .bf16) ?_
  funext a; apply Fin.ext
  match a with
  | ⟨0, _⟩ => show win0_9.index t (0 : Fin 2) * 128 + 1 * k.val = k.val; omega
  | ⟨1, _⟩ => show win0_9.index t (1 : Fin 2) * 1536 + 1 * q.val = q.val; omega
theorem blk10_at (c : Dev nD) (t : Fin cfg0.N) (k : Fin 512) (q : Fin 1536) :
    iblk m c 10 t (ix2 k q) = (V m c main_call0_v27 : FVec Ideal S512x1536 .bf16) (ix2 k q) := by
  obtain ⟨e0, e1⟩ := idx10 t
  show (V m c main_call0_v27 : FVec Ideal S512x1536 .bf16) (((cfg0.win 10).blk t).view.emb (ix2 k q)) = _
  refine congrArg (V m c main_call0_v27 : FVec Ideal S512x1536 .bf16) ?_
  funext a; apply Fin.ext
  match a with
  | ⟨0, _⟩ => show win0_10.index t (0 : Fin 2) * 512 + 1 * k.val = k.val; omega
  | ⟨1, _⟩ => show win0_10.index t (1 : Fin 2) * 1536 + 1 * q.val = q.val; omega
theorem blk11_at (c : Dev nD) (t : Fin cfg0.N) (k : Fin 1) (q : Fin 1536) :
    iblk m c 11 t (ix2 k q) = (V m c main_call0_v38 : FVec Ideal S1x1536 .f32) (ix2 k q) := by
  obtain ⟨e0, e1⟩ := idx11 t
  show (V m c main_call0_v38 : FVec Ideal S1x1536 .f32) (((cfg0.win 11).blk t).view.emb (ix2 k q)) = _
  refine congrArg (V m c main_call0_v38 : FVec Ideal S1x1536 .f32) ?_
  funext a; apply Fin.ext
  match a with
  | ⟨0, _⟩ => show win0_11.index t (0 : Fin 2) * 1 + 1 * k.val = k.val; omega
  | ⟨1, _⟩ => show win0_11.index t (1 : Fin 2) * 1536 + 1 * q.val = q.val; omega
theorem blk12_at (c : Dev nD) (t : Fin cfg0.N) (k : Fin 1) (q : Fin 1536) :
    iblk m c 12 t (ix2 k q) = (V m c main_call0_v39 : FVec Ideal S1x1536 .f32) (ix2 k q) := by
  obtain ⟨e0, e1⟩ := idx12 t
  show (V m c main_call0_v39 : FVec Ideal S1x1536 .f32) (((cfg0.win 12).blk t).view.emb (ix2 k q)) = _
  refine congrArg (V m c main_call0_v39 : FVec Ideal S1x1536 .f32) ?_
  funext a; apply Fin.ext
  match a with
  | ⟨0, _⟩ => show win0_12.index t (0 : Fin 2) * 1 + 1 * k.val = k.val; omega
  | ⟨1, _⟩ => show win0_12.index t (1 : Fin 2) * 1536 + 1 * q.val = q.val; omega

/-! ## One whole-array function -/

/-- Row `b`, coordinate `j` of the new state of the memory rows `H`, from the arrays as the kernel finds them. -/
def rowsAt (c : Dev nD) (H : FVec Ideal S16384x512 .f32) (b : Fin 16384) (j : Fin 512) : EReal :=
  cellAt
    (giAt
      (msgAt (fun k => (V m c main_call0_v6 : FVec Ideal S16384x512 .f32) (ix2 b k))
        (fun k => (V m c main_call0_v13 : FVec Ideal S16384x512 .f32) (ix2 b k))
        (fun k => (V m c main_arg3 : FVec Ideal S16384x16 .f32) (ix2 b k))
        (fun k j' => (V m c main_call0_v16 : FVec Ideal S512x512 .bf16) (ix2 k j'))
        (fun k j' => (V m c main_call0_v18 : FVec Ideal S512x512 .bf16) (ix2 k j'))
        (fun k j' => (V m c main_call0_v20 : FVec Ideal S16x512 .bf16) (ix2 k j'))
        (fun j' => (V m c main_call0_v37 : FVec Ideal S1x512 .f32) (ix2 (0 : Fin 1) j')))
      (fun k => (V m c main_call0_v36 : FVec Ideal S16384x128 .f32) (ix2 b k))
      (fun k q => (V m c main_call0_v23 : FVec Ideal S512x1536 .bf16) (ix2 k q))
      (fun k q => (V m c main_call0_v25 : FVec Ideal S128x1536 .bf16) (ix2 k q))
      (fun q => (V m c main_call0_v38 : FVec Ideal S1x1536 .f32) (ix2 (0 : Fin 1) q)))
    (ghAt (fun k => H (ix2 b k)) (fun k q => (V m c main_call0_v27 : FVec Ideal S512x1536 .bf16) (ix2 k q))
      (fun q => (V m c main_call0_v39 : FVec Ideal S1x1536 .f32) (ix2 (0 : Fin 1) q)))
    (fun k => H (ix2 b k)) j

/-- The same as an array. -/
def newRows (c : Dev nD) (H : FVec Ideal S16384x512 .f32) : FVec Ideal S16384x512 .f32 :=
  fun i => rowsAt m c H ⟨(i 0).val, (i 0).isLt⟩ ⟨(i 1).val, (i 1).isLt⟩

theorem newRows_at (c : Dev nD) (H : FVec Ideal S16384x512 .f32) (b : Fin 16384) (j : Fin 512) :
    newRows m c H (ix2 b j) = rowsAt m c H b j := rfl

/-! ## Output window 13: the new state of the first gathered rows -/

theorem emb13 (t : Fin cfg0.N) (p j : Fin 512) :
    ((cfg0.win 13).blk t).view.emb (ix2 p j) = (ix2 (rowOf t p) j : S16384x512.Idx) := by
  obtain ⟨e0, e1⟩ := idx13 t
  funext a; apply Fin.ext
  match a with
  | ⟨0, _⟩ => show win0_13.index t (0 : Fin 2) * 512 + 1 * p.val = 512 * t.val + p.val; omega
  | ⟨1, _⟩ => show win0_13.index t (1 : Fin 2) * 512 + 1 * j.val = j.val; omega

/-- What point `t` writes back is its 512 rows of the whole-array function. -/
theorem flushed13_eq (c : Dev nD) (t : Fin cfg0.N) :
    (dats m 0 c).flushed 13 t
      = ((cfg0.win 13).blk t).view.read (Elt Ideal) (newRows m c (V m c main_call0_v6)) := by
  show (cfg0.win 13).cut (grid0.coords t) ((dats m 0 c).after 13 t) = _
  rw [after0_13]
  funext y
  obtain ⟨p, j, rfl⟩ : ∃ (p : Fin 512) (j : Fin 512), y = ix2 p j := ⟨y 0, y 1, eq_ix2 y⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p j)
      = newRows m c (V m c main_call0_v6) (((cfg0.win 13).blk t).view.emb (ix2 p j))
  rw [emb13 t p j]
  refine (out13_at _ _ _ _ _ _ _ _ _ _ _ _ _ p j).trans ?_
  simp only [blk0_at, blk1_at, blk2_at, blk3_at, blk4_at, blk5_at, blk6_at, blk7_at, blk8_at, blk9_at, blk10_at, blk11_at, blk12_at]
  rfl

theorem mem_blk13 (t : Fin cfg0.N) (i : S16384x512.Idx) :
    i ∈ ((cfg0.win 13).blk t).view.set ↔ ∀ a : Fin 2, win0_13.index t a * S512x512.size a ≤ (i a).val
      ∧ (i a).val < win0_13.index t a * S512x512.size a + S512x512.size a := by
  show i ∈ ((View.whole main_call0_v40_0).slice (win0_13.rect t)).set ↔ _
  rw [View.set_slice_whole, Rect.mem_set_unit]
  exact Iff.rfl

/-- Every row is in the block of the point its number divided by 512 names. -/
theorem cover13 (i : S16384x512.Idx) :
    ∃ t : Fin cfg0.N, (cfg0.win 13).flush t = true ∧ i ∈ ((cfg0.win 13).blk t).view.set := by
  have hi0 : (i 0).val < 16384 := (i 0).isLt
  have hi1 : (i 1).val < 512 := (i 1).isLt
  have hN : grid0.N = 32 := N_0
  have ht : (i 0).val / 512 < cfg0.N := by show (i 0).val / 512 < grid0.N; rw [hN]; omega
  obtain ⟨e0, e1⟩ := idx13 ⟨(i 0).val / 512, ht⟩
  refine ⟨⟨(i 0).val / 512, ht⟩, flush0_13 _, ?_⟩
  rw [mem_blk13]
  intro a
  match a with
  | ⟨0, _⟩ =>
    show win0_13.index ⟨(i 0).val / 512, ht⟩ (0 : Fin 2) * 512 ≤ (i 0).val
      ∧ (i 0).val < win0_13.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_13.index ⟨(i 0).val / 512, ht⟩ (1 : Fin 2) * 512 ≤ (i 1).val
      ∧ (i 1).val < win0_13.index ⟨(i 0).val / 512, ht⟩ (1 : Fin 2) * 512 + 512
    rw [e1]; omega

/-- The first output array after the run. -/
theorem final13 (c : Dev nD) : (dats m 0 c).arrAt 13 cfg0.N = newRows m c (V m c main_call0_v6) :=
  (dats m 0 c).arrAt_eq_of_cover 13 _ (fun t _ => flushed13_eq m c t) cover13
/-! ## Output window 14: the new state of the second gathered rows -/

theorem emb14 (t : Fin cfg0.N) (p j : Fin 512) :
    ((cfg0.win 14).blk t).view.emb (ix2 p j) = (ix2 (rowOf t p) j : S16384x512.Idx) := by
  obtain ⟨e0, e1⟩ := idx14 t
  funext a; apply Fin.ext
  match a with
  | ⟨0, _⟩ => show win0_14.index t (0 : Fin 2) * 512 + 1 * p.val = 512 * t.val + p.val; omega
  | ⟨1, _⟩ => show win0_14.index t (1 : Fin 2) * 512 + 1 * j.val = j.val; omega

/-- What point `t` writes back is its 512 rows of the whole-array function. -/
theorem flushed14_eq (c : Dev nD) (t : Fin cfg0.N) :
    (dats m 0 c).flushed 14 t
      = ((cfg0.win 14).blk t).view.read (Elt Ideal) (newRows m c (V m c main_call0_v13)) := by
  show (cfg0.win 14).cut (grid0.coords t) ((dats m 0 c).after 14 t) = _
  rw [after0_14]
  funext y
  obtain ⟨p, j, rfl⟩ : ∃ (p : Fin 512) (j : Fin 512), y = ix2 p j := ⟨y 0, y 1, eq_ix2 y⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p j)
      = newRows m c (V m c main_call0_v13) (((cfg0.win 14).blk t).view.emb (ix2 p j))
  rw [emb14 t p j]
  refine (out14_at _ _ _ _ _ _ _ _ _ _ _ _ _ p j).trans ?_
  simp only [blk0_at, blk1_at, blk2_at, blk3_at, blk4_at, blk5_at, blk6_at, blk7_at, blk8_at, blk9_at, blk10_at, blk11_at, blk12_at]
  rfl

theorem mem_blk14 (t : Fin cfg0.N) (i : S16384x512.Idx) :
    i ∈ ((cfg0.win 14).blk t).view.set ↔ ∀ a : Fin 2, win0_14.index t a * S512x512.size a ≤ (i a).val
      ∧ (i a).val < win0_14.index t a * S512x512.size a + S512x512.size a := by
  show i ∈ ((View.whole main_call0_v40_1).slice (win0_14.rect t)).set ↔ _
  rw [View.set_slice_whole, Rect.mem_set_unit]
  exact Iff.rfl

/-- Every row is in the block of the point its number divided by 512 names. -/
theorem cover14 (i : S16384x512.Idx) :
    ∃ t : Fin cfg0.N, (cfg0.win 14).flush t = true ∧ i ∈ ((cfg0.win 14).blk t).view.set := by
  have hi0 : (i 0).val < 16384 := (i 0).isLt
  have hi1 : (i 1).val < 512 := (i 1).isLt
  have hN : grid0.N = 32 := N_0
  have ht : (i 0).val / 512 < cfg0.N := by show (i 0).val / 512 < grid0.N; rw [hN]; omega
  obtain ⟨e0, e1⟩ := idx14 ⟨(i 0).val / 512, ht⟩
  refine ⟨⟨(i 0).val / 512, ht⟩, flush0_14 _, ?_⟩
  rw [mem_blk14]
  intro a
  match a with
  | ⟨0, _⟩ =>
    show win0_14.index ⟨(i 0).val / 512, ht⟩ (0 : Fin 2) * 512 ≤ (i 0).val
      ∧ (i 0).val < win0_14.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_14.index ⟨(i 0).val / 512, ht⟩ (1 : Fin 2) * 512 ≤ (i 1).val
      ∧ (i 1).val < win0_14.index ⟨(i 0).val / 512, ht⟩ (1 : Fin 2) * 512 + 512
    rw [e1]; omega

/-- The second output array after the run. -/
theorem final14 (c : Dev nD) : (dats m 0 c).arrAt 14 cfg0.N = newRows m c (V m c main_call0_v13) :=
  (dats m 0 c).arrAt_eq_of_cover 14 _ (fun t _ => flushed14_eq m c t) cover14

end Cert.KernelIdeal.ArrayValue

end
-- ==== Proof.KernelParams.lean ====
/-
  The parameter arrays as the kernel's windows find them, read at one entry.

  Before the kernel is launched the host transposes each parameter matrix, cuts the transposed message matrix into its
  three row bands (the weights of the first memory row, of the second, of the edge features) and the transposed input
  gate matrix into its two (message, time encoding), narrows them to bfloat16 (the identity on extended reals) and views
  each bias vector as a one-row matrix. So entry `(k, j)` of a prepared block is entry `(j, offset + k)` of the stored
  matrix, and entry `(0, j)` of a prepared bias is entry `j` of the stored one.
-/
import proofs.«178560_j60421599920314_2_alg».proof.Proof.Gen.KernelIdeal.Frame
import proofs.«178560_j60421599920314_2_alg».proof.Proof.GruCell
import Idealize.ShloMosaic.Lib.Pipeline.Value
import Idealize.ShloMosaic.Lib.StableHlo.Run

noncomputable section

namespace Cert.KernelIdeal.ParamValue

open Cert.KernelIdeal Cert.KernelIdeal.Gen Idealize.ShloMosaic Idealize.ShloMosaic.TcCoe Idealize.SL.Sem
open Idealize.ShloMosaic.StableHlo Idealize.ShloMosaic.ValueIdx Cert.MemGru

variable (m : (ℓ : Loc nD τ sig) → Buf (Elt Ideal) ℓ) (c : Dev nD)

/-! ## The prepared arrays as terms of the stored ones -/

theorem V_v16 : (V m c main_call0_v16 : FVec Ideal S512x512 .bf16)
    = truncf (F := Ideal) .bf16 (extractStridedSlice S512x512 ![0, 0]
        (transpose S1040x512 [1, 0] (m ((c : Thread nD τ).loc main_arg8)) transposes_S512x1040_S1040x512_1_0) slices_S1040x512_S512x512_0_0) bitsLt_bf16_f32 := by
  show StableHlo.after hostOps0 (fun b => m (c, b)) (Proc.devRef .tc main_call0_v16) = _
  after_results
  rfl

theorem V_v18 : (V m c main_call0_v18 : FVec Ideal S512x512 .bf16)
    = truncf (F := Ideal) .bf16 (extractStridedSlice S512x512 ![512, 0]
        (transpose S1040x512 [1, 0] (m ((c : Thread nD τ).loc main_arg8)) transposes_S512x1040_S1040x512_1_0) slices_S1040x512_S512x512_512_0) bitsLt_bf16_f32 := by
  show StableHlo.after hostOps0 (fun b => m (c, b)) (Proc.devRef .tc main_call0_v18) = _
  after_results
  rfl

theorem V_v20 : (V m c main_call0_v20 : FVec Ideal S16x512 .bf16)
    = truncf (F := Ideal) .bf16 (extractStridedSlice S16x512 ![1024, 0]
        (transpose S1040x512 [1, 0] (m ((c : Thread nD τ).loc main_arg8)) transposes_S512x1040_S1040x512_1_0) slices_S1040x512_S16x512_1024_0) bitsLt_bf16_f32 := by
  show StableHlo.after hostOps0 (fun b => m (c, b)) (Proc.devRef .tc main_call0_v20) = _
  after_results
  rfl

theorem V_v23 : (V m c main_call0_v23 : FVec Ideal S512x1536 .bf16)
    = truncf (F := Ideal) .bf16 (extractStridedSlice S512x1536 ![0, 0]
        (transpose S640x1536 [1, 0] (m ((c : Thread nD τ).loc main_arg10)) transposes_S1536x640_S640x1536_1_0) slices_S640x1536_S512x1536_0_0) bitsLt_bf16_f32 := by
  show StableHlo.after hostOps0 (fun b => m (c, b)) (Proc.devRef .tc main_call0_v23) = _
  after_results
  rfl

theorem V_v25 : (V m c main_call0_v25 : FVec Ideal S128x1536 .bf16)
    = truncf (F := Ideal) .bf16 (extractStridedSlice S128x1536 ![512, 0]
        (transpose S640x1536 [1, 0] (m ((c : Thread nD τ).loc main_arg10)) transposes_S1536x640_S640x1536_1_0) slices_S640x1536_S128x1536_512_0) bitsLt_bf16_f32 := by
  show StableHlo.after hostOps0 (fun b => m (c, b)) (Proc.devRef .tc main_call0_v25) = _
  after_results
  rfl

theorem V_v27 : (V m c main_call0_v27 : FVec Ideal S512x1536 .bf16)
    = truncf (F := Ideal) .bf16 (transpose S512x1536 [1, 0] (m ((c : Thread nD τ).loc main_arg11)) transposes_S1536x512_S512x1536_1_0) bitsLt_bf16_f32 := by
  show StableHlo.after hostOps0 (fun b => m (c, b)) (Proc.devRef .tc main_call0_v27) = _
  after_results
  rfl

theorem V_v37 : (V m c main_call0_v37 : FVec Ideal S1x512 .f32)
    = shapeCast S1x512 (m ((c : Thread nD τ).loc main_arg9)) shapeCasts_S512_S1x512 := by
  show StableHlo.after hostOps0 (fun b => m (c, b)) (Proc.devRef .tc main_call0_v37) = _
  after_results
  rfl

theorem V_v38 : (V m c main_call0_v38 : FVec Ideal S1x1536 .f32)
    = shapeCast S1x1536 (m ((c : Thread nD τ).loc main_arg12)) shapeCasts_S1536_S1x1536 := by
  show StableHlo.after hostOps0 (fun b => m (c, b)) (Proc.devRef .tc main_call0_v38) = _
  after_results
  rfl

theorem V_v39 : (V m c main_call0_v39 : FVec Ideal S1x1536 .f32)
    = shapeCast S1x1536 (m ((c : Thread nD τ).loc main_arg13)) shapeCasts_S1536_S1x1536 := by
  show StableHlo.after hostOps0 (fun b => m (c, b)) (Proc.devRef .tc main_call0_v39) = _
  after_results
  rfl

/-! ## Read at an entry -/

/-- A row band, `off` rows down, of the transpose of a `[512, 1040]` matrix: entry `(k, j)` is entry `(j, off + k)`. -/
theorem band_of_transpose_1040 {R : Nat} (off : Nat) (X : FVec Ideal S512x1040 .f32)
    (hs : S1040x512.Slices ![off, 0] ⟨2, ![R, 512]⟩) (k : Fin R) (j : Fin 512) (kk : Fin 1040) (hkk : kk.val = off + k.val) :
    extractStridedSlice ⟨2, ![R, 512]⟩ ![off, 0] (transpose S1040x512 [1, 0] X transposes_S512x1040_S1040x512_1_0) hs (ix2 k j)
      = X (ix2 j kk) := by
  refine (extractStridedSlice_apply ![off, 0] _ hs (ix2 k j) (ix2 kk j) (fun a => by
    match a with
    | ⟨0, _⟩ => exact hkk
    | ⟨1, _⟩ => show j.val = 0 + j.val; omega)).trans ?_
  exact transpose_apply [1, 0] X transposes_S512x1040_S1040x512_1_0 (ix2 kk j) (ix2 j kk) (fun b => by
    match b with
    | ⟨0, _⟩ => rfl
    | ⟨1, _⟩ => rfl)

/-- The same for the transpose of a `[1536, 640]` matrix. -/
theorem band_of_transpose_640 {R : Nat} (off : Nat) (X : FVec Ideal S1536x640 .f32)
    (hs : S640x1536.Slices ![off, 0] ⟨2, ![R, 1536]⟩) (k : Fin R) (q : Fin 1536) (kk : Fin 640) (hkk : kk.val = off + k.val) :
    extractStridedSlice ⟨2, ![R, 1536]⟩ ![off, 0] (transpose S640x1536 [1, 0] X transposes_S1536x640_S640x1536_1_0) hs (ix2 k q)
      = X (ix2 q kk) := by
  refine (extractStridedSlice_apply ![off, 0] _ hs (ix2 k q) (ix2 kk q) (fun a => by
    match a with
    | ⟨0, _⟩ => exact hkk
    | ⟨1, _⟩ => show q.val = 0 + q.val; omega)).trans ?_
  exact transpose_apply [1, 0] X transposes_S1536x640_S640x1536_1_0 (ix2 kk q) (ix2 q kk) (fun b => by
    match b with
    | ⟨0, _⟩ => rfl
    | ⟨1, _⟩ => rfl)

theorem V_v16_at (k j : Fin 512) :
    (V m c main_call0_v16 : FVec Ideal S512x512 .bf16) (ix2 k j) = (m ((c : Thread nD τ).loc main_arg8) : FVec Ideal S512x1040 .f32) (ix2 j (c1040a k)) :=
  (congrFun (V_v16 m c) (ix2 k j)).trans
    (band_of_transpose_1040 0 _ slices_S1040x512_S512x512_0_0 k j (c1040a k) (by show k.val = 0 + k.val; omega))

theorem V_v18_at (k j : Fin 512) :
    (V m c main_call0_v18 : FVec Ideal S512x512 .bf16) (ix2 k j) = (m ((c : Thread nD τ).loc main_arg8) : FVec Ideal S512x1040 .f32) (ix2 j (c1040b k)) :=
  (congrFun (V_v18 m c) (ix2 k j)).trans
    (band_of_transpose_1040 512 _ slices_S1040x512_S512x512_512_0 k j (c1040b k) rfl)

theorem V_v20_at (k : Fin 16) (j : Fin 512) :
    (V m c main_call0_v20 : FVec Ideal S16x512 .bf16) (ix2 k j) = (m ((c : Thread nD τ).loc main_arg8) : FVec Ideal S512x1040 .f32) (ix2 j (c1040c k)) :=
  (congrFun (V_v20 m c) (ix2 k j)).trans
    (band_of_transpose_1040 1024 _ slices_S1040x512_S16x512_1024_0 k j (c1040c k) rfl)

theorem V_v23_at (k : Fin 512) (q : Fin 1536) :
    (V m c main_call0_v23 : FVec Ideal S512x1536 .bf16) (ix2 k q) = (m ((c : Thread nD τ).loc main_arg10) : FVec Ideal S1536x640 .f32) (ix2 q (c640a k)) :=
  (congrFun (V_v23 m c) (ix2 k q)).trans
    (band_of_transpose_640 0 _ slices_S640x1536_S512x1536_0_0 k q (c640a k) (by show k.val = 0 + k.val; omega))

theorem V_v25_at (k : Fin 128) (q : Fin 1536) :
    (V m c main_call0_v25 : FVec Ideal S128x1536 .bf16) (ix2 k q) = (m ((c : Thread nD τ).loc main_arg10) : FVec Ideal S1536x640 .f32) (ix2 q (c640b k)) :=
  (congrFun (V_v25 m c) (ix2 k q)).trans
    (band_of_transpose_640 512 _ slices_S640x1536_S128x1536_512_0 k q (c640b k) rfl)

theorem V_v27_at (k : Fin 512) (q : Fin 1536) :
    (V m c main_call0_v27 : FVec Ideal S512x1536 .bf16) (ix2 k q) = (m ((c : Thread nD τ).loc main_arg11) : FVec Ideal S1536x512 .f32) (ix2 q k) :=
  (congrFun (V_v27 m c) (ix2 k q)).trans
    (transpose_apply [1, 0] _ transposes_S1536x512_S512x1536_1_0 (ix2 k q) (ix2 q k) (fun b => by
      match b with
      | ⟨0, _⟩ => rfl
      | ⟨1, _⟩ => rfl))

theorem V_v37_at (j : Fin 512) :
    (V m c main_call0_v37 : FVec Ideal S1x512 .f32) (ix2 (0 : Fin 1) j) = (m ((c : Thread nD τ).loc main_arg9) : FVec Ideal S512 .f32) (ix1 j) :=
  (congrFun (V_v37 m c) (ix2 (0 : Fin 1) j)).trans
    (shapeCast_apply _ shapeCasts_S512_S1x512 (ix2 (0 : Fin 1) j) (ix1 j) (by
      rw [Shape.rowMajor_val_one, Shape.rowMajor_val_two]; show j.val = 0 * 512 + j.val; omega))

theorem V_v38_at (q : Fin 1536) :
    (V m c main_call0_v38 : FVec Ideal S1x1536 .f32) (ix2 (0 : Fin 1) q) = (m ((c : Thread nD τ).loc main_arg12) : FVec Ideal S1536 .f32) (ix1 q) :=
  (congrFun (V_v38 m c) (ix2 (0 : Fin 1) q)).trans
    (shapeCast_apply _ shapeCasts_S1536_S1x1536 (ix2 (0 : Fin 1) q) (ix1 q) (by
      rw [Shape.rowMajor_val_one, Shape.rowMajor_val_two]; show q.val = 0 * 1536 + q.val; omega))

theorem V_v39_at (q : Fin 1536) :
    (V m c main_call0_v39 : FVec Ideal S1x1536 .f32) (ix2 (0 : Fin 1) q) = (m ((c : Thread nD τ).loc main_arg13) : FVec Ideal S1536 .f32) (ix1 q) :=
  (congrFun (V_v39 m c) (ix2 (0 : Fin 1) q)).trans
    (shapeCast_apply _ shapeCasts_S1536_S1x1536 (ix2 (0 : Fin 1) q) (ix1 q) (by
      rw [Shape.rowMajor_val_one, Shape.rowMajor_val_two]; show q.val = 0 * 1536 + q.val; omega))

end Cert.KernelIdeal.ParamValue

end
-- ==== Proof.KernelSpec.lean ====
/-
  The kernel's two output arrays in the specification's words: with the prepared parameter blocks read back to the
  stored parameter matrices, the whole-array function the kernel computes is `MemGru.updAt` of the gathered rows, the
  edge features, the time encoding and the stored parameters.
-/
import proofs.«178560_j60421599920314_2_alg».proof.Proof.KernelArrays
import proofs.«178560_j60421599920314_2_alg».proof.Proof.KernelParams

noncomputable section

namespace Cert.KernelIdeal.ArrayValue

open Cert.KernelIdeal Cert.KernelIdeal.Gen Cert.KernelIdeal.ParamValue Idealize.ShloMosaic Idealize.ShloMosaic.TcCoe
open Idealize.SL.Sem Idealize.ShloMosaic.ValueIdx Cert.MemGru

variable (m : (ℓ : Loc nD τ sig) → Buf (Elt Ideal) ℓ)

theorem newRows_eq (c : Dev nD) (H : FVec Ideal S16384x512 .f32) :
    newRows m c H = fun i =>
      updAt (V m c main_call0_v6) (V m c main_call0_v13) (V m c main_arg3) (V m c main_call0_v36)
        (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) H
        ⟨(i 0).val, (i 0).isLt⟩ ⟨(i 1).val, (i 1).isLt⟩ := by
  funext i
  unfold newRows rowsAt updAt
  rw [show (fun (k j' : Fin 512) => (V m c main_call0_v16 : FVec Ideal S512x512 .bf16) (ix2 k j'))
        = fun k j' => (m ((c : Thread nD τ).loc main_arg8) : FVec Ideal S512x1040 .f32) (ix2 j' (c1040a k)) from
      funext fun k => funext fun j' => V_v16_at m c k j',
    show (fun (k j' : Fin 512) => (V m c main_call0_v18 : FVec Ideal S512x512 .bf16) (ix2 k j'))
        = fun k j' => (m ((c : Thread nD τ).loc main_arg8) : FVec Ideal S512x1040 .f32) (ix2 j' (c1040b k)) from
      funext fun k => funext fun j' => V_v18_at m c k j',
    show (fun (k : Fin 16) (j' : Fin 512) => (V m c main_call0_v20 : FVec Ideal S16x512 .bf16) (ix2 k j'))
        = fun k j' => (m ((c : Thread nD τ).loc main_arg8) : FVec Ideal S512x1040 .f32) (ix2 j' (c1040c k)) from
      funext fun k => funext fun j' => V_v20_at m c k j',
    show (fun (j' : Fin 512) => (V m c main_call0_v37 : FVec Ideal S1x512 .f32) (ix2 (0 : Fin 1) j'))
        = fun j' => (m ((c : Thread nD τ).loc main_arg9) : FVec Ideal S512 .f32) (ix1 j') from funext fun j' => V_v37_at m c j',
    show (fun (k : Fin 512) (q : Fin 1536) => (V m c main_call0_v23 : FVec Ideal S512x1536 .bf16) (ix2 k q))
        = fun k q => (m ((c : Thread nD τ).loc main_arg10) : FVec Ideal S1536x640 .f32) (ix2 q (c640a k)) from
      funext fun k => funext fun q => V_v23_at m c k q,
    show (fun (k : Fin 128) (q : Fin 1536) => (V m c main_call0_v25 : FVec Ideal S128x1536 .bf16) (ix2 k q))
        = fun k q => (m ((c : Thread nD τ).loc main_arg10) : FVec Ideal S1536x640 .f32) (ix2 q (c640b k)) from
      funext fun k => funext fun q => V_v25_at m c k q,
    show (fun (q : Fin 1536) => (V m c main_call0_v38 : FVec Ideal S1x1536 .f32) (ix2 (0 : Fin 1) q))
        = fun q => (m ((c : Thread nD τ).loc main_arg12) : FVec Ideal S1536 .f32) (ix1 q) from funext fun q => V_v38_at m c q,
    show (fun (k : Fin 512) (q : Fin 1536) => (V m c main_call0_v27 : FVec Ideal S512x1536 .bf16) (ix2 k q))
        = fun k q => (m ((c : Thread nD τ).loc main_arg11) : FVec Ideal S1536x512 .f32) (ix2 q k) from
      funext fun k => funext fun q => V_v27_at m c k q,
    show (fun (q : Fin 1536) => (V m c main_call0_v39 : FVec Ideal S1x1536 .f32) (ix2 (0 : Fin 1) q))
        = fun q => (m ((c : Thread nD τ).loc main_arg13) : FVec Ideal S1536 .f32) (ix1 q) from funext fun q => V_v39_at m c q]

end Cert.KernelIdeal.ArrayValue

end
-- ==== Proof.KernelTail.lean ====
/-
  The lines of the program that run after the call: from the two arrays the call leaves (the updated rows of the
  source nodes and of the target nodes, one row per edge of the batch) to the memory and the update times the
  program returns.

  Several edges of a batch may name the same node; the last one wins. The program finds, for every memory row, the
  last position in the list "all source ids, then all target ids" (32768 positions) at which its id stands — a
  maximum of positions written over a table that starts at −1 — and a row some id names takes the row of the stacked
  updates at that position and the time stamp of that position, while a row no id names keeps what it had. Here that
  computation is named once, as a function of the two arrays and of the arguments, so that whoever compares it with
  another program's last lines compares the arrays going in and never opens it.
-/
import proofs.«178560_j60421599920314_2_alg».proof.Proof.Gen.KernelIdeal.Frame
import Idealize.ShloMosaic.Lib.ValueIdx

noncomputable section
namespace Cert.KernelIdeal.HostValue
open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

set_option quotPrecheck false

local notation "A0" => (m ((c.tc : Thread nD τ).loc main_arg0) : IVec S16384 32)
local notation "A1" => (m ((c.tc : Thread nD τ).loc main_arg1) : IVec S16384 32)
local notation "A2" => (m ((c.tc : Thread nD τ).loc main_arg2) : FVec Ideal S16384 .f32)
local notation "A4" => (m ((c.tc : Thread nD τ).loc main_arg4) : FVec Ideal S100000x512 .f32)
local notation "A5" => (m ((c.tc : Thread nD τ).loc main_arg5) : FVec Ideal S100000 .f32)

/-! ## After the call: which batch row, if any, each memory row takes

The two id columns are laid end to end (32768 entries: the 16384 source ids, then the 16384 target ids), negative
ids wrapped once by the number of memory rows. Each memory row `n` gets the LARGEST position `p` of that list whose id
is `n` (a maximum of positions scattered over a table that starts at −1), so a row no id names keeps −1. -/

/-- The 32768 node ids, source column then target column. -/
def ids : IVec S32768 32 :=
  concatenate S32768 0 [⟨S16384, A0⟩, ⟨S16384, A1⟩] concatenates_S16384_S16384_S32768_d0

/-- The ids with a negative one moved up by 100000. -/
def idsWrapped : IVec S32768 32 :=
  select (cmpi .slt (ids m c) (broadcastInDim S32768 ![] bcast_S_S32768 (constantI S_ 32 0#32)))
    (addi (ids m c) (broadcastInDim S32768 ![] bcast_S_S32768 (constantI S_ 32 100000#32))) (ids m c)

/-- For each memory row the last position of the id list that names it, or −1. -/
def lastPos : IVec S100000 32 :=
  Host.scatter scatter_S100000_S32768x1_S32768_n_0_0_1 IntOp.maxsi
    (broadcastInDim S100000 ![] bcast_S_S100000 (constantI S_ 32 4294967295#32))
    (broadcastInDim S32768x1 ![0] bcast_S32768_S32768x1_0 (idsWrapped m c))
    (iotaInDim S32768 32 0)

/-- Whether some id names the row. -/
def touched : IVec S100000 1 :=
  cmpi .sge (lastPos m c) (broadcastInDim S100000 ![] bcast_S_S100000 (constantI S_ 32 0#32))

/-- The position clipped below at 0, wrapped as an index into the 32768 positions, as a column. -/
def pickPos : IVec S100000x1 32 :=
  broadcastInDim S100000x1 ![0] bcast_S100000_S100000x1_0
    (select
      (cmpi .slt (maxsi (broadcastInDim S100000 ![] bcast_S_S100000 (id (constantI S_ 32 0#32))) (lastPos m c))
        (broadcastInDim S100000 ![] bcast_S_S100000 (constantI S_ 32 0#32)))
      (addi (maxsi (broadcastInDim S100000 ![] bcast_S_S100000 (id (constantI S_ 32 0#32))) (lastPos m c))
        (broadcastInDim S100000 ![] bcast_S_S100000 (constantI S_ 32 32768#32)))
      (maxsi (broadcastInDim S100000 ![] bcast_S_S100000 (id (constantI S_ 32 0#32))) (lastPos m c)))

/-- The new memory: a touched row takes the row of the stacked updates (`U0` over `U1`) at its last position, any
    other row stays. -/
def tailMem (U0 U1 : FVec Ideal S16384x512 .f32) : FVec Ideal S100000x512 .f32 :=
  select
    (broadcastInDim S100000x512 ![0, 1] bcast_S100000x1_S100000x512_0_1
      (broadcastInDim S100000x1 ![0] bcast_S100000_S100000x1_0 (touched m c)))
    (Host.gather gather_S32768x512_S100000x1_S100000x512_1_0_n_n_0_1_1512
      (concatenate S32768x512 0 [⟨S16384x512, U0⟩, ⟨S16384x512, U1⟩] concatenates_S16384x512_S16384x512_S32768x512_d0)
      (pickPos m c))
    A4

/-- The new update times: a touched row takes the time stamp of its last position (the stamps repeated for the
    two columns), any other row stays. -/
def tailUpd : FVec Ideal S100000 .f32 :=
  select (touched m c)
    (Host.gather gather_S32768_S100000x1_S100000_n_0_n_n_0_1_1
      (concatenate S32768 0 [⟨S16384, A2⟩, ⟨S16384, A2⟩] concatenates_S16384_S16384_S32768_d0)
      (pickPos m c))
    A5

/-! ## The arrays the lines after the call read -/

section Arrays
variable (A : (w : Fin (cfgs 0).W) → Buf (Elt Ideal) (((cfgs 0).spec w).arr.view.loc (c.tc : Thread nD τ)))

theorem wa_arg0 : Pipeline.withArrays (cfgs 0).spec c (V0 m c) A (Proc.devRef .tc main_arg0) = m ((c.tc : Thread nD τ).loc main_arg0) :=
  (Pipeline.withArrays_of_ne _ c (V0 m c) _ main_arg0 (by exact (by decide : ∀ w, Pipeline.arrRef spec0 w ≠ main_arg0))).trans (V_main_arg0 m c)
theorem wa_arg1 : Pipeline.withArrays (cfgs 0).spec c (V0 m c) A (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem wa_arg2 : Pipeline.withArrays (cfgs 0).spec c (V0 m c) A (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem wa_arg4 : Pipeline.withArrays (cfgs 0).spec c (V0 m c) A (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem wa_arg5 : Pipeline.withArrays (cfgs 0).spec c (V0 m c) A (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)
theorem wa_out0 : Pipeline.withArrays (cfgs 0).spec c (V0 m c) A (Proc.devRef .tc main_call0_v40_0) = A 13 :=
  Pipeline.withArrays_arr spec0 launch0.win.arr_inj c _ _ 13
theorem wa_out1 : Pipeline.withArrays (cfgs 0).spec c (V0 m c) A (Proc.devRef .tc main_call0_v40_1) = A 14 :=
  Pipeline.withArrays_arr spec0 launch0.win.arr_inj c _ _ 14
end Arrays

/-! ## Transports along equations of buffer types

A typed reference reads and writes its buffer through a transport along the equation "the buffer's type is the
value's type". Storing then reading back is the identity; and for a literal buffer, whose type IS the value's type
by computation, each transport alone is the identity. -/

theorem ofBuf_toBuf {T : BufTy} (x : StableHlo.TRef sig T) (v : T.Contents (Elt Ideal)) : x.ofBuf (x.toBuf v) = v := by
  obtain ⟨ref, rfl, _, _⟩ := x
  rfl

section Leaves
variable (A : (w : Fin (cfgs 0).W) → Buf (Elt Ideal) (((cfgs 0).spec w).arr.view.loc (c.tc : Thread nD τ)))

theorem rd_arg0 (h1 h2 h3) : (StableHlo.TRef.of main_arg0 h1 h2 h3 : StableHlo.TRef sig ⟨S16384, .i32⟩).ofBuf
      (Pipeline.withArrays (cfgs 0).spec c (V0 m c) A (Proc.devRef .tc main_arg0)) = A0 := by
  rw [wa_arg0 m c A]; rfl
theorem rd_arg1 (h1 h2 h3) : (StableHlo.TRef.of main_arg1 h1 h2 h3 : StableHlo.TRef sig ⟨S16384, .i32⟩).ofBuf
      (Pipeline.withArrays (cfgs 0).spec c (V0 m c) A (Proc.devRef .tc main_arg1)) = A1 := by
  rw [wa_arg1 m c A]; rfl
theorem rd_arg2 (h1 h2 h3) : (StableHlo.TRef.of main_arg2 h1 h2 h3 : StableHlo.TRef sig ⟨S16384, .f32⟩).ofBuf
      (Pipeline.withArrays (cfgs 0).spec c (V0 m c) A (Proc.devRef .tc main_arg2)) = A2 := by
  rw [wa_arg2 m c A]; rfl
theorem rd_arg4 (h1 h2 h3) : (StableHlo.TRef.of main_arg4 h1 h2 h3 : StableHlo.TRef sig ⟨S100000x512, .f32⟩).ofBuf
      (Pipeline.withArrays (cfgs 0).spec c (V0 m c) A (Proc.devRef .tc main_arg4)) = A4 := by
  rw [wa_arg4 m c A]; rfl
theorem rd_arg5 (h1 h2 h3) : (StableHlo.TRef.of main_arg5 h1 h2 h3 : StableHlo.TRef sig ⟨S100000, .f32⟩).ofBuf
      (Pipeline.withArrays (cfgs 0).spec c (V0 m c) A (Proc.devRef .tc main_arg5)) = A5 := by
  rw [wa_arg5 m c A]; rfl
theorem rd_out0 (h1 h2 h3) : (StableHlo.TRef.of main_call0_v40_0 h1 h2 h3 : StableHlo.TRef sig ⟨S16384x512, .f32⟩).ofBuf
      (Pipeline.withArrays (cfgs 0).spec c (V0 m c) A (Proc.devRef .tc main_call0_v40_0)) = (A 13 : FVec Ideal S16384x512 .f32) := by
  rw [wa_out0 m c A]; rfl
theorem rd_out1 (h1 h2 h3) : (StableHlo.TRef.of main_call0_v40_1 h1 h2 h3 : StableHlo.TRef sig ⟨S16384x512, .f32⟩).ofBuf
      (Pipeline.withArrays (cfgs 0).spec c (V0 m c) A (Proc.devRef .tc main_call0_v40_1)) = (A 14 : FVec Ideal S16384x512 .f32) := by
  rw [wa_out1 m c A]; rfl
end Leaves

theorem wr_v0_0 (h1 h2 h3) (v : FVec Ideal S100000x512 .f32) :
    ((StableHlo.TRef.of main_v0_0 h1 h2 h3 : StableHlo.TRef sig ⟨S100000x512, .f32⟩).toBuf (Val := Elt Ideal) v
      : FVec Ideal S100000x512 .f32) = v := rfl
theorem wr_v0_1 (h1 h2 h3) (v : FVec Ideal S100000 .f32) :
    ((StableHlo.TRef.of main_v0_1 h1 h2 h3 : StableHlo.TRef sig ⟨S100000, .f32⟩).toBuf (Val := Elt Ideal) v
      : FVec Ideal S100000 .f32) = v := rfl

/-! ## The two results of the program -/

set_option maxHeartbeats 4000000 in
/-- The update times the program returns. -/
theorem tail_upd : Pipeline.afterTail₀ cfgs (dats m) 0 (V0 m) [hostOps1] c main_v0_1 = tailUpd m c := by
  unfold Pipeline.afterTail₀
  show StableHlo.after hostOps1 _ (Proc.devRef .tc main_v0_1) = _
  after_results_simp
  repeat (first | (rw [StableHlo.binary_result_ne]; rotate_left; decide))
  rw [rd_arg5 m c, rd_arg0 m c, rd_arg1 m c, rd_arg2 m c]
  repeat rw [ofBuf_toBuf]
  rw [wr_v0_1]
  rfl

set_option maxHeartbeats 4000000 in
/-- The memory the program returns, from the two arrays the call leaves. -/
theorem tail_mem : Pipeline.afterTail₀ cfgs (dats m) 0 (V0 m) [hostOps1] c main_v0_0
    = tailMem m c ((dats m 0 c).arrAt 13 cfg0.N) ((dats m 0 c).arrAt 14 cfg0.N) := by
  unfold Pipeline.afterTail₀
  show StableHlo.after hostOps1 _ (Proc.devRef .tc main_v0_0) = _
  after_results_simp
  repeat (first | (rw [StableHlo.binary_result_ne]; rotate_left; decide))
  rw [rd_arg4 m c, rd_arg0 m c, rd_arg1 m c, rd_out0 m c, rd_out1 m c]
  repeat rw [ofBuf_toBuf]
  rw [wr_v0_0]
  rfl

end Cert.KernelIdeal.HostValue
end
-- ==== Proof.BridgeInputs.lean ====
/-
  The kernel program's gathered rows and time encoding are the reference's.

  Before it launches its kernel the kernel program computes, on the host, the memory rows of every edge's two end
  nodes (wrap a negative node index by the number of nodes, then gather the row) and the time encoding
  (cos (t · w + b), each factor spread over the batch). The reference begins with the very same operations on the
  same arguments. The two programs spell them with their own copies of the shapes and of the gather's dimension
  numbers, which are the same literals, so each of the three arrays is the reference's stage as a term.
-/
import proofs.«178560_j60421599920314_2_alg».proof.Proof.Gen.KernelIdeal.Frame
import proofs.«178560_j60421599920314_2_alg».proof.Proof.RefRead
import Idealize.ShloMosaic.Lib.StableHlo.Run

noncomputable section

namespace Cert.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The gathered source rows. -/
theorem V_src : V m c main_call0_v6
    = Cert.ReferenceIdeal.Read.val_main_v6 (F := Ideal) (m ((c : Thread nD τ).loc main_arg0)) (m ((c : Thread nD τ).loc main_arg4)) := by
  show StableHlo.after hostOps0 (fun b => m (c, b)) (Proc.devRef .tc main_call0_v6) = _
  after_results_simp
  rfl

/-- The gathered target rows. -/
theorem V_tgt : V m c main_call0_v13
    = Cert.ReferenceIdeal.Read.val_main_v13 (F := Ideal) (m ((c : Thread nD τ).loc main_arg1)) (m ((c : Thread nD τ).loc main_arg4)) := by
  show StableHlo.after hostOps0 (fun b => m (c, b)) (Proc.devRef .tc main_call0_v13) = _
  after_results_simp
  rfl

/-- The time encoding. -/
theorem V_tenc : V m c main_call0_v36
    = Cert.ReferenceIdeal.Read.val_main_v29 (F := Ideal) (m ((c : Thread nD τ).loc main_arg2)) (m ((c : Thread nD τ).loc main_arg6))
        (m ((c : Thread nD τ).loc main_arg7)) := by
  show StableHlo.after hostOps0 (fun b => m (c, b)) (Proc.devRef .tc main_call0_v36) = _
  after_results_simp
  rfl

end Cert.Bridge

end
-- ==== Proof.RefRows.lean ====
/-
  The reference's two updated row arrays, read at one index.

  The reference gathers the memory rows S, T of an edge's two end nodes, lays [S | T | edge features] side by side and
  takes the rectified affine image (the message); lays [message | time encoding] side by side and feeds it, with the
  old row, to a gated recurrent cell, once for the source row and once for the target row. Read at row b and
  coordinate j, each matrix product is a finite sum over its contracted columns; a sum over columns laid side by side
  splits into the sums over the bands, and inside one band the side-by-side array reads exactly one of its pieces.
  The three gate bands are the column slices at offsets 0, 512 and 1024; the reset and update gates are written with
  a quotient, a sum, an exponential and a negation, which is the logistic function on every extended real. Put
  together, each updated row array at (b, j) is the specification's `updAt` of the gathered rows, the edge features,
  the time encoding and the stored parameters. The gathers and the time encoding are never opened.
-/
import proofs.«178560_j60421599920314_2_alg».proof.Proof.RefRead
import proofs.«178560_j60421599920314_2_alg».proof.Proof.GruCell
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.MemGru

/-! ## Rows laid side by side, read at a column of one band -/

section Side
variable (S T : (⟨S16384x512, .f32⟩ : BufTy).Contents (Elt Ideal)) (E : (⟨S16384x16, .f32⟩ : BufTy).Contents (Elt Ideal))
  (h : Shape.Concatenates [S16384x512, S16384x512, S16384x16] S16384x1040 1)

/-- Three arrays side by side, at a column of the first band: the first array. -/
theorem side3_a (b : Fin 16384) (k : Fin 512) :
    concatenate S16384x1040 1 [⟨S16384x512, S⟩, ⟨S16384x512, T⟩, ⟨S16384x16, E⟩] h (ix2 b (c1040a k)) = S (ix2 b k) :=
  concatenate_apply_piece (t := S16384x1040) 1 [⟨S16384x512, S⟩, ⟨S16384x512, T⟩, ⟨S16384x16, E⟩] h _ 0
    (by show 0 < 3; omega) S16384x512 S rfl rfl 0 rfl (ix2 b k)
    (fun a ha => by match a with | ⟨0, _⟩ => rfl | ⟨1, _⟩ => exact absurd rfl ha)
    (by show 0 + k.val = k.val; omega)

/-- … at a column of the second band: the second array, 512 columns to the left. -/
theorem side3_b (b : Fin 16384) (k : Fin 512) :
    concatenate S16384x1040 1 [⟨S16384x512, S⟩, ⟨S16384x512, T⟩, ⟨S16384x16, E⟩] h (ix2 b (c1040b k)) = T (ix2 b k) :=
  concatenate_apply_piece (t := S16384x1040) 1 [⟨S16384x512, S⟩, ⟨S16384x512, T⟩, ⟨S16384x16, E⟩] h _ 1
    (by show 1 < 3; omega) S16384x512 T rfl rfl 512 rfl (ix2 b k)
    (fun a ha => by match a with | ⟨0, _⟩ => rfl | ⟨1, _⟩ => exact absurd rfl ha)
    (by show 512 + k.val = 512 + k.val; rfl)

/-- … at a column of the last band: the third array, 1024 columns to the left. -/
theorem side3_c (b : Fin 16384) (k : Fin 16) :
    concatenate S16384x1040 1 [⟨S16384x512, S⟩, ⟨S16384x512, T⟩, ⟨S16384x16, E⟩] h (ix2 b (c1040c k)) = E (ix2 b k) :=
  concatenate_apply_piece (t := S16384x1040) 1 [⟨S16384x512, S⟩, ⟨S16384x512, T⟩, ⟨S16384x16, E⟩] h _ 2
    (by show 2 < 3; omega) S16384x16 E rfl rfl 1024 rfl (ix2 b k)
    (fun a ha => by match a with | ⟨0, _⟩ => rfl | ⟨1, _⟩ => exact absurd rfl ha)
    (by show 1024 + k.val = 1024 + k.val; rfl)

variable (M : (⟨S16384x512, .f32⟩ : BufTy).Contents (Elt Ideal)) (Tn : (⟨S16384x128, .f32⟩ : BufTy).Contents (Elt Ideal))
  (h2 : Shape.Concatenates [S16384x512, S16384x128] S16384x640 1)

/-- Two arrays side by side, at a column of the first band: the first array. -/
theorem side2_a (b : Fin 16384) (k : Fin 512) :
    concatenate S16384x640 1 [⟨S16384x512, M⟩, ⟨S16384x128, Tn⟩] h2 (ix2 b (c640a k)) = M (ix2 b k) :=
  concatenate_pair_apply_left 1 M Tn h2 _ rfl (ix2 b k) (fun a => by match a with | ⟨0, _⟩ => rfl | ⟨1, _⟩ => rfl)

/-- … at a column of the second band: the second array, 512 columns to the left. -/
theorem side2_b (b : Fin 16384) (k : Fin 128) :
    concatenate S16384x640 1 [⟨S16384x512, M⟩, ⟨S16384x128, Tn⟩] h2 (ix2 b (c640b k)) = Tn (ix2 b k) :=
  concatenate_pair_apply_right 1 M Tn h2 _ rfl rfl (ix2 b k)
    (fun a ha => by match a with | ⟨0, _⟩ => rfl | ⟨1, _⟩ => exact absurd rfl ha)
    (by show k.val + 512 = 512 + k.val; omega)

end Side

variable (x0 x1 : (⟨S16384, .i32⟩ : BufTy).Contents (Elt Ideal)) (x2 : (⟨S16384, .f32⟩ : BufTy).Contents (Elt Ideal))
  (x3 : (⟨S16384x16, .f32⟩ : BufTy).Contents (Elt Ideal)) (x4 : (⟨S100000x512, .f32⟩ : BufTy).Contents (Elt Ideal))
  (x6 x7 : (⟨S128, .f32⟩ : BufTy).Contents (Elt Ideal)) (x8 : (⟨S512x1040, .f32⟩ : BufTy).Contents (Elt Ideal))
  (x9 : (⟨S512, .f32⟩ : BufTy).Contents (Elt Ideal)) (x10 : (⟨S1536x640, .f32⟩ : BufTy).Contents (Elt Ideal))
  (x11 : (⟨S1536x512, .f32⟩ : BufTy).Contents (Elt Ideal)) (x12 x13 : (⟨S1536, .f32⟩ : BufTy).Contents (Elt Ideal))

/-! ## The layout operations at an index given by its coordinates -/

/-- The transposed message weights: entry (k, j) is the stored entry (j, k). -/
theorem v15_at (k : Fin 1040) (j : Fin 512) : val_main_v15 (F := Ideal) x8 (ix2 k j) = x8 (ix2 j k) :=
  (val_main_v15_apply x8 _).trans (congrArg x8 (funext fun a => by match a with | ⟨0, _⟩ => rfl | ⟨1, _⟩ => rfl))

/-- The transposed input weights, as the source cell reads them. -/
theorem v31_at (k : Fin 640) (q : Fin 1536) : val_main_v31 (F := Ideal) x10 (ix2 k q) = x10 (ix2 q k) :=
  (val_main_v31_apply x10 _).trans (congrArg x10 (funext fun a => by match a with | ⟨0, _⟩ => rfl | ⟨1, _⟩ => rfl))

/-- The transposed input weights, as the target cell reads them. -/
theorem v69_at (k : Fin 640) (q : Fin 1536) : val_main_v69 (F := Ideal) x10 (ix2 k q) = x10 (ix2 q k) :=
  (val_main_v69_apply x10 _).trans (congrArg x10 (funext fun a => by match a with | ⟨0, _⟩ => rfl | ⟨1, _⟩ => rfl))

/-- The transposed hidden weights, as the source cell reads them. -/
theorem v36_at (k : Fin 512) (q : Fin 1536) : val_main_v36 (F := Ideal) x11 (ix2 k q) = x11 (ix2 q k) :=
  (val_main_v36_apply x11 _).trans (congrArg x11 (funext fun a => by match a with | ⟨0, _⟩ => rfl | ⟨1, _⟩ => rfl))

/-- The transposed hidden weights, as the target cell reads them. -/
theorem v74_at (k : Fin 512) (q : Fin 1536) : val_main_v74 (F := Ideal) x11 (ix2 k q) = x11 (ix2 q k) :=
  (val_main_v74_apply x11 _).trans (congrArg x11 (funext fun a => by match a with | ⟨0, _⟩ => rfl | ⟨1, _⟩ => rfl))

/-- The message bias spread over the rows. -/
theorem v18_at (b : Fin 16384) (j : Fin 512) : val_main_v18 (F := Ideal) x9 (ix2 b j) = x9 (ix1 j) :=
  ((val_main_v18_apply x9 _).trans (val_main_v17_apply x9 _)).trans
    (congrArg x9 (funext fun a => by match a with | ⟨0, _⟩ => rfl))

/-- The input bias spread over the rows (source cell). -/
theorem v34_at (b : Fin 16384) (q : Fin 1536) : val_main_v34 (F := Ideal) x12 (ix2 b q) = x12 (ix1 q) :=
  ((val_main_v34_apply x12 _).trans (val_main_v33_apply x12 _)).trans
    (congrArg x12 (funext fun a => by match a with | ⟨0, _⟩ => rfl))

/-- The input bias spread over the rows (target cell). -/
theorem v72_at (b : Fin 16384) (q : Fin 1536) : val_main_v72 (F := Ideal) x12 (ix2 b q) = x12 (ix1 q) :=
  ((val_main_v72_apply x12 _).trans (val_main_v71_apply x12 _)).trans
    (congrArg x12 (funext fun a => by match a with | ⟨0, _⟩ => rfl))

/-- The hidden bias spread over the rows (source cell). -/
theorem v39_at (b : Fin 16384) (q : Fin 1536) : val_main_v39 (F := Ideal) x13 (ix2 b q) = x13 (ix1 q) :=
  ((val_main_v39_apply x13 _).trans (val_main_v38_apply x13 _)).trans
    (congrArg x13 (funext fun a => by match a with | ⟨0, _⟩ => rfl))

/-- The hidden bias spread over the rows (target cell). -/
theorem v77_at (b : Fin 16384) (q : Fin 1536) : val_main_v77 (F := Ideal) x13 (ix2 b q) = x13 (ix1 q) :=
  ((val_main_v77_apply x13 _).trans (val_main_v76_apply x13 _)).trans
    (congrArg x13 (funext fun a => by match a with | ⟨0, _⟩ => rfl))

/-- The splat of the zero word. -/
theorem zero_at (i : S16384x512.Idx) : val_main_call0_v0 (F := Ideal) i = zeroW := (val_main_call0_v0_apply _).trans rfl

/-- The splats of the word of one. -/
theorem one50 (i : S16384x512.Idx) : val_main_v50 (F := Ideal) i = oneW := (val_main_v50_apply _).trans rfl
theorem one52 (i : S16384x512.Idx) : val_main_v52 (F := Ideal) i = oneW := (val_main_v52_apply _).trans rfl
theorem one57 (i : S16384x512.Idx) : val_main_v57 (F := Ideal) i = oneW := (val_main_v57_apply _).trans rfl
theorem one59 (i : S16384x512.Idx) : val_main_v59 (F := Ideal) i = oneW := (val_main_v59_apply _).trans rfl
theorem one64 (i : S16384x512.Idx) : val_main_v64 (F := Ideal) i = oneW := (val_main_v64_apply _).trans rfl
theorem one88 (i : S16384x512.Idx) : val_main_v88 (F := Ideal) i = oneW := (val_main_v88_apply _).trans rfl
theorem one90 (i : S16384x512.Idx) : val_main_v90 (F := Ideal) i = oneW := (val_main_v90_apply _).trans rfl
theorem one95 (i : S16384x512.Idx) : val_main_v95 (F := Ideal) i = oneW := (val_main_v95_apply _).trans rfl
theorem one97 (i : S16384x512.Idx) : val_main_v97 (F := Ideal) i = oneW := (val_main_v97_apply _).trans rfl
theorem one102 (i : S16384x512.Idx) : val_main_v102 (F := Ideal) i = oneW := (val_main_v102_apply _).trans rfl

/-! ## The message -/

/-- The message's input row at a column of each of its three bands. -/
theorem v14_a (b : Fin 16384) (k : Fin 512) :
    val_main_v14 (F := Ideal) x0 x1 x3 x4 (ix2 b (c1040a k)) = val_main_v6 (F := Ideal) x0 x4 (ix2 b k) :=
  side3_a (val_main_v6 (F := Ideal) x0 x4) (val_main_v13 (F := Ideal) x1 x4) x3 _ b k
theorem v14_b (b : Fin 16384) (k : Fin 512) :
    val_main_v14 (F := Ideal) x0 x1 x3 x4 (ix2 b (c1040b k)) = val_main_v13 (F := Ideal) x1 x4 (ix2 b k) :=
  side3_b (val_main_v6 (F := Ideal) x0 x4) (val_main_v13 (F := Ideal) x1 x4) x3 _ b k
theorem v14_c (b : Fin 16384) (k : Fin 16) :
    val_main_v14 (F := Ideal) x0 x1 x3 x4 (ix2 b (c1040c k)) = x3 (ix2 b k) :=
  side3_c (val_main_v6 (F := Ideal) x0 x4) (val_main_v13 (F := Ideal) x1 x4) x3 _ b k

/-- The message product as one sum over the 1040 input columns. -/
theorem v16_sum (b : Fin 16384) (j : Fin 512) :
    val_main_v16 (F := Ideal) x0 x1 x3 x4 x8 (ix2 b j)
      = ∑ k : Fin 1040, val_main_v14 (F := Ideal) x0 x1 x3 x4 (ix2 b k) * x8 (ix2 j k) := by
  refine (val_main_v16_apply x0 x1 x3 x4 x8 (ix2 b j)).trans (Finset.sum_congr rfl fun k _ => ?_)
  have el : lidx_main_v16 (ix2 b j) k = ix2 b k := funext fun a => by match a with | ⟨0, _⟩ => rfl | ⟨1, _⟩ => rfl
  have er : ridx_main_v16 (ix2 b j) k = ix2 k j := funext fun a => by match a with | ⟨0, _⟩ => rfl | ⟨1, _⟩ => rfl
  rw [el, er, v15_at]

/-- … and as the three partial products over its bands. -/
theorem v16_at (b : Fin 16384) (j : Fin 512) :
    val_main_v16 (F := Ideal) x0 x1 x3 x4 x8 (ix2 b j)
      = ((∑ k : Fin 512, val_main_v6 (F := Ideal) x0 x4 (ix2 b k) * x8 (ix2 j (c1040a k)))
          + ∑ k : Fin 512, val_main_v13 (F := Ideal) x1 x4 (ix2 b k) * x8 (ix2 j (c1040b k)))
          + ∑ k : Fin 16, x3 (ix2 b k) * x8 (ix2 j (c1040c k)) := by
  rw [v16_sum, sum_1040]
  refine congrArg₂ (· + ·) (congrArg₂ (· + ·) (Finset.sum_congr rfl fun k _ => ?_) (Finset.sum_congr rfl fun k _ => ?_))
    (Finset.sum_congr rfl fun k _ => ?_)
  · rw [v14_a]
  · rw [v14_b]
  · rw [v14_c]

/-- The message of row b, as a function of the column, in the specification's form. -/
abbrev msgRef (b : Fin 16384) : Fin 512 → EReal :=
  msgAt (fun k => val_main_v6 (F := Ideal) x0 x4 (ix2 b k)) (fun k => val_main_v13 (F := Ideal) x1 x4 (ix2 b k))
    (fun k => x3 (ix2 b k))
    (fun k j' => x8 (ix2 j' (c1040a k))) (fun k j' => x8 (ix2 j' (c1040b k))) (fun k j' => x8 (ix2 j' (c1040c k)))
    (fun j' => x9 (ix1 j'))

/-- The rectified message at (b, j). -/
theorem v20_at (b : Fin 16384) (j : Fin 512) :
    val_main_v20 (F := Ideal) x0 x1 x3 x4 x8 x9 (ix2 b j) = msgRef x0 x1 x3 x4 x8 x9 b j := by
  show max (val_main_v16 (F := Ideal) x0 x1 x3 x4 x8 (ix2 b j) + val_main_v18 (F := Ideal) x9 (ix2 b j))
      (val_main_call0_v0 (F := Ideal) (ix2 b j)) = _
  rw [v16_at, v18_at, zero_at]
  rfl

/-! ## The input pre-activations -/

/-- The cell's input row at a column of each of its two bands. -/
theorem v30_a (b : Fin 16384) (k : Fin 512) :
    val_main_v30 (F := Ideal) x0 x1 x2 x3 x4 x6 x7 x8 x9 (ix2 b (c640a k)) = val_main_v20 (F := Ideal) x0 x1 x3 x4 x8 x9 (ix2 b k) :=
  side2_a (val_main_v20 (F := Ideal) x0 x1 x3 x4 x8 x9) (val_main_v29 (F := Ideal) x2 x6 x7) _ b k
theorem v30_b (b : Fin 16384) (k : Fin 128) :
    val_main_v30 (F := Ideal) x0 x1 x2 x3 x4 x6 x7 x8 x9 (ix2 b (c640b k)) = val_main_v29 (F := Ideal) x2 x6 x7 (ix2 b k) :=
  side2_b (val_main_v20 (F := Ideal) x0 x1 x3 x4 x8 x9) (val_main_v29 (F := Ideal) x2 x6 x7) _ b k

/-- The input pre-activations of row b, as a function of the gate column, in the specification's form. -/
abbrev giRef (b : Fin 16384) : Fin 1536 → EReal :=
  giAt (msgRef x0 x1 x3 x4 x8 x9 b) (fun k => val_main_v29 (F := Ideal) x2 x6 x7 (ix2 b k))
    (fun k q => x10 (ix2 q (c640a k))) (fun k q => x10 (ix2 q (c640b k))) (fun q => x12 (ix1 q))

/-- A sum over the cell's 640 input columns against the stored input weights, by bands. -/
theorem gi_of_sum (b : Fin 16384) (q : Fin 1536) :
    (∑ k : Fin 640, val_main_v30 (F := Ideal) x0 x1 x2 x3 x4 x6 x7 x8 x9 (ix2 b k) * x10 (ix2 q k)) + x12 (ix1 q)
      = giRef x0 x1 x2 x3 x4 x6 x7 x8 x9 x10 x12 b q := by
  rw [sum_640]
  refine congrArg₂ (· + ·) (congrArg₂ (· + ·) (Finset.sum_congr rfl fun k _ => ?_) (Finset.sum_congr rfl fun k _ => ?_)) rfl
  · rw [v30_a, v20_at]
  · rw [v30_b]

/-- The source cell's input product as one sum over the 640 input columns. -/
theorem v32_sum (b : Fin 16384) (q : Fin 1536) :
    val_main_v32 (F := Ideal) x0 x1 x2 x3 x4 x6 x7 x8 x9 x10 (ix2 b q)
      = ∑ k : Fin 640, val_main_v30 (F := Ideal) x0 x1 x2 x3 x4 x6 x7 x8 x9 (ix2 b k) * x10 (ix2 q k) := by
  refine (val_main_v32_apply x0 x1 x2 x3 x4 x6 x7 x8 x9 x10 (ix2 b q)).trans (Finset.sum_congr rfl fun k _ => ?_)
  have el : lidx_main_v32 (ix2 b q) k = ix2 b k := funext fun a => by match a with | ⟨0, _⟩ => rfl | ⟨1, _⟩ => rfl
  have er : ridx_main_v32 (ix2 b q) k = ix2 k q := funext fun a => by match a with | ⟨0, _⟩ => rfl | ⟨1, _⟩ => rfl
  rw [el, er, v31_at]

/-- The target cell's input product: the same sum. -/
theorem v70_sum (b : Fin 16384) (q : Fin 1536) :
    val_main_v70 (F := Ideal) x0 x1 x2 x3 x4 x6 x7 x8 x9 x10 (ix2 b q)
      = ∑ k : Fin 640, val_main_v30 (F := Ideal) x0 x1 x2 x3 x4 x6 x7 x8 x9 (ix2 b k) * x10 (ix2 q k) := by
  refine (val_main_v70_apply x0 x1 x2 x3 x4 x6 x7 x8 x9 x10 (ix2 b q)).trans (Finset.sum_congr rfl fun k _ => ?_)
  have el : lidx_main_v70 (ix2 b q) k = ix2 b k := funext fun a => by match a with | ⟨0, _⟩ => rfl | ⟨1, _⟩ => rfl
  have er : ridx_main_v70 (ix2 b q) k = ix2 k q := funext fun a => by match a with | ⟨0, _⟩ => rfl | ⟨1, _⟩ => rfl
  rw [el, er, v69_at]

/-- The source cell's input pre-activation at (b, q). -/
theorem v35_at (b : Fin 16384) (q : Fin 1536) :
    val_main_v35 (F := Ideal) x0 x1 x2 x3 x4 x6 x7 x8 x9 x10 x12 (ix2 b q) = giRef x0 x1 x2 x3 x4 x6 x7 x8 x9 x10 x12 b q := by
  show val_main_v32 (F := Ideal) x0 x1 x2 x3 x4 x6 x7 x8 x9 x10 (ix2 b q) + val_main_v34 (F := Ideal) x12 (ix2 b q) = _
  rw [v32_sum, v34_at]
  exact gi_of_sum x0 x1 x2 x3 x4 x6 x7 x8 x9 x10 x12 b q

/-- The target cell's input pre-activation at (b, q): the same value. -/
theorem v73_at (b : Fin 16384) (q : Fin 1536) :
    val_main_v73 (F := Ideal) x0 x1 x2 x3 x4 x6 x7 x8 x9 x10 x12 (ix2 b q) = giRef x0 x1 x2 x3 x4 x6 x7 x8 x9 x10 x12 b q := by
  show val_main_v70 (F := Ideal) x0 x1 x2 x3 x4 x6 x7 x8 x9 x10 (ix2 b q) + val_main_v72 (F := Ideal) x12 (ix2 b q) = _
  rw [v70_sum, v72_at]
  exact gi_of_sum x0 x1 x2 x3 x4 x6 x7 x8 x9 x10 x12 b q

/-! ## The hidden pre-activations -/

/-- The source cell's hidden pre-activation at (b, q). -/
theorem v40_at (b : Fin 16384) (q : Fin 1536) :
    val_main_v40 (F := Ideal) x0 x4 x11 x13 (ix2 b q)
      = ghAt (fun k => val_main_v6 (F := Ideal) x0 x4 (ix2 b k)) (fun k q => x11 (ix2 q k)) (fun q => x13 (ix1 q)) q := by
  show val_main_v37 (F := Ideal) x0 x4 x11 (ix2 b q) + val_main_v39 (F := Ideal) x13 (ix2 b q) = _
  rw [v39_at]
  refine congrArg₂ (· + ·) ?_ rfl
  refine (val_main_v37_apply x0 x4 x11 (ix2 b q)).trans (Finset.sum_congr rfl fun k _ => ?_)
  have el : lidx_main_v37 (ix2 b q) k = ix2 b k := funext fun a => by match a with | ⟨0, _⟩ => rfl | ⟨1, _⟩ => rfl
  have er : ridx_main_v37 (ix2 b q) k = ix2 k q := funext fun a => by match a with | ⟨0, _⟩ => rfl | ⟨1, _⟩ => rfl
  rw [el, er, v36_at]

/-- The target cell's hidden pre-activation at (b, q). -/
theorem v78_at (b : Fin 16384) (q : Fin 1536) :
    val_main_v78 (F := Ideal) x1 x4 x11 x13 (ix2 b q)
      = ghAt (fun k => val_main_v13 (F := Ideal) x1 x4 (ix2 b k)) (fun k q => x11 (ix2 q k)) (fun q => x13 (ix1 q)) q := by
  show val_main_v75 (F := Ideal) x1 x4 x11 (ix2 b q) + val_main_v77 (F := Ideal) x13 (ix2 b q) = _
  rw [v77_at]
  refine congrArg₂ (· + ·) ?_ rfl
  refine (val_main_v75_apply x1 x4 x11 (ix2 b q)).trans (Finset.sum_congr rfl fun k _ => ?_)
  have el : lidx_main_v75 (ix2 b q) k = ix2 b k := funext fun a => by match a with | ⟨0, _⟩ => rfl | ⟨1, _⟩ => rfl
  have er : ridx_main_v75 (ix2 b q) k = ix2 k q := funext fun a => by match a with | ⟨0, _⟩ => rfl | ⟨1, _⟩ => rfl
  rw [el, er, v74_at]

/-! ## The three column bands of the pre-activations -/

theorem v41_at (b : Fin 16384) (j : Fin 512) :
    val_main_v41 (F := Ideal) x0 x1 x2 x3 x4 x6 x7 x8 x9 x10 x12 (ix2 b j)
      = val_main_v35 (F := Ideal) x0 x1 x2 x3 x4 x6 x7 x8 x9 x10 x12 (ix2 b (colR j)) :=
  (val_main_v41_apply x0 x1 x2 x3 x4 x6 x7 x8 x9 x10 x12 _).trans
    (congrArg _ (funext fun a => by match a with | ⟨0, _⟩ => rfl | ⟨1, _⟩ => rfl))
theorem v42_at (b : Fin 16384) (j : Fin 512) :
    val_main_v42 (F := Ideal) x0 x1 x2 x3 x4 x6 x7 x8 x9 x10 x12 (ix2 b j)
      = val_main_v35 (F := Ideal) x0 x1 x2 x3 x4 x6 x7 x8 x9 x10 x12 (ix2 b (colZ j)) :=
  (val_main_v42_apply x0 x1 x2 x3 x4 x6 x7 x8 x9 x10 x12 _).trans
    (congrArg _ (funext fun a => by match a with | ⟨0, _⟩ => rfl | ⟨1, _⟩ => rfl))
theorem v43_at (b : Fin 16384) (j : Fin 512) :
    val_main_v43 (F := Ideal) x0 x1 x2 x3 x4 x6 x7 x8 x9 x10 x12 (ix2 b j)
      = val_main_v35 (F := Ideal) x0 x1 x2 x3 x4 x6 x7 x8 x9 x10 x12 (ix2 b (colN j)) :=
  (val_main_v43_apply x0 x1 x2 x3 x4 x6 x7 x8 x9 x10 x12 _).trans
    (congrArg _ (funext fun a => by match a with | ⟨0, _⟩ => rfl | ⟨1, _⟩ => rfl))
theorem v44_at (b : Fin 16384) (j : Fin 512) :
    val_main_v44 (F := Ideal) x0 x4 x11 x13 (ix2 b j) = val_main_v40 (F := Ideal) x0 x4 x11 x13 (ix2 b (colR j)) :=
  (val_main_v44_apply x0 x4 x11 x13 _).trans
    (congrArg _ (funext fun a => by match a with | ⟨0, _⟩ => rfl | ⟨1, _⟩ => rfl))
theorem v45_at (b : Fin 16384) (j : Fin 512) :
    val_main_v45 (F := Ideal) x0 x4 x11 x13 (ix2 b j) = val_main_v40 (F := Ideal) x0 x4 x11 x13 (ix2 b (colZ j)) :=
  (val_main_v45_apply x0 x4 x11 x13 _).trans
    (congrArg _ (funext fun a => by match a with | ⟨0, _⟩ => rfl | ⟨1, _⟩ => rfl))
theorem v46_at (b : Fin 16384) (j : Fin 512) :
    val_main_v46 (F := Ideal) x0 x4 x11 x13 (ix2 b j) = val_main_v40 (F := Ideal) x0 x4 x11 x13 (ix2 b (colN j)) :=
  (val_main_v46_apply x0 x4 x11 x13 _).trans
    (congrArg _ (funext fun a => by match a with | ⟨0, _⟩ => rfl | ⟨1, _⟩ => rfl))
theorem v79_at (b : Fin 16384) (j : Fin 512) :
    val_main_v79 (F := Ideal) x0 x1 x2 x3 x4 x6 x7 x8 x9 x10 x12 (ix2 b j)
      = val_main_v73 (F := Ideal) x0 x1 x2 x3 x4 x6 x7 x8 x9 x10 x12 (ix2 b (colR j)) :=
  (val_main_v79_apply x0 x1 x2 x3 x4 x6 x7 x8 x9 x10 x12 _).trans
    (congrArg _ (funext fun a => by match a with | ⟨0, _⟩ => rfl | ⟨1, _⟩ => rfl))
theorem v80_at (b : Fin 16384) (j : Fin 512) :
    val_main_v80 (F := Ideal) x0 x1 x2 x3 x4 x6 x7 x8 x9 x10 x12 (ix2 b j)
      = val_main_v73 (F := Ideal) x0 x1 x2 x3 x4 x6 x7 x8 x9 x10 x12 (ix2 b (colZ j)) :=
  (val_main_v80_apply x0 x1 x2 x3 x4 x6 x7 x8 x9 x10 x12 _).trans
    (congrArg _ (funext fun a => by match a with | ⟨0, _⟩ => rfl | ⟨1, _⟩ => rfl))
theorem v81_at (b : Fin 16384) (j : Fin 512) :
    val_main_v81 (F := Ideal) x0 x1 x2 x3 x4 x6 x7 x8 x9 x10 x12 (ix2 b j)
      = val_main_v73 (F := Ideal) x0 x1 x2 x3 x4 x6 x7 x8 x9 x10 x12 (ix2 b (colN j)) :=
  (val_main_v81_apply x0 x1 x2 x3 x4 x6 x7 x8 x9 x10 x12 _).trans
    (congrArg _ (funext fun a => by match a with | ⟨0, _⟩ => rfl | ⟨1, _⟩ => rfl))
theorem v82_at (b : Fin 16384) (j : Fin 512) :
    val_main_v82 (F := Ideal) x1 x4 x11 x13 (ix2 b j) = val_main_v78 (F := Ideal) x1 x4 x11 x13 (ix2 b (colR j)) :=
  (val_main_v82_apply x1 x4 x11 x13 _).trans
    (congrArg _ (funext fun a => by match a with | ⟨0, _⟩ => rfl | ⟨1, _⟩ => rfl))
theorem v83_at (b : Fin 16384) (j : Fin 512) :
    val_main_v83 (F := Ideal) x1 x4 x11 x13 (ix2 b j) = val_main_v78 (F := Ideal) x1 x4 x11 x13 (ix2 b (colZ j)) :=
  (val_main_v83_apply x1 x4 x11 x13 _).trans
    (congrArg _ (funext fun a => by match a with | ⟨0, _⟩ => rfl | ⟨1, _⟩ => rfl))
theorem v84_at (b : Fin 16384) (j : Fin 512) :
    val_main_v84 (F := Ideal) x1 x4 x11 x13 (ix2 b j) = val_main_v78 (F := Ideal) x1 x4 x11 x13 (ix2 b (colN j)) :=
  (val_main_v84_apply x1 x4 x11 x13 _).trans
    (congrArg _ (funext fun a => by match a with | ⟨0, _⟩ => rfl | ⟨1, _⟩ => rfl))

/-! ## The gates and the new state -/

/-- The source cell's elementwise chain at an index is the gate function of the six band values and the old state. -/
theorem v68_gate (i : S16384x512.Idx) :
    val_main_v68 (F := Ideal) x0 x1 x2 x3 x4 x6 x7 x8 x9 x10 x11 x12 x13 i
      = gate (val_main_v41 (F := Ideal) x0 x1 x2 x3 x4 x6 x7 x8 x9 x10 x12 i)
          (val_main_v42 (F := Ideal) x0 x1 x2 x3 x4 x6 x7 x8 x9 x10 x12 i)
          (val_main_v43 (F := Ideal) x0 x1 x2 x3 x4 x6 x7 x8 x9 x10 x12 i)
          (val_main_v44 (F := Ideal) x0 x4 x11 x13 i) (val_main_v45 (F := Ideal) x0 x4 x11 x13 i)
          (val_main_v46 (F := Ideal) x0 x4 x11 x13 i) (val_main_v6 (F := Ideal) x0 x4 i) := by
  have hr : val_main_v53 (F := Ideal) x0 x1 x2 x3 x4 x6 x7 x8 x9 x10 x11 x12 x13 i
      = Ideal.logistic (val_main_v41 (F := Ideal) x0 x1 x2 x3 x4 x6 x7 x8 x9 x10 x12 i + val_main_v44 (F := Ideal) x0 x4 x11 x13 i) := by
    show Ideal.div (val_main_v52 (F := Ideal) i) (val_main_v50 (F := Ideal) i
      + Ideal.exp (-(val_main_v41 (F := Ideal) x0 x1 x2 x3 x4 x6 x7 x8 x9 x10 x12 i + val_main_v44 (F := Ideal) x0 x4 x11 x13 i))) = _
    rw [one52, one50]; exact logistic_expanded _
  have hz : val_main_v60 (F := Ideal) x0 x1 x2 x3 x4 x6 x7 x8 x9 x10 x11 x12 x13 i
      = Ideal.logistic (val_main_v42 (F := Ideal) x0 x1 x2 x3 x4 x6 x7 x8 x9 x10 x12 i + val_main_v45 (F := Ideal) x0 x4 x11 x13 i) := by
    show Ideal.div (val_main_v59 (F := Ideal) i) (val_main_v57 (F := Ideal) i
      + Ideal.exp (-(val_main_v42 (F := Ideal) x0 x1 x2 x3 x4 x6 x7 x8 x9 x10 x12 i + val_main_v45 (F := Ideal) x0 x4 x11 x13 i))) = _
    rw [one59, one57]; exact logistic_expanded _
  show (val_main_v64 (F := Ideal) i - val_main_v60 (F := Ideal) x0 x1 x2 x3 x4 x6 x7 x8 x9 x10 x11 x12 x13 i)
      * Ideal.tanh (val_main_v43 (F := Ideal) x0 x1 x2 x3 x4 x6 x7 x8 x9 x10 x12 i
          + val_main_v53 (F := Ideal) x0 x1 x2 x3 x4 x6 x7 x8 x9 x10 x11 x12 x13 i * val_main_v46 (F := Ideal) x0 x4 x11 x13 i)
      + val_main_v60 (F := Ideal) x0 x1 x2 x3 x4 x6 x7 x8 x9 x10 x11 x12 x13 i * val_main_v6 (F := Ideal) x0 x4 i = _
  rw [hr, hz, one64]
  rfl

/-- The target cell's elementwise chain at an index, likewise. -/
theorem v106_gate (i : S16384x512.Idx) :
    val_main_v106 (F := Ideal) x0 x1 x2 x3 x4 x6 x7 x8 x9 x10 x11 x12 x13 i
      = gate (val_main_v79 (F := Ideal) x0 x1 x2 x3 x4 x6 x7 x8 x9 x10 x12 i)
          (val_main_v80 (F := Ideal) x0 x1 x2 x3 x4 x6 x7 x8 x9 x10 x12 i)
          (val_main_v81 (F := Ideal) x0 x1 x2 x3 x4 x6 x7 x8 x9 x10 x12 i)
          (val_main_v82 (F := Ideal) x1 x4 x11 x13 i) (val_main_v83 (F := Ideal) x1 x4 x11 x13 i)
          (val_main_v84 (F := Ideal) x1 x4 x11 x13 i) (val_main_v13 (F := Ideal) x1 x4 i) := by
  have hr : val_main_v91 (F := Ideal) x0 x1 x2 x3 x4 x6 x7 x8 x9 x10 x11 x12 x13 i
      = Ideal.logistic (val_main_v79 (F := Ideal) x0 x1 x2 x3 x4 x6 x7 x8 x9 x10 x12 i + val_main_v82 (F := Ideal) x1 x4 x11 x13 i) := by
    show Ideal.div (val_main_v90 (F := Ideal) i) (val_main_v88 (F := Ideal) i
      + Ideal.exp (-(val_main_v79 (F := Ideal) x0 x1 x2 x3 x4 x6 x7 x8 x9 x10 x12 i + val_main_v82 (F := Ideal) x1 x4 x11 x13 i))) = _
    rw [one90, one88]; exact logistic_expanded _
  have hz : val_main_v98 (F := Ideal) x0 x1 x2 x3 x4 x6 x7 x8 x9 x10 x11 x12 x13 i
      = Ideal.logistic (val_main_v80 (F := Ideal) x0 x1 x2 x3 x4 x6 x7 x8 x9 x10 x12 i + val_main_v83 (F := Ideal) x1 x4 x11 x13 i) := by
    show Ideal.div (val_main_v97 (F := Ideal) i) (val_main_v95 (F := Ideal) i
      + Ideal.exp (-(val_main_v80 (F := Ideal) x0 x1 x2 x3 x4 x6 x7 x8 x9 x10 x12 i + val_main_v83 (F := Ideal) x1 x4 x11 x13 i))) = _
    rw [one97, one95]; exact logistic_expanded _
  show (val_main_v102 (F := Ideal) i - val_main_v98 (F := Ideal) x0 x1 x2 x3 x4 x6 x7 x8 x9 x10 x11 x12 x13 i)
      * Ideal.tanh (val_main_v81 (F := Ideal) x0 x1 x2 x3 x4 x6 x7 x8 x9 x10 x12 i
          + val_main_v91 (F := Ideal) x0 x1 x2 x3 x4 x6 x7 x8 x9 x10 x11 x12 x13 i * val_main_v84 (F := Ideal) x1 x4 x11 x13 i)
      + val_main_v98 (F := Ideal) x0 x1 x2 x3 x4 x6 x7 x8 x9 x10 x11 x12 x13 i * val_main_v13 (F := Ideal) x1 x4 i = _
  rw [hr, hz, one102]
  rfl

/-! ## The two updated row arrays -/

/-- Row b, coordinate j of the updated source rows. -/
theorem src_at (x0 x1 : (⟨S16384, .i32⟩ : BufTy).Contents (Elt Ideal)) (x2 : (⟨S16384, .f32⟩ : BufTy).Contents (Elt Ideal))
    (x3 : (⟨S16384x16, .f32⟩ : BufTy).Contents (Elt Ideal)) (x4 : (⟨S100000x512, .f32⟩ : BufTy).Contents (Elt Ideal))
    (x6 x7 : (⟨S128, .f32⟩ : BufTy).Contents (Elt Ideal)) (x8 : (⟨S512x1040, .f32⟩ : BufTy).Contents (Elt Ideal))
    (x9 : (⟨S512, .f32⟩ : BufTy).Contents (Elt Ideal)) (x10 : (⟨S1536x640, .f32⟩ : BufTy).Contents (Elt Ideal))
    (x11 : (⟨S1536x512, .f32⟩ : BufTy).Contents (Elt Ideal)) (x12 x13 : (⟨S1536, .f32⟩ : BufTy).Contents (Elt Ideal))
    (b : Fin 16384) (j : Fin 512) :
    val_main_v68 (F := Ideal) x0 x1 x2 x3 x4 x6 x7 x8 x9 x10 x11 x12 x13 (ix2 b j)
      = updAt (val_main_v6 (F := Ideal) x0 x4) (val_main_v13 (F := Ideal) x1 x4) x3 (val_main_v29 (F := Ideal) x2 x6 x7)
          x8 x9 x10 x11 x12 x13 (val_main_v6 (F := Ideal) x0 x4) b j := by
  rw [v68_gate, v41_at, v42_at, v43_at, v44_at, v45_at, v46_at, v35_at, v35_at, v35_at, v40_at, v40_at, v40_at]
  rfl

/-- Row b, coordinate j of the updated target rows. -/
theorem tgt_at (x0 x1 : (⟨S16384, .i32⟩ : BufTy).Contents (Elt Ideal)) (x2 : (⟨S16384, .f32⟩ : BufTy).Contents (Elt Ideal))
    (x3 : (⟨S16384x16, .f32⟩ : BufTy).Contents (Elt Ideal)) (x4 : (⟨S100000x512, .f32⟩ : BufTy).Contents (Elt Ideal))
    (x6 x7 : (⟨S128, .f32⟩ : BufTy).Contents (Elt Ideal)) (x8 : (⟨S512x1040, .f32⟩ : BufTy).Contents (Elt Ideal))
    (x9 : (⟨S512, .f32⟩ : BufTy).Contents (Elt Ideal)) (x10 : (⟨S1536x640, .f32⟩ : BufTy).Contents (Elt Ideal))
    (x11 : (⟨S1536x512, .f32⟩ : BufTy).Contents (Elt Ideal)) (x12 x13 : (⟨S1536, .f32⟩ : BufTy).Contents (Elt Ideal))
    (b : Fin 16384) (j : Fin 512) :
    val_main_v106 (F := Ideal) x0 x1 x2 x3 x4 x6 x7 x8 x9 x10 x11 x12 x13 (ix2 b j)
      = updAt (val_main_v6 (F := Ideal) x0 x4) (val_main_v13 (F := Ideal) x1 x4) x3 (val_main_v29 (F := Ideal) x2 x6 x7)
          x8 x9 x10 x11 x12 x13 (val_main_v13 (F := Ideal) x1 x4) b j := by
  rw [v106_gate, v79_at, v80_at, v81_at, v82_at, v83_at, v84_at, v73_at, v73_at, v73_at, v78_at, v78_at, v78_at]
  rfl

/-! ## The two row arrays as functions of the index -/

/-- The updated source rows, as a function of the index. -/
theorem rows_ext (x0 x1 : (⟨S16384, .i32⟩ : BufTy).Contents (Elt Ideal)) (x2 : (⟨S16384, .f32⟩ : BufTy).Contents (Elt Ideal))
    (x3 : (⟨S16384x16, .f32⟩ : BufTy).Contents (Elt Ideal)) (x4 : (⟨S100000x512, .f32⟩ : BufTy).Contents (Elt Ideal))
    (x6 x7 : (⟨S128, .f32⟩ : BufTy).Contents (Elt Ideal)) (x8 : (⟨S512x1040, .f32⟩ : BufTy).Contents (Elt Ideal))
    (x9 : (⟨S512, .f32⟩ : BufTy).Contents (Elt Ideal)) (x10 : (⟨S1536x640, .f32⟩ : BufTy).Contents (Elt Ideal))
    (x11 : (⟨S1536x512, .f32⟩ : BufTy).Contents (Elt Ideal)) (x12 x13 : (⟨S1536, .f32⟩ : BufTy).Contents (Elt Ideal)) :
    val_main_v68 (F := Ideal) x0 x1 x2 x3 x4 x6 x7 x8 x9 x10 x11 x12 x13
      = fun i => updAt (val_main_v6 (F := Ideal) x0 x4) (val_main_v13 (F := Ideal) x1 x4) x3 (val_main_v29 (F := Ideal) x2 x6 x7)
          x8 x9 x10 x11 x12 x13 (val_main_v6 (F := Ideal) x0 x4) ⟨(i 0).val, (i 0).isLt⟩ ⟨(i 1).val, (i 1).isLt⟩ := by
  funext i
  exact (congrArg _ (eq_ix2 i)).trans
    (src_at x0 x1 x2 x3 x4 x6 x7 x8 x9 x10 x11 x12 x13 ⟨(i 0).val, (i 0).isLt⟩ ⟨(i 1).val, (i 1).isLt⟩)

/-- The updated target rows, as a function of the index. -/
theorem rows_ext_tgt (x0 x1 : (⟨S16384, .i32⟩ : BufTy).Contents (Elt Ideal)) (x2 : (⟨S16384, .f32⟩ : BufTy).Contents (Elt Ideal))
    (x3 : (⟨S16384x16, .f32⟩ : BufTy).Contents (Elt Ideal)) (x4 : (⟨S100000x512, .f32⟩ : BufTy).Contents (Elt Ideal))
    (x6 x7 : (⟨S128, .f32⟩ : BufTy).Contents (Elt Ideal)) (x8 : (⟨S512x1040, .f32⟩ : BufTy).Contents (Elt Ideal))
    (x9 : (⟨S512, .f32⟩ : BufTy).Contents (Elt Ideal)) (x10 : (⟨S1536x640, .f32⟩ : BufTy).Contents (Elt Ideal))
    (x11 : (⟨S1536x512, .f32⟩ : BufTy).Contents (Elt Ideal)) (x12 x13 : (⟨S1536, .f32⟩ : BufTy).Contents (Elt Ideal)) :
    val_main_v106 (F := Ideal) x0 x1 x2 x3 x4 x6 x7 x8 x9 x10 x11 x12 x13
      = fun i => updAt (val_main_v6 (F := Ideal) x0 x4) (val_main_v13 (F := Ideal) x1 x4) x3 (val_main_v29 (F := Ideal) x2 x6 x7)
          x8 x9 x10 x11 x12 x13 (val_main_v13 (F := Ideal) x1 x4) ⟨(i 0).val, (i 0).isLt⟩ ⟨(i 1).val, (i 1).isLt⟩ := by
  funext i
  exact (congrArg _ (eq_ix2 i)).trans
    (tgt_at x0 x1 x2 x3 x4 x6 x7 x8 x9 x10 x11 x12 x13 ⟨(i 0).val, (i 0).isLt⟩ ⟨(i 1).val, (i 1).isLt⟩)

end Cert.ReferenceIdeal.RefValue

end
-- ==== Proof.RefTail.lean ====
/-
  The reference's returned memory as a function of its two updated row arrays.

  After the two row arrays are computed the reference stacks them (source rows on top of target rows), lets every
  node read the stacked row of the last edge that wrote it, and keeps the old row of a node no edge wrote. Which
  stacked row a node reads, and whether it is written at all, are decided by the two index arrays alone, so the
  returned memory depends on the rest of the computation only through the two row arrays.
-/
import proofs.«178560_j60421599920314_2_alg».proof.Proof.RefRead
import proofs.«178560_j60421599920314_2_alg».proof.Proof.GruCell

noncomputable section

namespace Cert.ReferenceIdeal.RefValue

open Cert.ReferenceIdeal Cert.ReferenceIdeal.Gen Cert.ReferenceIdeal.Read Idealize.ShloMosaic Idealize.ShloMosaic.ValueIdx

/-- The memory the reference returns, as a function of the two updated row arrays alone: the rows stacked
    (source rows first), each node reading the stacked row of its last write, and a node no edge touches keeping its
    old row. Which stacked row a node reads and whether it was touched depend on the two index arrays only. -/
def refTailMem (x0 x1 : (⟨S16384, .i32⟩ : BufTy).Contents (Elt Ideal)) (x4 : (⟨S100000x512, .f32⟩ : BufTy).Contents (Elt Ideal))
    (U0 U1 : (⟨S16384x512, .f32⟩ : BufTy).Contents (Elt Ideal)) : (⟨S100000x512, .f32⟩ : BufTy).Contents (Elt Ideal) :=
  select (val_main_call2_v0 (F := Ideal) x0 x1)
    (Host.gather gather_S32768x512_S100000x1_S100000x512_1_0_n_n_0_1_1512
      (concatenate S32768x512 0 [⟨S16384x512, U0⟩, ⟨S16384x512, U1⟩] concatenates_S16384x512_S16384x512_S32768x512_d0)
      (val_main_v128 (F := Ideal) x0 x1))
    x4

/-- The reference's returned memory is that function of its two updated row arrays: only the last three operations
    (stack, gather, keep-or-replace) are opened. -/
theorem v130_tail (x0 x1 : (⟨S16384, .i32⟩ : BufTy).Contents (Elt Ideal)) (x2 : (⟨S16384, .f32⟩ : BufTy).Contents (Elt Ideal))
    (x3 : (⟨S16384x16, .f32⟩ : BufTy).Contents (Elt Ideal)) (x4 : (⟨S100000x512, .f32⟩ : BufTy).Contents (Elt Ideal))
    (x6 x7 : (⟨S128, .f32⟩ : BufTy).Contents (Elt Ideal)) (x8 : (⟨S512x1040, .f32⟩ : BufTy).Contents (Elt Ideal))
    (x9 : (⟨S512, .f32⟩ : BufTy).Contents (Elt Ideal)) (x10 : (⟨S1536x640, .f32⟩ : BufTy).Contents (Elt Ideal))
    (x11 : (⟨S1536x512, .f32⟩ : BufTy).Contents (Elt Ideal)) (x12 x13 : (⟨S1536, .f32⟩ : BufTy).Contents (Elt Ideal)) :
    val_main_v130 (F := Ideal) x0 x1 x2 x3 x4 x6 x7 x8 x9 x10 x11 x12 x13
      = refTailMem x0 x1 x4 (val_main_v68 (F := Ideal) x0 x1 x2 x3 x4 x6 x7 x8 x9 x10 x11 x12 x13)
          (val_main_v106 (F := Ideal) x0 x1 x2 x3 x4 x6 x7 x8 x9 x10 x11 x12 x13) := by
  unfold val_main_v130 val_main_v129 val_main_v108 refTailMem
  rfl

end Cert.ReferenceIdeal.RefValue

end
-- ==== Proof.Bridge.lean ====
/-
  The idealized kernel program ends with the reference's results.

  The kernel program gathers the memory rows and forms the time encoding exactly as the reference does, lets its kernel
  compute the two updated row arrays, and then applies the reference's own closing steps (stack the two arrays, let every
  node read the row of its last write, keep untouched nodes). The kernel's arrays are the specification's `updAt` of the
  gathered rows; so are the reference's two row arrays; the closing steps are the same function of them. The second
  result (the time of each node's last update) does not depend on the row arrays at all.
-/
import proofs.«178560_j60421599920314_2_alg».proof.Proof.KernelSpec
import proofs.«178560_j60421599920314_2_alg».proof.Proof.KernelTail
import proofs.«178560_j60421599920314_2_alg».proof.Proof.BridgeInputs
import proofs.«178560_j60421599920314_2_alg».proof.Proof.RefRows
import proofs.«178560_j60421599920314_2_alg».proof.Proof.RefTail

noncomputable section

namespace Cert.Bridge

open Cert.KernelIdeal Cert.KernelIdeal.Gen Cert.KernelIdeal.ArrayValue Cert.KernelIdeal.HostValue
open Idealize.ShloMosaic Idealize.ShloMosaic.TcCoe Idealize.SL.Sem
open Cert.ReferenceIdeal.RefValue (refTailMem v130_tail rows_ext rows_ext_tgt)
open Idealize.ShloMosaic.Pipeline (Dat)

variable (m : (ℓ : Loc nD τ sig) → Buf (Elt Ideal) ℓ) (c : Dev nD)

/-- The kernel program's closing steps are the reference's, as a function of the two row arrays. -/
theorem tailMem_ref (U0 U1 : FVec Ideal S16384x512 .f32) :
    tailMem m c U0 U1 = refTailMem (m ((c : Thread nD τ).loc main_arg0)) (m ((c : Thread nD τ).loc main_arg1)) (m ((c : Thread nD τ).loc main_arg4)) U0 U1 := rfl

/-- The kernel program's second result is the reference's. -/
theorem tailUpd_ref :
    tailUpd m c = Cert.ReferenceIdeal.Read.val_main_v138 (F := Ideal) (m ((c : Thread nD τ).loc main_arg0)) (m ((c : Thread nD τ).loc main_arg1)) (m ((c : Thread nD τ).loc main_arg2)) (m ((c : Thread nD τ).loc main_arg5)) := rfl

/-- The memory the kernel program returns is the reference's. -/
theorem out0 :
    Pipeline.afterTail₀ cfgs (dats m) 0 (V0 m) [hostOps1] c main_v0_0
      = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [tail_mem, final13, final14, newRows_eq, newRows_eq, V_src, V_tgt, V_tenc, V_main_arg3, ← rows_ext, ← rows_ext_tgt,
    tailMem_ref, ← v130_tail]

/-- The last-update times the kernel program returns are the reference's. -/
theorem out1 :
    Pipeline.afterTail₀ cfgs (dats m) 0 (V0 m) [hostOps1] c main_v0_1
      = Cert.ReferenceIdeal.Read.val_main_v138 (F := Ideal) (m ((c : Thread nD τ).loc main_arg0)) (m ((c : Thread nD τ).loc main_arg1)) (m ((c : Thread nD τ).loc main_arg2)) (m ((c : Thread nD τ).loc main_arg5)) :=
  (tail_upd m c).trans (tailUpd_ref m c)

/-- Every weakly fair execution of the idealized kernel program terminates with the reference's two results, in the
    reference's own words, and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v0_0)
        = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v0_1)
        = Cert.ReferenceIdeal.Read.val_main_v138 (F := Ideal) (m ((c : Thread nD τ).loc main_arg0)) (m ((c : Thread nD τ).loc main_arg1)) (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v0_0 (Pipeline.mem_restRefs_of main_v0_0 (by decide) (by decide))).trans (out0 m c),
      ((h c).2 main_v0_1 (Pipeline.mem_restRefs_of main_v0_1 (by decide) (by decide))).trans (out1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩) (run_main m ρ)

end Cert.Bridge

end
-- ==== Proof.RefRun.lean ====
/-
  The reference's run, result by result.

  The reference is a straight line of host operations, so every weakly fair execution of it terminates with each
  buffer at the fold of the operations' results over the launch contents. Read at a result buffer, that fold is the
  composition of the operations the result depends on, which is what the stages of the reading module spell. The few
  operations that belong to inlined functions (the rectifier, the clamp at zero, the two selections) move values through
  a transport along "the buffer's type is the value's type"; for a literal buffer that transport is the identity, and
  it is removed first, one buffer at a time, so that the final comparison only unfolds definitions.
-/
import proofs.«178560_j60421599920314_2_alg».proof.Proof.RefOps
import proofs.«178560_j60421599920314_2_alg».proof.Proof.RefRead
import Idealize.ShloMosaic.Lib.StableHlo.Run

noncomputable section

namespace Cert.ReferenceIdeal.RefValue

open Cert.ReferenceIdeal Cert.ReferenceIdeal.Gen Cert.ReferenceIdeal.Value Idealize.ShloMosaic Idealize.ShloMosaic.TcCoe
open Idealize.SL.Sem Idealize.ShloMosaic.StableHlo

variable (m : (ℓ : Loc nD τ sig) → Buf (Elt Ideal) ℓ) (c : Dev nD)

/-! ## Transports along equations of buffer types

A typed reference reads and writes its buffer through a transport along the equation "the buffer's type is the
value's type". For a literal buffer that equation holds by computation, and each transport is the identity. -/

theorem ob_main_call0_cst (v : (⟨S_, .f32⟩ : BufTy).Contents (Elt Ideal)) :
    ((TRef.of (T := ⟨S_, .f32⟩) main_call0_cst).ofBuf (Val := Elt Ideal) v : (⟨S_, .f32⟩ : BufTy).Contents (Elt Ideal)) = v := rfl
theorem tb_main_call0_cst (v : (⟨S_, .f32⟩ : BufTy).Contents (Elt Ideal)) :
    ((TRef.of (T := ⟨S_, .f32⟩) main_call0_cst).toBuf (Val := Elt Ideal) v : (⟨S_, .f32⟩ : BufTy).Contents (Elt Ideal)) = v := rfl
theorem ob_main_call0_v0 (v : (⟨S16384x512, .f32⟩ : BufTy).Contents (Elt Ideal)) :
    ((TRef.of (T := ⟨S16384x512, .f32⟩) main_call0_v0).ofBuf (Val := Elt Ideal) v : (⟨S16384x512, .f32⟩ : BufTy).Contents (Elt Ideal)) = v := rfl
theorem tb_main_call0_v0 (v : (⟨S16384x512, .f32⟩ : BufTy).Contents (Elt Ideal)) :
    ((TRef.of (T := ⟨S16384x512, .f32⟩) main_call0_v0).toBuf (Val := Elt Ideal) v : (⟨S16384x512, .f32⟩ : BufTy).Contents (Elt Ideal)) = v := rfl
theorem ob_main_v19 (v : (⟨S16384x512, .f32⟩ : BufTy).Contents (Elt Ideal)) :
    ((TRef.of (T := ⟨S16384x512, .f32⟩) main_v19).ofBuf (Val := Elt Ideal) v : (⟨S16384x512, .f32⟩ : BufTy).Contents (Elt Ideal)) = v := rfl
theorem tb_main_v19 (v : (⟨S16384x512, .f32⟩ : BufTy).Contents (Elt Ideal)) :
    ((TRef.of (T := ⟨S16384x512, .f32⟩) main_v19).toBuf (Val := Elt Ideal) v : (⟨S16384x512, .f32⟩ : BufTy).Contents (Elt Ideal)) = v := rfl
theorem ob_main_v20 (v : (⟨S16384x512, .f32⟩ : BufTy).Contents (Elt Ideal)) :
    ((TRef.of (T := ⟨S16384x512, .f32⟩) main_v20).ofBuf (Val := Elt Ideal) v : (⟨S16384x512, .f32⟩ : BufTy).Contents (Elt Ideal)) = v := rfl
theorem tb_main_v20 (v : (⟨S16384x512, .f32⟩ : BufTy).Contents (Elt Ideal)) :
    ((TRef.of (T := ⟨S16384x512, .f32⟩) main_v20).toBuf (Val := Elt Ideal) v : (⟨S16384x512, .f32⟩ : BufTy).Contents (Elt Ideal)) = v := rfl
theorem ob_main_c_16 (v : (⟨S_, .i32⟩ : BufTy).Contents (Elt Ideal)) :
    ((TRef.of (T := ⟨S_, .i32⟩) main_c_16).ofBuf (Val := Elt Ideal) v : (⟨S_, .i32⟩ : BufTy).Contents (Elt Ideal)) = v := rfl
theorem tb_main_c_16 (v : (⟨S_, .i32⟩ : BufTy).Contents (Elt Ideal)) :
    ((TRef.of (T := ⟨S_, .i32⟩) main_c_16).toBuf (Val := Elt Ideal) v : (⟨S_, .i32⟩ : BufTy).Contents (Elt Ideal)) = v := rfl
theorem ob_main_call1_v0 (v : (⟨S_, .i32⟩ : BufTy).Contents (Elt Ideal)) :
    ((TRef.of (T := ⟨S_, .i32⟩) main_call1_v0).ofBuf (Val := Elt Ideal) v : (⟨S_, .i32⟩ : BufTy).Contents (Elt Ideal)) = v := rfl
theorem tb_main_call1_v0 (v : (⟨S_, .i32⟩ : BufTy).Contents (Elt Ideal)) :
    ((TRef.of (T := ⟨S_, .i32⟩) main_call1_v0).toBuf (Val := Elt Ideal) v : (⟨S_, .i32⟩ : BufTy).Contents (Elt Ideal)) = v := rfl
theorem ob_main_call1_v1 (v : (⟨S100000, .i32⟩ : BufTy).Contents (Elt Ideal)) :
    ((TRef.of (T := ⟨S100000, .i32⟩) main_call1_v1).ofBuf (Val := Elt Ideal) v : (⟨S100000, .i32⟩ : BufTy).Contents (Elt Ideal)) = v := rfl
theorem tb_main_call1_v1 (v : (⟨S100000, .i32⟩ : BufTy).Contents (Elt Ideal)) :
    ((TRef.of (T := ⟨S100000, .i32⟩) main_call1_v1).toBuf (Val := Elt Ideal) v : (⟨S100000, .i32⟩ : BufTy).Contents (Elt Ideal)) = v := rfl
theorem ob_main_v118 (v : (⟨S100000, .i32⟩ : BufTy).Contents (Elt Ideal)) :
    ((TRef.of (T := ⟨S100000, .i32⟩) main_v118).ofBuf (Val := Elt Ideal) v : (⟨S100000, .i32⟩ : BufTy).Contents (Elt Ideal)) = v := rfl
theorem tb_main_v118 (v : (⟨S100000, .i32⟩ : BufTy).Contents (Elt Ideal)) :
    ((TRef.of (T := ⟨S100000, .i32⟩) main_v118).toBuf (Val := Elt Ideal) v : (⟨S100000, .i32⟩ : BufTy).Contents (Elt Ideal)) = v := rfl
theorem ob_main_v121 (v : (⟨S100000, .i32⟩ : BufTy).Contents (Elt Ideal)) :
    ((TRef.of (T := ⟨S100000, .i32⟩) main_v121).ofBuf (Val := Elt Ideal) v : (⟨S100000, .i32⟩ : BufTy).Contents (Elt Ideal)) = v := rfl
theorem tb_main_v121 (v : (⟨S100000, .i32⟩ : BufTy).Contents (Elt Ideal)) :
    ((TRef.of (T := ⟨S100000, .i32⟩) main_v121).toBuf (Val := Elt Ideal) v : (⟨S100000, .i32⟩ : BufTy).Contents (Elt Ideal)) = v := rfl
theorem ob_main_v122 (v : (⟨S100000x1, .i1⟩ : BufTy).Contents (Elt Ideal)) :
    ((TRef.of (T := ⟨S100000x1, .i1⟩) main_v122).ofBuf (Val := Elt Ideal) v : (⟨S100000x1, .i1⟩ : BufTy).Contents (Elt Ideal)) = v := rfl
theorem tb_main_v122 (v : (⟨S100000x1, .i1⟩ : BufTy).Contents (Elt Ideal)) :
    ((TRef.of (T := ⟨S100000x1, .i1⟩) main_v122).toBuf (Val := Elt Ideal) v : (⟨S100000x1, .i1⟩ : BufTy).Contents (Elt Ideal)) = v := rfl
theorem ob_main_call2_v0 (v : (⟨S100000x512, .i1⟩ : BufTy).Contents (Elt Ideal)) :
    ((TRef.of (T := ⟨S100000x512, .i1⟩) main_call2_v0).ofBuf (Val := Elt Ideal) v : (⟨S100000x512, .i1⟩ : BufTy).Contents (Elt Ideal)) = v := rfl
theorem tb_main_call2_v0 (v : (⟨S100000x512, .i1⟩ : BufTy).Contents (Elt Ideal)) :
    ((TRef.of (T := ⟨S100000x512, .i1⟩) main_call2_v0).toBuf (Val := Elt Ideal) v : (⟨S100000x512, .i1⟩ : BufTy).Contents (Elt Ideal)) = v := rfl
theorem ob_main_v129 (v : (⟨S100000x512, .f32⟩ : BufTy).Contents (Elt Ideal)) :
    ((TRef.of (T := ⟨S100000x512, .f32⟩) main_v129).ofBuf (Val := Elt Ideal) v : (⟨S100000x512, .f32⟩ : BufTy).Contents (Elt Ideal)) = v := rfl
theorem tb_main_v129 (v : (⟨S100000x512, .f32⟩ : BufTy).Contents (Elt Ideal)) :
    ((TRef.of (T := ⟨S100000x512, .f32⟩) main_v129).toBuf (Val := Elt Ideal) v : (⟨S100000x512, .f32⟩ : BufTy).Contents (Elt Ideal)) = v := rfl
theorem ob_main_arg4 (v : (⟨S100000x512, .f32⟩ : BufTy).Contents (Elt Ideal)) :
    ((TRef.of (T := ⟨S100000x512, .f32⟩) main_arg4).ofBuf (Val := Elt Ideal) v : (⟨S100000x512, .f32⟩ : BufTy).Contents (Elt Ideal)) = v := rfl
theorem tb_main_arg4 (v : (⟨S100000x512, .f32⟩ : BufTy).Contents (Elt Ideal)) :
    ((TRef.of (T := ⟨S100000x512, .f32⟩) main_arg4).toBuf (Val := Elt Ideal) v : (⟨S100000x512, .f32⟩ : BufTy).Contents (Elt Ideal)) = v := rfl
theorem ob_main_v130 (v : (⟨S100000x512, .f32⟩ : BufTy).Contents (Elt Ideal)) :
    ((TRef.of (T := ⟨S100000x512, .f32⟩) main_v130).ofBuf (Val := Elt Ideal) v : (⟨S100000x512, .f32⟩ : BufTy).Contents (Elt Ideal)) = v := rfl
theorem tb_main_v130 (v : (⟨S100000x512, .f32⟩ : BufTy).Contents (Elt Ideal)) :
    ((TRef.of (T := ⟨S100000x512, .f32⟩) main_v130).toBuf (Val := Elt Ideal) v : (⟨S100000x512, .f32⟩ : BufTy).Contents (Elt Ideal)) = v := rfl
theorem ob_main_v120 (v : (⟨S100000, .i1⟩ : BufTy).Contents (Elt Ideal)) :
    ((TRef.of (T := ⟨S100000, .i1⟩) main_v120).ofBuf (Val := Elt Ideal) v : (⟨S100000, .i1⟩ : BufTy).Contents (Elt Ideal)) = v := rfl
theorem tb_main_v120 (v : (⟨S100000, .i1⟩ : BufTy).Contents (Elt Ideal)) :
    ((TRef.of (T := ⟨S100000, .i1⟩) main_v120).toBuf (Val := Elt Ideal) v : (⟨S100000, .i1⟩ : BufTy).Contents (Elt Ideal)) = v := rfl
theorem ob_main_v137 (v : (⟨S100000, .f32⟩ : BufTy).Contents (Elt Ideal)) :
    ((TRef.of (T := ⟨S100000, .f32⟩) main_v137).ofBuf (Val := Elt Ideal) v : (⟨S100000, .f32⟩ : BufTy).Contents (Elt Ideal)) = v := rfl
theorem tb_main_v137 (v : (⟨S100000, .f32⟩ : BufTy).Contents (Elt Ideal)) :
    ((TRef.of (T := ⟨S100000, .f32⟩) main_v137).toBuf (Val := Elt Ideal) v : (⟨S100000, .f32⟩ : BufTy).Contents (Elt Ideal)) = v := rfl
theorem ob_main_arg5 (v : (⟨S100000, .f32⟩ : BufTy).Contents (Elt Ideal)) :
    ((TRef.of (T := ⟨S100000, .f32⟩) main_arg5).ofBuf (Val := Elt Ideal) v : (⟨S100000, .f32⟩ : BufTy).Contents (Elt Ideal)) = v := rfl
theorem tb_main_arg5 (v : (⟨S100000, .f32⟩ : BufTy).Contents (Elt Ideal)) :
    ((TRef.of (T := ⟨S100000, .f32⟩) main_arg5).toBuf (Val := Elt Ideal) v : (⟨S100000, .f32⟩ : BufTy).Contents (Elt Ideal)) = v := rfl
theorem ob_main_v138 (v : (⟨S100000, .f32⟩ : BufTy).Contents (Elt Ideal)) :
    ((TRef.of (T := ⟨S100000, .f32⟩) main_v138).ofBuf (Val := Elt Ideal) v : (⟨S100000, .f32⟩ : BufTy).Contents (Elt Ideal)) = v := rfl
theorem tb_main_v138 (v : (⟨S100000, .f32⟩ : BufTy).Contents (Elt Ideal)) :
    ((TRef.of (T := ⟨S100000, .f32⟩) main_v138).toBuf (Val := Elt Ideal) v : (⟨S100000, .f32⟩ : BufTy).Contents (Elt Ideal)) = v := rfl

/-! ## A concatenation with its parts as plain arguments

The parts of a concatenation stand in a list of shape-and-array pairs; here the same array is written with its two or
three parts as arguments of their own, so that a part can be replaced by an equal one. -/

def cat2 {α : Type} (t : Shape) (a : Fin t.rank) (s1 s2 : Shape) (h : Shape.Concatenates [s1, s2] t a)
    (x : s1.Idx → α) (y : s2.Idx → α) : t.Idx → α := concatenate t a [⟨s1, x⟩, ⟨s2, y⟩] h
def cat3 {α : Type} (t : Shape) (a : Fin t.rank) (s1 s2 s3 : Shape) (h : Shape.Concatenates [s1, s2, s3] t a)
    (x : s1.Idx → α) (y : s2.Idx → α) (z : s3.Idx → α) : t.Idx → α := concatenate t a [⟨s1, x⟩, ⟨s2, y⟩, ⟨s3, z⟩] h
theorem cat2_eq {α : Type} (t : Shape) (a : Fin t.rank) (s1 s2 : Shape) (h : Shape.Concatenates [s1, s2] t a)
    (x : s1.Idx → α) (y : s2.Idx → α) : concatenate t a [⟨s1, x⟩, ⟨s2, y⟩] h = cat2 t a s1 s2 h x y := rfl
theorem cat3_eq {α : Type} (t : Shape) (a : Fin t.rank) (s1 s2 s3 : Shape) (h : Shape.Concatenates [s1, s2, s3] t a)
    (x : s1.Idx → α) (y : s2.Idx → α) (z : s3.Idx → α) :
    concatenate t a [⟨s1, x⟩, ⟨s2, y⟩, ⟨s3, z⟩] h = cat3 t a s1 s2 s3 h x y z := rfl

/-! ## The two results

Each result buffer is read after all the operations: the fold is opened one operation at a time (an operation's own
buffer holds its function of its operands' buffers; any other buffer holds what it held), the concatenations with
their parts as plain arguments so that the parts are opened too; then the transports are removed, and what is left is
the composition of the stages. -/

set_option maxHeartbeats 64000000 in
/-- The returned update times. -/
theorem after_v138 :
    StableHlo.after (ops (F := Ideal)) (launchContents m c) (Proc.devRef .tc main_v138)
      = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg5)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_eq, cat3_eq,
      Matrix.cons_val_zero, Matrix.cons_val_one, Matrix.cons_val_two, Matrix.head_cons]
  repeat (first | rw [ob_main_call0_cst] | rw [tb_main_call0_cst] | rw [ob_main_call0_v0] | rw [tb_main_call0_v0] | rw [ob_main_v19] | rw [tb_main_v19] | rw [ob_main_v20] | rw [tb_main_v20] | rw [ob_main_c_16] | rw [tb_main_c_16] | rw [ob_main_call1_v0] | rw [tb_main_call1_v0] | rw [ob_main_call1_v1] | rw [tb_main_call1_v1] | rw [ob_main_v118] | rw [tb_main_v118] | rw [ob_main_v121] | rw [tb_main_v121] | rw [ob_main_v122] | rw [tb_main_v122] | rw [ob_main_call2_v0] | rw [tb_main_call2_v0] | rw [ob_main_v129] | rw [tb_main_v129] | rw [ob_main_arg4] | rw [tb_main_arg4] | rw [ob_main_v130] | rw [tb_main_v130] | rw [ob_main_v120] | rw [tb_main_v120] | rw [ob_main_v137] | rw [tb_main_v137] | rw [ob_main_arg5] | rw [tb_main_arg5] | rw [ob_main_v138] | rw [tb_main_v138])
  rfl

set_option maxHeartbeats 64000000 in
/-- The returned memory. -/
theorem after_v130 :
    StableHlo.after (ops (F := Ideal)) (launchContents m c) (Proc.devRef .tc main_v130)
      = Cert.ReferenceIdeal.Read.val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_eq, cat3_eq,
      Matrix.cons_val_zero, Matrix.cons_val_one, Matrix.cons_val_two, Matrix.head_cons]
  repeat (first | rw [ob_main_call0_cst] | rw [tb_main_call0_cst] | rw [ob_main_call0_v0] | rw [tb_main_call0_v0] | rw [ob_main_v19] | rw [tb_main_v19] | rw [ob_main_v20] | rw [tb_main_v20] | rw [ob_main_c_16] | rw [tb_main_c_16] | rw [ob_main_call1_v0] | rw [tb_main_call1_v0] | rw [ob_main_call1_v1] | rw [tb_main_call1_v1] | rw [ob_main_v118] | rw [tb_main_v118] | rw [ob_main_v121] | rw [tb_main_v121] | rw [ob_main_v122] | rw [tb_main_v122] | rw [ob_main_call2_v0] | rw [tb_main_call2_v0] | rw [ob_main_v129] | rw [tb_main_v129] | rw [ob_main_arg4] | rw [tb_main_arg4] | rw [ob_main_v130] | rw [tb_main_v130] | rw [ob_main_v120] | rw [tb_main_v120] | rw [ob_main_v137] | rw [tb_main_v137] | rw [ob_main_arg5] | rw [tb_main_arg5] | rw [ob_main_v138] | rw [tb_main_v138])
  rfl

/-! ## The run -/

set_option maxHeartbeats 16000000 in
/-- Every weakly fair execution of the reference terminates with both results at their last stages' values of the
    arguments, and the arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v130)
        = Cert.ReferenceIdeal.Read.val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v138)
        = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v130).trans (after_v130 m c), (h c main_v138).trans (after_v138 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.RefValue

end
-- ==== Proof.lean ====
/-
  The certificate of the node-memory update kernel against its reference.

  Both programs gather the memory rows of each edge's two end nodes, form a message from them and the edge features,
  run a gated recurrent cell on the message and a time encoding for each of the two rows, and write the new rows back,
  the last write to a node winning. The kernel program computes the message and the cell on blocks of 512 edges, with
  each matrix product split along the pieces the reference lays side by side; over the extended reals a finite sum
  splits into the sums over consecutive ranges, a change of float format is the identity, and the kernel's logistic
  operation is the reference's quotient 1 / (1 + e^(−x)), so the two updated row arrays agree entry by entry, and the
  closing write-back steps are the same function of them. The idealized kernel program has the printed one's text (no
  operation is replaced by another), so the statement relating the two is the true proposition. No finiteness of the inputs is used: only commutativity and associativity of the sums.

  The three frames: the two kernel programs' frames are the block pipeline's (every grid point's blocks lie inside
  their arrays, the arguments are only read); the reference is a straight line of host operations, and its frame is
  its run with the results dropped.
-/
import proofs.«178560_j60421599920314_2_alg».proof.Defs
import proofs.«178560_j60421599920314_2_alg».proof.Proof.Gen.Kernel
import proofs.«178560_j60421599920314_2_alg».proof.Proof.Gen.Kernel.Skeleton
import proofs.«178560_j60421599920314_2_alg».proof.Proof.Gen.Kernel.Launch
import proofs.«178560_j60421599920314_2_alg».proof.Proof.Gen.Kernel.Points
import proofs.«178560_j60421599920314_2_alg».proof.Proof.Gen.Kernel.Frame
import proofs.«178560_j60421599920314_2_alg».proof.Proof.Gen.KernelIdeal
import proofs.«178560_j60421599920314_2_alg».proof.Proof.Gen.KernelIdeal.Skeleton
import proofs.«178560_j60421599920314_2_alg».proof.Proof.Gen.KernelIdeal.Launch
import proofs.«178560_j60421599920314_2_alg».proof.Proof.Gen.KernelIdeal.Points
import proofs.«178560_j60421599920314_2_alg».proof.Proof.Gen.KernelIdeal.Frame
import proofs.«178560_j60421599920314_2_alg».proof.Proof.Gen.ReferenceIdeal
import proofs.«178560_j60421599920314_2_alg».proof.Proof.Gen.Pre_finite_inputs
import proofs.«178560_j60421599920314_2_alg».proof.Proof.Bridge
import proofs.«178560_j60421599920314_2_alg».proof.Proof.RefRun
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the two results forgotten. -/
theorem frame_reference : Cert.frame_ReferenceIdeal := fun m ρ _ =>
  (θ_run Cert.ReferenceIdeal.defs _ _).mono (fun _ h c => (h c).2.2) (Cert.ReferenceIdeal.RefValue.ref_run m ρ)

/-- The idealized kernel program and the idealized reference, from memories agreeing on the arguments, end with the
    same returned memory and the same update times: the reference's last stages at the kernel program's arguments. -/
theorem algebraic : Cert.algebraic_KernelIdeal_ReferenceIdeal := by
  intro m ρ m' ρ' _ hagree
  refine ⟨fun c => Cert.ReferenceIdeal.Read.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)),
    Cert.Bridge.kernel_run m ρ, ?_⟩
  refine (θ_run Cert.ReferenceIdeal.defs _ _).mono (fun _ h c => ?_) (Cert.ReferenceIdeal.RefValue.ref_run m' ρ')
  obtain ⟨a0, a1, a2, a3, a4, a5, a6, a7, a8, a9, a10, a11, a12, a13⟩ := hagree c
  refine ⟨(h c).1.trans ?_, (h c).2.1.trans ?_, (h c).2.2⟩
  · rw [a0, a1, a2, a3, a4, a6, a7, a8, a9, a10, a11, a12, a13]
  · rw [a0, a1, a2, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
